-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512 .f32) (main_arg10 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S4096x512 : Shape := ⟨2, ![4096, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S4096x1536 : Shape := ⟨2, ![4096, 1536]⟩
abbrev S1x1536 : Shape := ⟨2, ![1, 1536]⟩
abbrev S4096x8x64 : Shape := ⟨3, ![4096, 8, 64]⟩
abbrev S8x4096x64 : Shape := ⟨3, ![8, 4096, 64]⟩
abbrev S8x256x64 : Shape := ⟨3, ![8, 256, 64]⟩
abbrev S256x512 : Shape := ⟨2, ![256, 512]⟩
abbrev S1x256x64 : Shape := ⟨3, ![1, 256, 64]⟩
abbrev S256x64 : Shape := ⟨2, ![256, 64]⟩
abbrev S1x4096x64 : Shape := ⟨3, ![1, 4096, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S64x512 : Shape := ⟨2, ![64, 512]⟩
abbrev S1x512 : Shape := ⟨2, ![1, 512]⟩

abbrev nBuf : Space → Nat
  | .hbm => 27
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1536, .f32⟩
  | .hbm, ⟨12, _⟩ => ⟨S512x1536, .bf16⟩
  | .hbm, ⟨13, _⟩ => ⟨S1536, .f32⟩
  | .hbm, ⟨14, _⟩ => ⟨S4096x512, .bf16⟩
  | .hbm, ⟨15, _⟩ => ⟨S4096x1536, .bf16⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S4096x8x64, .bf16⟩
  | .hbm, ⟨20, _⟩ => ⟨S8x4096x64, .bf16⟩
  | .hbm, ⟨21, _⟩ => ⟨S4096x8x64, .bf16⟩
  | .hbm, ⟨22, _⟩ => ⟨S8x4096x64, .bf16⟩
  | .hbm, ⟨23, _⟩ => ⟨S4096x8x64, .bf16⟩
  | .hbm, ⟨24, _⟩ => ⟨S8x4096x64, .bf16⟩
  | .hbm, ⟨25, _⟩ => ⟨S512x512, .bf16⟩
  | .hbm, ⟨26, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S1536, .f32⟩
  | .local _ .vmem, ⟨4, _⟩ => ⟨S512x1536, .bf16⟩
  | .local _ .vmem, ⟨5, _⟩ => ⟨S512x1536, .bf16⟩
  | .local _ .vmem, ⟨6, _⟩ => ⟨S8x256x64, .bf16⟩
  | .local _ .vmem, ⟨7, _⟩ => ⟨S8x256x64, .bf16⟩
  | .local _ .vmem, ⟨8, _⟩ => ⟨S8x4096x64, .bf16⟩
  | .local _ .vmem, ⟨9, _⟩ => ⟨S8x4096x64, .bf16⟩
  | .local _ .vmem, ⟨10, _⟩ => ⟨S256x512, .f32⟩
  | .local _ .vmem, ⟨11, _⟩ => ⟨S256x512, .f32⟩
  | .local _ .vmem, ⟨12, _⟩ => ⟨S512x512, .bf16⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S256x512, .f32⟩
  | .local _ .vmem, ⟨17, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x4096x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S512x1536 : S1x1536.Broadcasts S512x1536
  packedbf16_S512x1536_S512x1536_0_0 : (Rect.unit (s := S512x1536) ![0, 0] S512x1536.size inb_S512x1536_S512x1536_0_0).PackedRows (EltTy.packing .bf16)
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  shapeCasts_S4096x512_S4096x8x64 : S4096x512.ShapeCasts S4096x8x64
  transposes_S4096x8x64_S8x4096x64_1_0_2 : S4096x8x64.Transposes [1, 0, 2] S8x4096x64
  inb_S8x256x64_S1x256x64_0_0_0 : ∀ a, (![0, 0, 0] : Fin 3 → Nat) a + S1x256x64.size a ≤ S8x256x64.size a
  h_S1x256x64 : 0 < S1x256x64.numel
  shapeCasts_S1x256x64_S256x64 : S1x256x64.ShapeCasts S256x64
  inb_S8x4096x64_S1x4096x64_0_0_0 : ∀ a, (![0, 0, 0] : Fin 3 → Nat) a + S1x4096x64.size a ≤ S8x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  inb_S512x512_S64x512_0_0 : ∀ a, (![0, 0] : Fin 2 → Nat) a + S64x512.size a ≤ S512x512.size a
  h_S64x512 : 0 < S64x512.numel
  shapeCasts_S64x512_S64x512 : S64x512.ShapeCasts S64x512
  inb_S8x256x64_S1x256x64_1_0_0 : ∀ a, (![1, 0, 0] : Fin 3 → Nat) a + S1x256x64.size a ≤ S8x256x64.size a
  inb_S8x4096x64_S1x4096x64_1_0_0 : ∀ a, (![1, 0, 0] : Fin 3 → Nat) a + S1x4096x64.size a ≤ S8x4096x64.size a
  inb_S512x512_S64x512_64_0 : ∀ a, (![64, 0] : Fin 2 → Nat) a + S64x512.size a ≤ S512x512.size a
  inb_S8x256x64_S1x256x64_2_0_0 : ∀ a, (![2, 0, 0] : Fin 3 → Nat) a + S1x256x64.size a ≤ S8x256x64.size a
  inb_S8x4096x64_S1x4096x64_2_0_0 : ∀ a, (![2, 0, 0] : Fin 3 → Nat) a + S1x4096x64.size a ≤ S8x4096x64.size a
  inb_S512x512_S64x512_128_0 : ∀ a, (![128, 0] : Fin 2 → Nat) a + S64x512.size a ≤ S512x512.size a
  inb_S8x256x64_S1x256x64_3_0_0 : ∀ a, (![3, 0, 0] : Fin 3 → Nat) a + S1x256x64.size a ≤ S8x256x64.size a
  inb_S8x4096x64_S1x4096x64_3_0_0 : ∀ a, (![3, 0, 0] : Fin 3 → Nat) a + S1x4096x64.size a ≤ S8x4096x64.size a
  inb_S512x512_S64x512_192_0 : ∀ a, (![192, 0] : Fin 2 → Nat) a + S64x512.size a ≤ S512x512.size a
  inb_S8x256x64_S1x256x64_4_0_0 : ∀ a, (![4, 0, 0] : Fin 3 → Nat) a + S1x256x64.size a ≤ S8x256x64.size a
  inb_S8x4096x64_S1x4096x64_4_0_0 : ∀ a, (![4, 0, 0] : Fin 3 → Nat) a + S1x4096x64.size a ≤ S8x4096x64.size a
  inb_S512x512_S64x512_256_0 : ∀ a, (![256, 0] : Fin 2 → Nat) a + S64x512.size a ≤ S512x512.size a
  inb_S8x256x64_S1x256x64_5_0_0 : ∀ a, (![5, 0, 0] : Fin 3 → Nat) a + S1x256x64.size a ≤ S8x256x64.size a
  inb_S8x4096x64_S1x4096x64_5_0_0 : ∀ a, (![5, 0, 0] : Fin 3 → Nat) a + S1x4096x64.size a ≤ S8x4096x64.size a
  inb_S512x512_S64x512_320_0 : ∀ a, (![320, 0] : Fin 2 → Nat) a + S64x512.size a ≤ S512x512.size a
  inb_S8x256x64_S1x256x64_6_0_0 : ∀ a, (![6, 0, 0] : Fin 3 → Nat) a + S1x256x64.size a ≤ S8x256x64.size a
  inb_S8x4096x64_S1x4096x64_6_0_0 : ∀ a, (![6, 0, 0] : Fin 3 → Nat) a + S1x4096x64.size a ≤ S8x4096x64.size a
  inb_S512x512_S64x512_384_0 : ∀ a, (![384, 0] : Fin 2 → Nat) a + S64x512.size a ≤ S512x512.size a
  inb_S8x256x64_S1x256x64_7_0_0 : ∀ a, (![7, 0, 0] : Fin 3 → Nat) a + S1x256x64.size a ≤ S8x256x64.size a
  inb_S8x4096x64_S1x4096x64_7_0_0 : ∀ a, (![7, 0, 0] : Fin 3 → Nat) a + S1x4096x64.size a ≤ S8x4096x64.size a
  inb_S512x512_S64x512_448_0 : ∀ a, (![448, 0] : Fin 2 → Nat) a + S64x512.size a ≤ S512x512.size a
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  reduces_S256x512_S256 : S256x512.Reduces [1] S256
  broadcasts_S256x1_S256x512 : S256x1.Broadcasts S256x512
  dot_S512x512_S512x1536_S512x1536_1_0_0_1_n_n_wf : DotDims.WF S512x512 S512x1536 S512x1536 [1] [0] [0] [1] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  dot_S256x64_S64x512_S256x512_1_0_0_1_n_n_wf : DotDims.WF S256x64 S64x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S4096x1536.size a
  hwx0_3 : ∀ i : grid0.Coords, EltTy.bits .bf16 = 32 ∨ (Rect.block (s := S4096x1536) S512x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x64.size a ≤ S8x4096x64.size a
  hwx1_0 : ∀ i : grid1.Coords, EltTy.bits .bf16 = 32 ∨ (Rect.block (s := S8x4096x64) S8x256x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x64.size a ≤ S8x4096x64.size a
  hwx1_1 : ∀ i : grid1.Coords, EltTy.bits .bf16 = 32 ∨ (Rect.block (s := S8x4096x64) S8x4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x4096x64.size a ≤ S8x4096x64.size a
  hwx1_2 : ∀ i : grid1.Coords, EltTy.bits .bf16 = 32 ∨ (Rect.block (s := S8x4096x64) S8x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S4096x512.size a
  hwx1_3 : ∀ i : grid1.Coords, EltTy.bits .f32 = 32 ∨ (Rect.block (s := S4096x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S4096x512.size a
  hwx1_8 : ∀ i : grid1.Coords, EltTy.bits .f32 = 32 ∨ (Rect.block (s := S4096x512) S256x512.size (cc1_transform_8 i) (hinb1_8 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_v3) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S8x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8x4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8x4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S256x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S4096 : Shape := ⟨1, ![4096]⟩
abbrev S4096x1 : Shape := ⟨2, ![4096, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x8x64, .f32⟩
  | .hbm, ⟨24, _⟩ => ⟨S8x4096x64, .f32⟩
  | .hbm, ⟨25, _⟩ => ⟨S4096x8x64, .f32⟩
  | .hbm, ⟨26, _⟩ => ⟨S8x4096x64, .f32⟩
  | .hbm, ⟨27, _⟩ => ⟨S4096x8x64, .f32⟩
  | .hbm, ⟨28, _⟩ => ⟨S8x4096x64, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x64, .f32⟩
  | .hbm, ⟨48, _⟩ => ⟨S4096x8x64, .f32⟩
  | .hbm, ⟨49, _⟩ => ⟨S4096x512, .f32⟩
  | .hbm, ⟨50, _⟩ => ⟨S4096x512, .f32⟩
  | .hbm, ⟨51, _⟩ => ⟨S1x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x512, .f32⟩
  | .hbm, ⟨77, _⟩ => ⟨S4096x512, .f32⟩
  | .hbm, ⟨78, _⟩ => ⟨S1x512, .f32⟩
  | .hbm, ⟨79, _⟩ => ⟨S4096x512, .f32⟩
  | .hbm, ⟨80, _⟩ => ⟨S4096x512, .f32⟩
  | .hbm, ⟨81, _⟩ => ⟨S1x512, .f32⟩
  | .hbm, ⟨82, _⟩ => ⟨S4096x512, .f32⟩
  | .hbm, ⟨83, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  shapeCasts_S4096x512_S4096x8x64 : S4096x512.ShapeCasts S4096x8x64
  transposes_S4096x8x64_S8x4096x64_1_0_2 : S4096x8x64.Transposes [1, 0, 2] S8x4096x64
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x64_S4096x8x64_1_0_2 : S8x4096x64.Transposes [1, 0, 2] S4096x8x64
  shapeCasts_S4096x8x64_S4096x512 : S4096x8x64.ShapeCasts S4096x512
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  dot_S4096x512_S512x512_S4096x512_1_0_0_1_n_n_wf : DotDims.WF S4096x512 S512x512 S4096x512 [1] [0] [0] [1] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.KBBody0.lean ====
/-
  The first pallas_call of @main: at each of its 8 grid points the body reads one 512-row block of the
  (converted) input x, the whole concatenated weight [Wq|Wk|Wv] and the whole concatenated bias, and writes the
  512×1536 block  x_block · W + bias  of the projections. This module states what each window's staging buffer
  holds before and after the body at a point, as functions of the arrays the region is entered with, and proves
  the body's Hoare triple and the pipeline's body obligation from it.
-/
import proofs.«106357_j15109694948028_2_alg».proof.Proof.Gen.Kernel.Launch
import proofs.«106357_j15109694948028_2_alg».proof.Proof.Gen.Kernel.Skeleton
import proofs.«106357_j15109694948028_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: where it did not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there: where it did not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there: where it did not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole of its buffer. -/
abbrev r0_x : Rect S512x512 := Rect.unit (s := S512x512) ![0, 0] S512x512.size inb_S512x512_S512x512_0_0
abbrev r0_w : Rect S512x1536 := Rect.unit (s := S512x1536) ![0, 0] S512x1536.size inb_S512x1536_S512x1536_0_0
abbrev r0_b : Rect S1536 := Rect.unit (s := S1536) ![0] S1536.size inb_S1536_S1536_0

/-- The output window's staging buffer after the body: its one store, the payload of the three loaded blocks. -/
def out0_3 (x0 : Vec F S512x512 .bf16) (x1 : Vec F S512x1536 .bf16) (x2 : Vec F S1536 .f32) : Vec F S512x1536 .bf16 :=
  View.canon [⟨r0_w, k0_pay1 (View.ld x0 r0_x) (View.ld x1 r0_w) (View.ld x2 r0_b)⟩]

/-- The one store covers the buffer. -/
theorem cover0_3 (p0 : Vec F S512x1536 .bf16) (y : S512x1536.Idx) :
    ∃ pc ∈ ([⟨r0_w, p0⟩] : List (View.Piece (Elt F) S512x1536 .bf16)), y ∈ pc.1.set :=
  View.cover_of_tiled [⟨r0_w, p0⟩] S512x1536.size (by rfl) y

set_option maxHeartbeats 1000000 in
/-- The body on whole staging memrefs, the inputs' at contents `x0 x1 x2` and the output's at anything, runs to the
    continuation with the inputs' unchanged and the output's at `out0_3 x0 x1 x2`. -/
theorem sound_kernel0 (c : Dev nD) (E : Set ℕ) (i : grid0.Coords) (arg1 : Memref sig .tc .vmem S512x512 .bf16) (harg1 : arg1.IsWhole) (arg2 : Memref sig .tc .vmem S512x1536 .bf16) (harg2 : arg2.IsWhole) (arg3 : Memref sig .tc .vmem S1536 .f32) (harg3 : arg3.IsWhole) (arg4 : Memref sig .tc .vmem S512x1536 .bf16) (harg4 : arg4.IsWhole)
    (x0 : Vec F S512x512 .bf16) (x1 : Vec F S512x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point
    `t` each input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Run

end
-- ==== Proof.KPayDefBits.lean ====
/-
  The value the second kernel body stores, as one pure function of the vectors it loads.

  The body computes, for each of the 8 heads, the scaled scores of a block of 256 query rows against all 4096 keys,
  their soft-max weights, the weighted sum of the values divided once by the weights' sum, and that times the
  head's 64 rows of the output weight, accumulated over the heads; then it adds the output bias and the residual
  block and normalises each row. The generated skeleton names the pieces of this arithmetic `k1_pay1` … `k1_pay17`
  (the cut between them is by statement count, so one head's arithmetic is spread over several pieces); `pay1` is
  their composition, every intermediate value substituted, with each load named by what it loads.
-/
import proofs.«106357_j15109694948028_2_alg».proof.Proof.Gen.Kernel.Skeleton

noncomputable section

namespace Cert.Kernel.KVal

open Cert.Kernel Cert.Kernel.Gen Idealize.ShloMosaic

variable {F : FTy → Type} [FloatOps F]

/-- What the second body stores (the printed `%230`), as a function of its loads. The parameters, by printed load:
  * head 0: `q0` = %1 (the query slab, argument 1 at [0,0,0]), `k0` = %3 (the key slab, argument 2 at [0,0,0]), `v0` = %5 (the value slab, argument 3 at [0,0,0]), `w0` = %21 (rows 0…63 of the output weight, argument 5 at [0,0]);
  * head 1: `q1` = %26 (the query slab, argument 1 at [1,0,0]), `k1` = %28 (the key slab, argument 2 at [1,0,0]), `v1` = %30 (the value slab, argument 3 at [1,0,0]), `w1` = %46 (rows 64…127 of the output weight, argument 5 at [64,0]);
  * head 2: `q2` = %51 (the query slab, argument 1 at [2,0,0]), `k2` = %53 (the key slab, argument 2 at [2,0,0]), `v2` = %55 (the value slab, argument 3 at [2,0,0]), `w2` = %71 (rows 128…191 of the output weight, argument 5 at [128,0]);
  * head 3: `q3` = %76 (the query slab, argument 1 at [3,0,0]), `k3` = %78 (the key slab, argument 2 at [3,0,0]), `v3` = %80 (the value slab, argument 3 at [3,0,0]), `w3` = %96 (rows 192…255 of the output weight, argument 5 at [192,0]);
  * head 4: `q4` = %101 (the query slab, argument 1 at [4,0,0]), `k4` = %103 (the key slab, argument 2 at [4,0,0]), `v4` = %105 (the value slab, argument 3 at [4,0,0]), `w4` = %121 (rows 256…319 of the output weight, argument 5 at [256,0]);
  * head 5: `q5` = %126 (the query slab, argument 1 at [5,0,0]), `k5` = %128 (the key slab, argument 2 at [5,0,0]), `v5` = %130 (the value slab, argument 3 at [5,0,0]), `w5` = %146 (rows 320…383 of the output weight, argument 5 at [320,0]);
  * head 6: `q6` = %151 (the query slab, argument 1 at [6,0,0]), `k6` = %153 (the key slab, argument 2 at [6,0,0]), `v6` = %155 (the value slab, argument 3 at [6,0,0]), `w6` = %171 (rows 384…447 of the output weight, argument 5 at [384,0]);
  * head 7: `q7` = %176 (the query slab, argument 1 at [7,0,0]), `k7` = %178 (the key slab, argument 2 at [7,0,0]), `v7` = %180 (the value slab, argument 3 at [7,0,0]), `w7` = %196 (rows 448…511 of the output weight, argument 5 at [448,0]);
  * `bo` = %201 (the output bias, argument 6), `xb` = %205 (the residual block of 256 rows, argument 4),
    `g` = %223 (the normalisation's scale, argument 7), `be` = %227 (its shift, argument 8).
  The last load of the body (%231, of the output buffer) is not read by the stored value.

  The accumulator after head 0 is `k1_pay2`, after head 1 `k1_pay6`, after heads 2 and 3 `k1_pay10`, after head 4
  `k1_pay12`, after heads 5 and 6 `k1_pay15`; `k1_pay16` adds head 7, the bias and the residual and centres each
  row, `k1_pay17` is the row sums of the centred squares, and `k1_pay1` finishes the normalisation. -/
noncomputable def pay1
    (q0 : Vec F S1x256x64 .bf16) (k0 v0 : Vec F S1x4096x64 .bf16) (w0 : Vec F S64x512 .bf16)
    (q1 : Vec F S1x256x64 .bf16) (k1 v1 : Vec F S1x4096x64 .bf16) (w1 : Vec F S64x512 .bf16)
    (q2 : Vec F S1x256x64 .bf16) (k2 v2 : Vec F S1x4096x64 .bf16) (w2 : Vec F S64x512 .bf16)
    (q3 : Vec F S1x256x64 .bf16) (k3 v3 : Vec F S1x4096x64 .bf16) (w3 : Vec F S64x512 .bf16)
    (q4 : Vec F S1x256x64 .bf16) (k4 v4 : Vec F S1x4096x64 .bf16) (w4 : Vec F S64x512 .bf16)
    (q5 : Vec F S1x256x64 .bf16) (k5 v5 : Vec F S1x4096x64 .bf16) (w5 : Vec F S64x512 .bf16)
    (q6 : Vec F S1x256x64 .bf16) (k6 v6 : Vec F S1x4096x64 .bf16) (w6 : Vec F S64x512 .bf16)
    (q7 : Vec F S1x256x64 .bf16) (k7 v7 : Vec F S1x4096x64 .bf16) (w7 : Vec F S64x512 .bf16)
    (bo : Vec F S512 .f32) (xb : Vec F S256x512 .f32) (g be : Vec F S512 .f32) : FVec F S256x512 .f32 :=
  k1_pay1
    (k1_pay16
      (k1_pay15
        (k1_pay12
          (k1_pay10
            (k1_pay6 (k1_pay2 q0 k0 v0 w0) (k1_pay3 q1) (k1_pay4 k1) (k1_pay5 v1) w1)
            (k1_pay8 q2 k2 v2) (k1_pay9 q2 k2) w2 q3 k3 v3 w3)
          (k1_pay11 q4) k4 v4 w4)
        (k1_pay13 v5) (k1_pay14 q5 k5) w5 q6 k6 v6 w6)
      q7 k7 v7 w7 bo xb)
    (k1_pay17
      (k1_pay15
        (k1_pay12
          (k1_pay10
            (k1_pay6 (k1_pay2 q0 k0 v0 w0) (k1_pay3 q1) (k1_pay4 k1) (k1_pay5 v1) w1)
            (k1_pay8 q2 k2 v2) (k1_pay9 q2 k2) w2 q3 k3 v3 w3)
          (k1_pay11 q4) k4 v4 w4)
        (k1_pay13 v5) (k1_pay14 q5 k5) w5 q6 k6 v6 w6)
      q7 k7 v7 w7 bo xb)
    g be

end Cert.Kernel.KVal

end
-- ==== Proof.KBBody1.lean ====
/-
  The second pallas_call of @main: at each of its 16 grid points the body reads a 256-row block of the query
  heads, all keys and all values of the 8 heads, the matching 256-row block of x, the whole output weight and the
  three 512-vectors (output bias, layer-norm scale and shift), and writes the 256×512 block of the normalised
  result. This module states what each window's staging buffer holds before and after the body at a point, as
  functions of the arrays the region is entered with, and proves the body's Hoare triple and the pipeline's body
  obligation from it. The body's arithmetic is the one pure term `KVal.pay1` of its 36 loaded pieces.
-/
import proofs.«106357_j15109694948028_2_alg».proof.Proof.Gen.Kernel.Launch
import proofs.«106357_j15109694948028_2_alg».proof.Proof.Gen.Kernel.Skeleton
import proofs.«106357_j15109694948028_2_alg».proof.Proof.Gen.Kernel.Points
import proofs.«106357_j15109694948028_2_alg».proof.Proof.KPayDefBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KVal

section Region1
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: where it did not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there: where it did not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there: where it did not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there: where it did not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there: where it did not, the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the pipeline fetched it
    there: where it did not, the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether or not the pipeline fetched it
    there: where it did not, the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, whether or not the pipeline fetched it
    there: where it did not, the block index has not moved since the point before. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through: head `h`'s slab of the query block, of the keys and of the values, and
    its 64 rows of the output weight; the whole of a 512-vector; the whole of a 256×512 block. -/
abbrev r1_q0 : Rect S8x256x64 := Rect.unit (s := S8x256x64) ![0, 0, 0] S1x256x64.size inb_S8x256x64_S1x256x64_0_0_0
abbrev r1_k0 : Rect S8x4096x64 := Rect.unit (s := S8x4096x64) ![0, 0, 0] S1x4096x64.size inb_S8x4096x64_S1x4096x64_0_0_0
abbrev r1_w0 : Rect S512x512 := Rect.unit (s := S512x512) ![0, 0] S64x512.size inb_S512x512_S64x512_0_0
abbrev r1_q1 : Rect S8x256x64 := Rect.unit (s := S8x256x64) ![1, 0, 0] S1x256x64.size inb_S8x256x64_S1x256x64_1_0_0
abbrev r1_k1 : Rect S8x4096x64 := Rect.unit (s := S8x4096x64) ![1, 0, 0] S1x4096x64.size inb_S8x4096x64_S1x4096x64_1_0_0
abbrev r1_w1 : Rect S512x512 := Rect.unit (s := S512x512) ![64, 0] S64x512.size inb_S512x512_S64x512_64_0
abbrev r1_q2 : Rect S8x256x64 := Rect.unit (s := S8x256x64) ![2, 0, 0] S1x256x64.size inb_S8x256x64_S1x256x64_2_0_0
abbrev r1_k2 : Rect S8x4096x64 := Rect.unit (s := S8x4096x64) ![2, 0, 0] S1x4096x64.size inb_S8x4096x64_S1x4096x64_2_0_0
abbrev r1_w2 : Rect S512x512 := Rect.unit (s := S512x512) ![128, 0] S64x512.size inb_S512x512_S64x512_128_0
abbrev r1_q3 : Rect S8x256x64 := Rect.unit (s := S8x256x64) ![3, 0, 0] S1x256x64.size inb_S8x256x64_S1x256x64_3_0_0
abbrev r1_k3 : Rect S8x4096x64 := Rect.unit (s := S8x4096x64) ![3, 0, 0] S1x4096x64.size inb_S8x4096x64_S1x4096x64_3_0_0
abbrev r1_w3 : Rect S512x512 := Rect.unit (s := S512x512) ![192, 0] S64x512.size inb_S512x512_S64x512_192_0
abbrev r1_q4 : Rect S8x256x64 := Rect.unit (s := S8x256x64) ![4, 0, 0] S1x256x64.size inb_S8x256x64_S1x256x64_4_0_0
abbrev r1_k4 : Rect S8x4096x64 := Rect.unit (s := S8x4096x64) ![4, 0, 0] S1x4096x64.size inb_S8x4096x64_S1x4096x64_4_0_0
abbrev r1_w4 : Rect S512x512 := Rect.unit (s := S512x512) ![256, 0] S64x512.size inb_S512x512_S64x512_256_0
abbrev r1_q5 : Rect S8x256x64 := Rect.unit (s := S8x256x64) ![5, 0, 0] S1x256x64.size inb_S8x256x64_S1x256x64_5_0_0
abbrev r1_k5 : Rect S8x4096x64 := Rect.unit (s := S8x4096x64) ![5, 0, 0] S1x4096x64.size inb_S8x4096x64_S1x4096x64_5_0_0
abbrev r1_w5 : Rect S512x512 := Rect.unit (s := S512x512) ![320, 0] S64x512.size inb_S512x512_S64x512_320_0
abbrev r1_q6 : Rect S8x256x64 := Rect.unit (s := S8x256x64) ![6, 0, 0] S1x256x64.size inb_S8x256x64_S1x256x64_6_0_0
abbrev r1_k6 : Rect S8x4096x64 := Rect.unit (s := S8x4096x64) ![6, 0, 0] S1x4096x64.size inb_S8x4096x64_S1x4096x64_6_0_0
abbrev r1_w6 : Rect S512x512 := Rect.unit (s := S512x512) ![384, 0] S64x512.size inb_S512x512_S64x512_384_0
abbrev r1_q7 : Rect S8x256x64 := Rect.unit (s := S8x256x64) ![7, 0, 0] S1x256x64.size inb_S8x256x64_S1x256x64_7_0_0
abbrev r1_k7 : Rect S8x4096x64 := Rect.unit (s := S8x4096x64) ![7, 0, 0] S1x4096x64.size inb_S8x4096x64_S1x4096x64_7_0_0
abbrev r1_w7 : Rect S512x512 := Rect.unit (s := S512x512) ![448, 0] S64x512.size inb_S512x512_S64x512_448_0
abbrev r1_v : Rect S512 := Rect.unit (s := S512) ![0] S512.size inb_S512_S512_0
abbrev r1_o : Rect S256x512 := Rect.unit (s := S256x512) ![0, 0] S256x512.size inb_S256x512_S256x512_0_0

/-- The output window's staging buffer after the body: its one store, the payload of the loaded pieces. -/
def out1_8 (x0 : Vec F S8x256x64 .bf16) (x1 x2 : Vec F S8x4096x64 .bf16) (x3 : Vec F S256x512 .f32) (x4 : Vec F S512x512 .bf16)
    (x5 x6 x7 : Vec F S512 .f32) : Vec F S256x512 .f32 :=
  View.canon [⟨r1_o, pay1 (View.ld x0 r1_q0) (View.ld x1 r1_k0) (View.ld x2 r1_k0) (View.ld x4 r1_w0)
      (View.ld x0 r1_q1) (View.ld x1 r1_k1) (View.ld x2 r1_k1) (View.ld x4 r1_w1)
      (View.ld x0 r1_q2) (View.ld x1 r1_k2) (View.ld x2 r1_k2) (View.ld x4 r1_w2)
      (View.ld x0 r1_q3) (View.ld x1 r1_k3) (View.ld x2 r1_k3) (View.ld x4 r1_w3)
      (View.ld x0 r1_q4) (View.ld x1 r1_k4) (View.ld x2 r1_k4) (View.ld x4 r1_w4)
      (View.ld x0 r1_q5) (View.ld x1 r1_k5) (View.ld x2 r1_k5) (View.ld x4 r1_w5)
      (View.ld x0 r1_q6) (View.ld x1 r1_k6) (View.ld x2 r1_k6) (View.ld x4 r1_w6)
      (View.ld x0 r1_q7) (View.ld x1 r1_k7) (View.ld x2 r1_k7) (View.ld x4 r1_w7)
      (View.ld x5 r1_v) (View.ld x3 r1_o) (View.ld x6 r1_v) (View.ld x7 r1_v)⟩]

/-- The one store covers the buffer. -/
theorem cover1_8 (p0 : Vec F S256x512 .f32) (y : S256x512.Idx) :
    ∃ pc ∈ ([⟨r1_o, p0⟩] : List (View.Piece (Elt F) S256x512 .f32)), y ∈ pc.1.set :=
  View.cover_of_tiled [⟨r1_o, p0⟩] S256x512.size (by rfl) y

set_option maxHeartbeats 4000000 in
/-- The body on whole staging memrefs, the inputs' at contents `x0 … x7` and the output's at anything, runs to the
    continuation with the inputs' unchanged and the output's at `out1_8 x0 … x7`. -/
theorem sound_kernel1 (c : Dev nD) (E : Set ℕ) (i : grid1.Coords)
    (arg1 : Memref sig .tc .vmem S8x256x64 .bf16) (harg1 : arg1.IsWhole) (arg2 : Memref sig .tc .vmem S8x4096x64 .bf16) (harg2 : arg2.IsWhole) (arg3 : Memref sig .tc .vmem S8x4096x64 .bf16) (harg3 : arg3.IsWhole) (arg4 : Memref sig .tc .vmem S256x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S256x512 .f32) (harg9 : arg9.IsWhole)
    (x0 : Vec F S8x256x64 .bf16) (x1 x2 : Vec F S8x4096x64 .bf16) (x3 : Vec F S256x512 .f32) (x4 : Vec F S512x512 .bf16)
    (x5 x6 x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- The proof data of the second pipeline on core `c`: the arrays as the region finds them; after the body at point
    `t` each input's buffer at its block and the output's at `out1_8` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Run

end
-- ==== Proof.KBRun.lean ====
/-
  The run of @main: a stretch of host operations (the two concatenations and two format changes), the first
  pallas_call, a second stretch (three column slices, each reshaped to heads and transposed, and one format
  change), the second pallas_call. The contents of every buffer outside the kernels' scoped memory are named at
  each of the four boundaries as a fold from the launch memory: a host stretch applies its operations; a
  pallas_call leaves each of its windows' arrays at what the pipeline's write-backs make of it and every other
  buffer alone. Every weakly fair execution terminates without fault in a state whose every such buffer holds the
  last fold's value; in particular each argument array holds its launch contents.
-/
import proofs.«106357_j15109694948028_2_alg».proof.Proof.Gen.Kernel.Launch
import proofs.«106357_j15109694948028_2_alg».proof.Proof.Gen.Kernel.Skeleton
import proofs.«106357_j15109694948028_2_alg».proof.Proof.Gen.Kernel.Points
import proofs.«106357_j15109694948028_2_alg».proof.Proof.KBBody0
import proofs.«106357_j15109694948028_2_alg».proof.Proof.KBBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a pallas_call only reads them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 7).trans (((dat1 (V3 m ρ) c).arrAt_in 7 rfl _).trans (A_eq1 (V3 m ρ) c 7))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Region 0 over the thread state: entered with every unscoped buffer at the contents before it, left with them at
    the contents after it. Its windows' arrays are split out of the unscoped buffers and put back at what the
    pipeline leaves in them; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its windows' arrays are split out of the unscoped buffers and put back at what the
    pipeline leaves in them; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, in a
    state where every buffer outside the kernels' scoped memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run_all m ρ)

end Cert.Kernel.Run

end
-- ==== Proof.KIBody0.lean ====
/-
  The first pallas_call of @main: at each of its 8 grid points the body reads one 512-row block of the
  (converted) input x, the whole concatenated weight [Wq|Wk|Wv] and the whole concatenated bias, and writes the
  512×1536 block  x_block · W + bias  of the projections. This module states what each window's staging buffer
  holds before and after the body at a point, as functions of the arrays the region is entered with, and proves
  the body's Hoare triple and the pipeline's body obligation from it.
-/
import proofs.«106357_j15109694948028_2_alg».proof.Proof.Gen.KernelIdeal.Launch
import proofs.«106357_j15109694948028_2_alg».proof.Proof.Gen.KernelIdeal.Skeleton
import proofs.«106357_j15109694948028_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there: where it did not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the pipeline fetched it
    there: where it did not, the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the pipeline fetched it
    there: where it did not, the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole of its buffer. -/
abbrev r0_x : Rect S512x512 := Rect.unit (s := S512x512) ![0, 0] S512x512.size inb_S512x512_S512x512_0_0
abbrev r0_w : Rect S512x1536 := Rect.unit (s := S512x1536) ![0, 0] S512x1536.size inb_S512x1536_S512x1536_0_0
abbrev r0_b : Rect S1536 := Rect.unit (s := S1536) ![0] S1536.size inb_S1536_S1536_0

/-- The output window's staging buffer after the body: its one store, the payload of the three loaded blocks. -/
def out0_3 (x0 : Vec F S512x512 .bf16) (x1 : Vec F S512x1536 .bf16) (x2 : Vec F S1536 .f32) : Vec F S512x1536 .bf16 :=
  View.canon [⟨r0_w, k0_pay1 (View.ld x0 r0_x) (View.ld x1 r0_w) (View.ld x2 r0_b)⟩]

/-- The one store covers the buffer. -/
theorem cover0_3 (p0 : Vec F S512x1536 .bf16) (y : S512x1536.Idx) :
    ∃ pc ∈ ([⟨r0_w, p0⟩] : List (View.Piece (Elt F) S512x1536 .bf16)), y ∈ pc.1.set :=
  View.cover_of_tiled [⟨r0_w, p0⟩] S512x1536.size (by rfl) y

set_option maxHeartbeats 1000000 in
/-- The body on whole staging memrefs, the inputs' at contents `x0 x1 x2` and the output's at anything, runs to the
    continuation with the inputs' unchanged and the output's at `out0_3 x0 x1 x2`. -/
theorem sound_kernel0 (c : Dev nD) (E : Set ℕ) (i : grid0.Coords) (arg1 : Memref sig .tc .vmem S512x512 .bf16) (harg1 : arg1.IsWhole) (arg2 : Memref sig .tc .vmem S512x1536 .bf16) (harg2 : arg2.IsWhole) (arg3 : Memref sig .tc .vmem S1536 .f32) (harg3 : arg3.IsWhole) (arg4 : Memref sig .tc .vmem S512x1536 .bf16) (harg4 : arg4.IsWhole)
    (x0 : Vec F S512x512 .bf16) (x1 : Vec F S512x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point
    `t` each input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Run

end
-- ==== Proof.KPayDef.lean ====
/-
  The value the second kernel body stores, as one pure function of the vectors it loads.

  The body computes, for each of the 8 heads, the scaled scores of a block of 256 query rows against all 4096 keys,
  their soft-max weights, the weighted sum of the values divided once by the weights' sum, and that times the
  head's 64 rows of the output weight, accumulated over the heads; then it adds the output bias and the residual
  block and normalises each row. The generated skeleton names the pieces of this arithmetic `k1_pay1` … `k1_pay17`
  (the cut between them is by statement count, so one head's arithmetic is spread over several pieces); `pay1` is
  their composition, every intermediate value substituted, with each load named by what it loads.
-/
import proofs.«106357_j15109694948028_2_alg».proof.Proof.Gen.KernelIdeal.Skeleton

noncomputable section

namespace Cert.KernelIdeal.KVal

open Cert.KernelIdeal Cert.KernelIdeal.Gen Idealize.ShloMosaic

variable {F : FTy → Type} [FloatOps F]

/-- What the second body stores (the printed `%230`), as a function of its loads. The parameters, by printed load:
  * head 0: `q0` = %1 (the query slab, argument 1 at [0,0,0]), `k0` = %3 (the key slab, argument 2 at [0,0,0]), `v0` = %5 (the value slab, argument 3 at [0,0,0]), `w0` = %21 (rows 0…63 of the output weight, argument 5 at [0,0]);
  * head 1: `q1` = %26 (the query slab, argument 1 at [1,0,0]), `k1` = %28 (the key slab, argument 2 at [1,0,0]), `v1` = %30 (the value slab, argument 3 at [1,0,0]), `w1` = %46 (rows 64…127 of the output weight, argument 5 at [64,0]);
  * head 2: `q2` = %51 (the query slab, argument 1 at [2,0,0]), `k2` = %53 (the key slab, argument 2 at [2,0,0]), `v2` = %55 (the value slab, argument 3 at [2,0,0]), `w2` = %71 (rows 128…191 of the output weight, argument 5 at [128,0]);
  * head 3: `q3` = %76 (the query slab, argument 1 at [3,0,0]), `k3` = %78 (the key slab, argument 2 at [3,0,0]), `v3` = %80 (the value slab, argument 3 at [3,0,0]), `w3` = %96 (rows 192…255 of the output weight, argument 5 at [192,0]);
  * head 4: `q4` = %101 (the query slab, argument 1 at [4,0,0]), `k4` = %103 (the key slab, argument 2 at [4,0,0]), `v4` = %105 (the value slab, argument 3 at [4,0,0]), `w4` = %121 (rows 256…319 of the output weight, argument 5 at [256,0]);
  * head 5: `q5` = %126 (the query slab, argument 1 at [5,0,0]), `k5` = %128 (the key slab, argument 2 at [5,0,0]), `v5` = %130 (the value slab, argument 3 at [5,0,0]), `w5` = %146 (rows 320…383 of the output weight, argument 5 at [320,0]);
  * head 6: `q6` = %151 (the query slab, argument 1 at [6,0,0]), `k6` = %153 (the key slab, argument 2 at [6,0,0]), `v6` = %155 (the value slab, argument 3 at [6,0,0]), `w6` = %171 (rows 384…447 of the output weight, argument 5 at [384,0]);
  * head 7: `q7` = %176 (the query slab, argument 1 at [7,0,0]), `k7` = %178 (the key slab, argument 2 at [7,0,0]), `v7` = %180 (the value slab, argument 3 at [7,0,0]), `w7` = %196 (rows 448…511 of the output weight, argument 5 at [448,0]);
  * `bo` = %201 (the output bias, argument 6), `xb` = %205 (the residual block of 256 rows, argument 4),
    `g` = %223 (the normalisation's scale, argument 7), `be` = %227 (its shift, argument 8).
  The last load of the body (%231, of the output buffer) is not read by the stored value.

  The accumulator after head 0 is `k1_pay2`, after head 1 `k1_pay6`, after heads 2 and 3 `k1_pay10`, after head 4
  `k1_pay12`, after heads 5 and 6 `k1_pay15`; `k1_pay16` adds head 7, the bias and the residual and centres each
  row, `k1_pay17` is the row sums of the centred squares, and `k1_pay1` finishes the normalisation. -/
noncomputable def pay1
    (q0 : Vec F S1x256x64 .bf16) (k0 v0 : Vec F S1x4096x64 .bf16) (w0 : Vec F S64x512 .bf16)
    (q1 : Vec F S1x256x64 .bf16) (k1 v1 : Vec F S1x4096x64 .bf16) (w1 : Vec F S64x512 .bf16)
    (q2 : Vec F S1x256x64 .bf16) (k2 v2 : Vec F S1x4096x64 .bf16) (w2 : Vec F S64x512 .bf16)
    (q3 : Vec F S1x256x64 .bf16) (k3 v3 : Vec F S1x4096x64 .bf16) (w3 : Vec F S64x512 .bf16)
    (q4 : Vec F S1x256x64 .bf16) (k4 v4 : Vec F S1x4096x64 .bf16) (w4 : Vec F S64x512 .bf16)
    (q5 : Vec F S1x256x64 .bf16) (k5 v5 : Vec F S1x4096x64 .bf16) (w5 : Vec F S64x512 .bf16)
    (q6 : Vec F S1x256x64 .bf16) (k6 v6 : Vec F S1x4096x64 .bf16) (w6 : Vec F S64x512 .bf16)
    (q7 : Vec F S1x256x64 .bf16) (k7 v7 : Vec F S1x4096x64 .bf16) (w7 : Vec F S64x512 .bf16)
    (bo : Vec F S512 .f32) (xb : Vec F S256x512 .f32) (g be : Vec F S512 .f32) : FVec F S256x512 .f32 :=
  k1_pay1
    (k1_pay16
      (k1_pay15
        (k1_pay12
          (k1_pay10
            (k1_pay6 (k1_pay2 q0 k0 v0 w0) (k1_pay3 q1) (k1_pay4 k1) (k1_pay5 v1) w1)
            (k1_pay8 q2 k2 v2) (k1_pay9 q2 k2) w2 q3 k3 v3 w3)
          (k1_pay11 q4) k4 v4 w4)
        (k1_pay13 v5) (k1_pay14 q5 k5) w5 q6 k6 v6 w6)
      q7 k7 v7 w7 bo xb)
    (k1_pay17
      (k1_pay15
        (k1_pay12
          (k1_pay10
            (k1_pay6 (k1_pay2 q0 k0 v0 w0) (k1_pay3 q1) (k1_pay4 k1) (k1_pay5 v1) w1)
            (k1_pay8 q2 k2 v2) (k1_pay9 q2 k2) w2 q3 k3 v3 w3)
          (k1_pay11 q4) k4 v4 w4)
        (k1_pay13 v5) (k1_pay14 q5 k5) w5 q6 k6 v6 w6)
      q7 k7 v7 w7 bo xb)
    g be

end Cert.KernelIdeal.KVal

end
-- ==== Proof.KIBody1.lean ====
/-
  The second pallas_call of @main: at each of its 16 grid points the body reads a 256-row block of the query
  heads, all keys and all values of the 8 heads, the matching 256-row block of x, the whole output weight and the
  three 512-vectors (output bias, layer-norm scale and shift), and writes the 256×512 block of the normalised
  result. This module states what each window's staging buffer holds before and after the body at a point, as
  functions of the arrays the region is entered with, and proves the body's Hoare triple and the pipeline's body
  obligation from it. The body's arithmetic is the one pure term `KVal.pay1` of its 36 loaded pieces.
-/
import proofs.«106357_j15109694948028_2_alg».proof.Proof.Gen.KernelIdeal.Launch
import proofs.«106357_j15109694948028_2_alg».proof.Proof.Gen.KernelIdeal.Skeleton
import proofs.«106357_j15109694948028_2_alg».proof.Proof.Gen.KernelIdeal.Points
import proofs.«106357_j15109694948028_2_alg».proof.Proof.KPayDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KVal

section Region1
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there: where it did not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there: where it did not, the block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there: where it did not, the block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there: where it did not, the block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there: where it did not, the block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the pipeline fetched it
    there: where it did not, the block index has not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, whether or not the pipeline fetched it
    there: where it did not, the block index has not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, whether or not the pipeline fetched it
    there: where it did not, the block index has not moved since the point before. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads through: head `h`'s slab of the query block, of the keys and of the values, and
    its 64 rows of the output weight; the whole of a 512-vector; the whole of a 256×512 block. -/
abbrev r1_q0 : Rect S8x256x64 := Rect.unit (s := S8x256x64) ![0, 0, 0] S1x256x64.size inb_S8x256x64_S1x256x64_0_0_0
abbrev r1_k0 : Rect S8x4096x64 := Rect.unit (s := S8x4096x64) ![0, 0, 0] S1x4096x64.size inb_S8x4096x64_S1x4096x64_0_0_0
abbrev r1_w0 : Rect S512x512 := Rect.unit (s := S512x512) ![0, 0] S64x512.size inb_S512x512_S64x512_0_0
abbrev r1_q1 : Rect S8x256x64 := Rect.unit (s := S8x256x64) ![1, 0, 0] S1x256x64.size inb_S8x256x64_S1x256x64_1_0_0
abbrev r1_k1 : Rect S8x4096x64 := Rect.unit (s := S8x4096x64) ![1, 0, 0] S1x4096x64.size inb_S8x4096x64_S1x4096x64_1_0_0
abbrev r1_w1 : Rect S512x512 := Rect.unit (s := S512x512) ![64, 0] S64x512.size inb_S512x512_S64x512_64_0
abbrev r1_q2 : Rect S8x256x64 := Rect.unit (s := S8x256x64) ![2, 0, 0] S1x256x64.size inb_S8x256x64_S1x256x64_2_0_0
abbrev r1_k2 : Rect S8x4096x64 := Rect.unit (s := S8x4096x64) ![2, 0, 0] S1x4096x64.size inb_S8x4096x64_S1x4096x64_2_0_0
abbrev r1_w2 : Rect S512x512 := Rect.unit (s := S512x512) ![128, 0] S64x512.size inb_S512x512_S64x512_128_0
abbrev r1_q3 : Rect S8x256x64 := Rect.unit (s := S8x256x64) ![3, 0, 0] S1x256x64.size inb_S8x256x64_S1x256x64_3_0_0
abbrev r1_k3 : Rect S8x4096x64 := Rect.unit (s := S8x4096x64) ![3, 0, 0] S1x4096x64.size inb_S8x4096x64_S1x4096x64_3_0_0
abbrev r1_w3 : Rect S512x512 := Rect.unit (s := S512x512) ![192, 0] S64x512.size inb_S512x512_S64x512_192_0
abbrev r1_q4 : Rect S8x256x64 := Rect.unit (s := S8x256x64) ![4, 0, 0] S1x256x64.size inb_S8x256x64_S1x256x64_4_0_0
abbrev r1_k4 : Rect S8x4096x64 := Rect.unit (s := S8x4096x64) ![4, 0, 0] S1x4096x64.size inb_S8x4096x64_S1x4096x64_4_0_0
abbrev r1_w4 : Rect S512x512 := Rect.unit (s := S512x512) ![256, 0] S64x512.size inb_S512x512_S64x512_256_0
abbrev r1_q5 : Rect S8x256x64 := Rect.unit (s := S8x256x64) ![5, 0, 0] S1x256x64.size inb_S8x256x64_S1x256x64_5_0_0
abbrev r1_k5 : Rect S8x4096x64 := Rect.unit (s := S8x4096x64) ![5, 0, 0] S1x4096x64.size inb_S8x4096x64_S1x4096x64_5_0_0
abbrev r1_w5 : Rect S512x512 := Rect.unit (s := S512x512) ![320, 0] S64x512.size inb_S512x512_S64x512_320_0
abbrev r1_q6 : Rect S8x256x64 := Rect.unit (s := S8x256x64) ![6, 0, 0] S1x256x64.size inb_S8x256x64_S1x256x64_6_0_0
abbrev r1_k6 : Rect S8x4096x64 := Rect.unit (s := S8x4096x64) ![6, 0, 0] S1x4096x64.size inb_S8x4096x64_S1x4096x64_6_0_0
abbrev r1_w6 : Rect S512x512 := Rect.unit (s := S512x512) ![384, 0] S64x512.size inb_S512x512_S64x512_384_0
abbrev r1_q7 : Rect S8x256x64 := Rect.unit (s := S8x256x64) ![7, 0, 0] S1x256x64.size inb_S8x256x64_S1x256x64_7_0_0
abbrev r1_k7 : Rect S8x4096x64 := Rect.unit (s := S8x4096x64) ![7, 0, 0] S1x4096x64.size inb_S8x4096x64_S1x4096x64_7_0_0
abbrev r1_w7 : Rect S512x512 := Rect.unit (s := S512x512) ![448, 0] S64x512.size inb_S512x512_S64x512_448_0
abbrev r1_v : Rect S512 := Rect.unit (s := S512) ![0] S512.size inb_S512_S512_0
abbrev r1_o : Rect S256x512 := Rect.unit (s := S256x512) ![0, 0] S256x512.size inb_S256x512_S256x512_0_0

/-- The output window's staging buffer after the body: its one store, the payload of the loaded pieces. -/
def out1_8 (x0 : Vec F S8x256x64 .bf16) (x1 x2 : Vec F S8x4096x64 .bf16) (x3 : Vec F S256x512 .f32) (x4 : Vec F S512x512 .bf16)
    (x5 x6 x7 : Vec F S512 .f32) : Vec F S256x512 .f32 :=
  View.canon [⟨r1_o, pay1 (View.ld x0 r1_q0) (View.ld x1 r1_k0) (View.ld x2 r1_k0) (View.ld x4 r1_w0)
      (View.ld x0 r1_q1) (View.ld x1 r1_k1) (View.ld x2 r1_k1) (View.ld x4 r1_w1)
      (View.ld x0 r1_q2) (View.ld x1 r1_k2) (View.ld x2 r1_k2) (View.ld x4 r1_w2)
      (View.ld x0 r1_q3) (View.ld x1 r1_k3) (View.ld x2 r1_k3) (View.ld x4 r1_w3)
      (View.ld x0 r1_q4) (View.ld x1 r1_k4) (View.ld x2 r1_k4) (View.ld x4 r1_w4)
      (View.ld x0 r1_q5) (View.ld x1 r1_k5) (View.ld x2 r1_k5) (View.ld x4 r1_w5)
      (View.ld x0 r1_q6) (View.ld x1 r1_k6) (View.ld x2 r1_k6) (View.ld x4 r1_w6)
      (View.ld x0 r1_q7) (View.ld x1 r1_k7) (View.ld x2 r1_k7) (View.ld x4 r1_w7)
      (View.ld x5 r1_v) (View.ld x3 r1_o) (View.ld x6 r1_v) (View.ld x7 r1_v)⟩]

/-- The one store covers the buffer. -/
theorem cover1_8 (p0 : Vec F S256x512 .f32) (y : S256x512.Idx) :
    ∃ pc ∈ ([⟨r1_o, p0⟩] : List (View.Piece (Elt F) S256x512 .f32)), y ∈ pc.1.set :=
  View.cover_of_tiled [⟨r1_o, p0⟩] S256x512.size (by rfl) y

set_option maxHeartbeats 4000000 in
/-- The body on whole staging memrefs, the inputs' at contents `x0 … x7` and the output's at anything, runs to the
    continuation with the inputs' unchanged and the output's at `out1_8 x0 … x7`. -/
theorem sound_kernel1 (c : Dev nD) (E : Set ℕ) (i : grid1.Coords)
    (arg1 : Memref sig .tc .vmem S8x256x64 .bf16) (harg1 : arg1.IsWhole) (arg2 : Memref sig .tc .vmem S8x4096x64 .bf16) (harg2 : arg2.IsWhole) (arg3 : Memref sig .tc .vmem S8x4096x64 .bf16) (harg3 : arg3.IsWhole) (arg4 : Memref sig .tc .vmem S256x512 .f32) (harg4 : arg4.IsWhole) (arg5 : Memref sig .tc .vmem S512x512 .bf16) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S256x512 .f32) (harg9 : arg9.IsWhole)
    (x0 : Vec F S8x256x64 .bf16) (x1 x2 : Vec F S8x4096x64 .bf16) (x3 : Vec F S256x512 .f32) (x4 : Vec F S512x512 .bf16)
    (x5 x6 x7 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- The proof data of the second pipeline on core `c`: the arrays as the region finds them; after the body at point
    `t` each input's buffer at its block and the output's at `out1_8` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Run

end
-- ==== Proof.KIRun.lean ====
/-
  The run of @main: a stretch of host operations (the two concatenations and two format changes), the first
  pallas_call, a second stretch (three column slices, each reshaped to heads and transposed, and one format
  change), the second pallas_call. The contents of every buffer outside the kernels' scoped memory are named at
  each of the four boundaries as a fold from the launch memory: a host stretch applies its operations; a
  pallas_call leaves each of its windows' arrays at what the pipeline's write-backs make of it and every other
  buffer alone. Every weakly fair execution terminates without fault in a state whose every such buffer holds the
  last fold's value; in particular each argument array holds its launch contents.
-/
import proofs.«106357_j15109694948028_2_alg».proof.Proof.Gen.KernelIdeal.Launch
import proofs.«106357_j15109694948028_2_alg».proof.Proof.Gen.KernelIdeal.Skeleton
import proofs.«106357_j15109694948028_2_alg».proof.Proof.Gen.KernelIdeal.Points
import proofs.«106357_j15109694948028_2_alg».proof.Proof.KIBody0
import proofs.«106357_j15109694948028_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, and a pallas_call only reads them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 3).trans (((dat1 (V3 m ρ) c).arrAt_in 3 rfl _).trans (A_eq1 (V3 m ρ) c 3))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 7).trans (((dat1 (V3 m ρ) c).arrAt_in 7 rfl _).trans (A_eq1 (V3 m ρ) c 7))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Region 0 over the thread state: entered with every unscoped buffer at the contents before it, left with them at
    the contents after it. Its windows' arrays are split out of the unscoped buffers and put back at what the
    pipeline leaves in them; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its windows' arrays are split out of the unscoped buffers and put back at what the
    pipeline leaves in them; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, in a
    state where every buffer outside the kernels' scoped memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run_all m ρ)

end Cert.KernelIdeal.Run

end
-- ==== Proof.Spec.lean ====
/-
  The function both programs compute, written over coordinates on the extended reals, one query row at a time.

  With S = 4096 rows, D = 512 columns, H = 8 heads of width 64 (column 64·h + d is offset d of head h):
    Q = x·Wq + bq,  K = x·Wk + bk,  V = x·Wv + bv                        (proj)
  and for ONE query row qr = Q[q,·] with its residual row xr = x[q,·]:
    s[h,k] = (Σ_d qr[64h+d] · K[k,64h+d]) scaled by one eighth             (scoreK: times 1/8; scoreR: divided by 8)
    p[h,k] = exp (s[h,k] − max_k s[h,k]),   l[h] = Σ_k p[h,k]
    ctx[h,d] = (Σ_k p[h,k] · V[k,64h+d]) / l[h]                            (ctxK: one division after the sum)
             = Σ_k (p[h,k] / l[h]) · V[k,64h+d]                            (ctxR: each weight divided first)
    a[n] = Σ_h Σ_d ctx[h,d] · Wo[64h+d, n]                                 (attnK: grouped by head)
         = Σ_j ctx[j/64, j%64] · Wo[j, n]                                  (attnR: one sum over the 512 columns)
    y = a + bo + xr,   out = (y − mean y) · rsqrt (mean (y − mean y)² + ε) · γ + β        (layer normalisation of the row)
  rowK is the first arrangement throughout, rowR the second; they are the same function wherever every l[h] is a
  positive real, which a finite query row and finite keys give. GK and GR apply them to every row of the projections.
-/
import Idealize.ShloMosaic.PureOps.Ideal

noncomputable section

open scoped BigOperators

namespace AttnSpec

open Idealize.ShloMosaic

/-- A matrix of extended reals by row and column; a row of 512 of them. -/
abbrev Mat (a b : Nat) := Fin a → Fin b → EReal
abbrev Row := Fin 512 → EReal

/-- The affine map x·W + b, entry (s, j). -/
def proj (x : Mat 4096 512) (W : Mat 512 512) (b : Row) : Mat 4096 512 :=
  fun s j => (∑ k : Fin 512, x s k * W k j) + b j

/-- Column 64·h + d: offset d inside head h. -/
def col (h : Fin 8) (d : Fin 64) : Fin 512 := ⟨64 * h.val + d.val, by omega⟩
/-- The head a column belongs to, and its offset there. -/
def hd (j : Fin 512) : Fin 8 := ⟨j.val / 64, by omega⟩
def off (j : Fin 512) : Fin 64 := ⟨j.val % 64, Nat.mod_lt _ (by decide)⟩

/-- The unscaled score of the query row against key row k in head h. -/
def dotQK (qr : Row) (K : Mat 4096 512) (h : Fin 8) (k : Fin 4096) : EReal :=
  ∑ d : Fin 64, qr (col h d) * K k (col h d)

/-- The float words the two programs spell: 0.125, 8.0, −∞, 512.0, and ε = f32(1e-5). -/
def cEighth : EReal := Ideal.ofBits .f32 0x3E000000#32
def cEight : EReal := Ideal.ofBits .f32 0x41000000#32
def cNegInf : EReal := Ideal.ofBits .f32 0xFF800000#32
def c512 : EReal := Ideal.ofBits .f32 0x44000000#32
def cEps : EReal := Ideal.ofBits .f32 0x3727C5AC#32

/-- The maximum of a row of 4096 scores, folded from −∞. -/
def rowmax (s : Fin 4096 → EReal) : EReal := (Finset.univ : Finset (Fin 4096)).fold max cNegInf s

/-! ### The first arrangement: scale by 1/8, divide once after the weighted sum, group the output product by head -/

def scoreK (qr : Row) (K : Mat 4096 512) (h : Fin 8) (k : Fin 4096) : EReal := dotQK qr K h k * cEighth
def pK (qr : Row) (K : Mat 4096 512) (h : Fin 8) (k : Fin 4096) : EReal :=
  Ideal.exp (scoreK qr K h k - rowmax (scoreK qr K h))
def lK (qr : Row) (K : Mat 4096 512) (h : Fin 8) : EReal := ∑ k : Fin 4096, pK qr K h k
def ctxK (qr : Row) (K V : Mat 4096 512) (h : Fin 8) (d : Fin 64) : EReal :=
  Ideal.div (∑ k : Fin 4096, pK qr K h k * V k (col h d)) (lK qr K h)
def attnK (qr : Row) (K V : Mat 4096 512) (Wo : Mat 512 512) : Row :=
  fun n => ∑ h : Fin 8, ∑ d : Fin 64, ctxK qr K V h d * Wo (col h d) n

/-! ### The second arrangement: divide by 8, normalise each weight, one product over all 512 columns -/

def scoreR (qr : Row) (K : Mat 4096 512) (h : Fin 8) (k : Fin 4096) : EReal := Ideal.div (dotQK qr K h k) cEight
def pR (qr : Row) (K : Mat 4096 512) (h : Fin 8) (k : Fin 4096) : EReal :=
  Ideal.exp (scoreR qr K h k - max cNegInf (rowmax (scoreR qr K h)))
def lR (qr : Row) (K : Mat 4096 512) (h : Fin 8) : EReal := ∑ k : Fin 4096, pR qr K h k
def ctxR (qr : Row) (K V : Mat 4096 512) (h : Fin 8) (d : Fin 64) : EReal :=
  ∑ k : Fin 4096, Ideal.div (pR qr K h k) (lR qr K h) * V k (col h d)
def attnR (qr : Row) (K V : Mat 4096 512) (Wo : Mat 512 512) : Row :=
  fun n => ∑ j : Fin 512, ctxR qr K V (hd j) (off j) * Wo j n

/-! ### The shared tail: bias, residual, layer normalisation of the row -/

/-- The mean of a row of 512 entries. -/
def mean (y : Row) : EReal := Ideal.div (∑ n : Fin 512, y n) c512

def lnorm (y g b : Row) : Row :=
  fun n =>
    (y n - mean y) * Ideal.rsqrt (mean (fun n' => (y n' - mean y) * (y n' - mean y)) + cEps) * g n + b n

def rowK (qr : Row) (K V : Mat 4096 512) (Wo : Mat 512 512) (bo xr g b : Row) : Row :=
  lnorm (fun n => attnK qr K V Wo n + bo n + xr n) g b

def rowR (qr : Row) (K V : Mat 4096 512) (Wo : Mat 512 512) (bo xr g b : Row) : Row :=
  lnorm (fun n => attnR qr K V Wo n + bo n + xr n) g b

def GK (x : Mat 4096 512) (Wq : Mat 512 512) (bq : Row) (Wk : Mat 512 512) (bk : Row)
    (Wv : Mat 512 512) (bv : Row) (Wo : Mat 512 512) (bo g b : Row) : Mat 4096 512 :=
  fun q => rowK (proj x Wq bq q) (proj x Wk bk) (proj x Wv bv) Wo bo (x q) g b

def GR (x : Mat 4096 512) (Wq : Mat 512 512) (bq : Row) (Wk : Mat 512 512) (bk : Row)
    (Wv : Mat 512 512) (bv : Row) (Wo : Mat 512 512) (bo g b : Row) : Mat 4096 512 :=
  fun q => rowR (proj x Wq bq q) (proj x Wk bk) (proj x Wv bv) Wo bo (x q) g b

end AttnSpec

end
-- ==== Proof.KPay0.lean ====
/-
  The first kernel body at an index, over the extended reals.

  The body multiplies a block of 512 rows of x by the three projection weights laid side by side (1536 columns) into a
  zero accumulator and adds the three biases laid end to end, broadcast over the rows. Read exactly, the format changes
  and the casts of a shape to itself are the identity, so entry (p, j) of what it stores is
  Σ_k x[p,k] · W[k,j] + b[j].
-/
import proofs.«106357_j15109694948028_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-- The product of a 512×512 block with a 512×1536 matrix into the zero accumulator, entry (p, j): the sum over the
    one contracted axis, re-indexed by its coordinate. The first two lemmas read the two uncontracted coordinates. -/
theorem matmul_512x512_512x1536_lhs (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl
theorem matmul_512x512_512x1536_rhs (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl
theorem matmul_512x512_512x1536_apply (a : FVec Ideal S512x512 .bf16) (b : FVec Ideal S512x1536 .bf16) (p : Fin 512) (j : Fin 1536) :
    matmul (F := Ideal) dot_S512x512_S512x1536_S512x1536_1_0_0_1_n_n none a b (constant (F := Ideal) S512x1536 .f32 0x00000000#32) (ix2 p j)
      = ∑ k : Fin 512, a (ix2 p k) * b (ix2 k j) := by
  refine (Ideal.matmul_constant_zero_apply dot_S512x512_S512x1536_S512x1536_1_0_0_1_n_n none a b (ix2 p j)).trans ?_
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p j) ((contrEquiv1 dot_S512x512_S512x1536_S512x1536_1_0_0_1_n_n 512 rfl rfl).symm k) = ix2 p k :=
    funext fun ax => Fin.ext (by
      match ax with
      | ⟨0, _⟩ => exact matmul_512x512_512x1536_lhs _ _
      | ⟨1, _⟩ => exact (dot_S512x512_S512x1536_S512x1536_1_0_0_1_n_n.lhsIdx_val_of_single rfl _ _).trans hk)
  have er : dot_S512x512_S512x1536_S512x1536_1_0_0_1_n_n.rhsIdx (ix2 p j) ((contrEquiv1 dot_S512x512_S512x1536_S512x1536_1_0_0_1_n_n 512 rfl rfl).symm k) = ix2 k j :=
    funext fun ax => Fin.ext (by
      match ax with
      | ⟨0, _⟩ => exact (dot_S512x512_S512x1536_S512x1536_1_0_0_1_n_n.rhsIdx_val_of_single rfl _ _).trans hk
      | ⟨1, _⟩ => exact matmul_512x512_512x1536_rhs _ _)
  rw [el, er]

/-- The bias vector, given a leading unit axis and broadcast over the 512 rows, reads its own entry j in every row. -/
theorem bias_1536_apply (b : FVec Ideal S1536 .f32) (p : Fin 512) (j : Fin 1536) :
    broadcastTo S512x1536 (shapeCast S1x1536 b shapeCasts_S1536_S1x1536) broadcasts_S1x1536_S512x1536 (ix2 p j) = b (ix1 j) :=
  (broadcastTo_1b_ab_apply (shapeCast S1x1536 b shapeCasts_S1536_S1x1536) broadcasts_S1x1536_S512x1536 p j).trans
    (shapeCast_a_1a_apply b shapeCasts_S1536_S1x1536 (0 : Fin 1) j)

/-- Entry (p, j) of what the first body stores: Σ_k x[p,k] · W[k,j] + b[j]. -/
theorem k0_pay1_apply (v0 : Vec Ideal S512x512 .bf16) (v2 : Vec Ideal S512x1536 .bf16) (v4 : Vec Ideal S1536 .f32)
    (p : Fin 512) (j : Fin 1536) :
    k0_pay1 (F := Ideal) v0 v2 v4 (ix2 p j) = (∑ k : Fin 512, v0 (ix2 p k) * v2 (ix2 k j)) + v4 (ix1 j) := by
  unfold k0_pay1
  simp only [shapeCast_self]
  rw [truncf_apply, addf_apply, matmul_512x512_512x1536_apply, bias_1536_apply]

end Cert.KernelIdeal.KVal

end
-- ==== Proof.KArr0.lean ====
/-
  The first pallas_call's output array as one function of the arrays the region is entered with.

  The grid has 8 points; point t takes rows 512·t … 512·t + 511 of x, the whole weight matrix W (512 × 1536) and
  the whole bias b (1536), and writes rows 512·t … 512·t + 511 of the output. Entry (p, j) of what a point stores is
  Σ_k xblock[p,k] · W[k,j] + b[j], the block's row p is row 512·t + p of x, and the 8 row blocks tile the 4096 rows,
  so the output array ends holding  out[s,j] = Σ_k x[s,k] · W[k,j] + b[j].
-/
import proofs.«106357_j15109694948028_2_alg».proof.Proof.KIBody0
import proofs.«106357_j15109694948028_2_alg».proof.Proof.KPay0
import Idealize.ShloMosaic.Lib.Pipeline.Value
import Idealize.ShloMosaic.Lib.ValueIdx

set_option maxRecDepth 16384

noncomputable section

open scoped BigOperators

namespace Cert.KernelIdeal.Arr0

open Cert.KernelIdeal Cert.KernelIdeal.Gen Cert.KernelIdeal.Run Cert.KernelIdeal.KVal
open Idealize.ShloMosaic Idealize.ShloMosaic.TcCoe Idealize.ShloMosaic.ValueIdx

variable (V : (c : Dev nD) → (b : Ref sig .tc) → Buf (Elt Ideal) ((c : Thread nD τ).loc b))

/-- The origin of a rank-2 (rank-1) buffer, as the constant-zero offset. -/
theorem origin2 : (![0, 0] : Fin 2 → Nat) = fun _ => 0 := funext fun a => by fin_cases a <;> rfl
theorem origin1 : (![0] : Fin 1 → Nat) = fun _ => 0 := funext fun a => by fin_cases a <;> rfl

/-- The function the output array ends holding: out[s,j] = Σ_k x[s,k] · W[k,j] + b[j]. -/
abbrev G (x : S4096x512.Idx → EReal) (W : S512x1536.Idx → EReal) (b : S1536.Idx → EReal) : S4096x1536.Idx → EReal :=
  fun i => (∑ k : Fin 512, x (ix2 (i 0) k) * W (ix2 k (i 1))) + b (ix1 (i 1))

theorem G_apply (x : S4096x512.Idx → EReal) (W : S512x1536.Idx → EReal) (b : S1536.Idx → EReal) (i : S4096x1536.Idx) :
    G x W b i = (∑ k : Fin 512, x (ix2 (i 0) k) * W (ix2 k (i 1))) + b (ix1 (i 1)) := rfl

/-- The block index maps over the grid: x and the output move down one row block per point; W and b stay whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry y of what a point stores, by the coordinates of y. -/
theorem pay_at (x0 : Vec Ideal S512x512 .bf16) (x1 : Vec Ideal S512x1536 .bf16) (x2 : Vec Ideal S1536 .f32) (y : S512x1536.Idx) :
    k0_pay1 (F := Ideal) x0 x1 x2 y = (∑ k : Fin 512, x0 (ix2 (y 0) k) * x1 (ix2 k (y 1))) + x2 (ix1 (y 1)) :=
  (congrArg (k0_pay1 (F := Ideal) x0 x1 x2) (eq_ix2 y)).trans (k0_pay1_apply x0 x1 x2 (y 0) (y 1))

/-- The x block at point t is rows 512·t … 512·t + 511 of x. -/
theorem xblk_apply (c : Dev nD) (t : Fin cfg0.N) (p k : Fin 512) (s : Fin 4096) (hs : s.val = 512 * t.val + p.val) :
    (iblk0 V c 0 t : Vec Ideal S512x512 .bf16) (ix2 p k) = (V c main_v3 : S4096x512.Idx → EReal) (ix2 s k) := by
  obtain ⟨e0, e1, -⟩ := index_facts t
  unfold iblk0
  rw [View.read_apply]
  show (V c main_v3 : S4096x512.Idx → EReal) _ = V c main_v3 _
  congr 1
  funext a
  apply Fin.ext
  match a with
  | ⟨0, _⟩ => show win0_0.index t 0 * 512 + 1 * p.val = s.val; rw [e0, hs]; omega
  | ⟨1, _⟩ => show win0_0.index t 1 * 512 + 1 * k.val = k.val; rw [e1]; omega

/-- The W block at every point is W. -/
theorem wblk_apply (c : Dev nD) (t : Fin cfg0.N) (k : Fin 512) (j j' : Fin 1536) (hj : j'.val = j.val) :
    (iblk0 V c 1 t : Vec Ideal S512x1536 .bf16) (ix2 k j) = (V c main_v1 : S512x1536.Idx → EReal) (ix2 k j') := by
  obtain ⟨-, -, e2, e3, -⟩ := index_facts t
  unfold iblk0
  rw [View.read_apply]
  show (V c main_v1 : S512x1536.Idx → EReal) _ = V c main_v1 _
  congr 1
  funext a
  apply Fin.ext
  match a with
  | ⟨0, _⟩ => show win0_1.index t 0 * 512 + 1 * k.val = k.val; rw [e2]; omega
  | ⟨1, _⟩ => show win0_1.index t 1 * 1536 + 1 * j.val = j'.val; rw [e3, hj]; omega

/-- The b block at every point is b. -/
theorem bblk_apply (c : Dev nD) (t : Fin cfg0.N) (j j' : Fin 1536) (hj : j'.val = j.val) :
    (iblk0 V c 2 t : Vec Ideal S1536 .f32) (ix1 j) = (V c main_v2 : S1536.Idx → EReal) (ix1 j') := by
  obtain ⟨-, -, -, -, e4, -⟩ := index_facts t
  unfold iblk0
  rw [View.read_apply]
  show (V c main_v2 : S1536.Idx → EReal) _ = V c main_v2 _
  congr 1
  funext a
  apply Fin.ext
  match a with
  | ⟨0, _⟩ => show win0_2.index t 0 * 1536 + 1 * j.val = j'.val; rw [e4, hj]; omega

/-- Where entry y of point t's output block lies in the output array: row 512·t + y₀, column y₁. -/
theorem oblk_emb (t : Fin cfg0.N) (y : S512x1536.Idx) :
    ((((cfg0.win 3).blk t).view.emb y : S4096x1536.Idx) 0).val = 512 * t.val + (y 0).val
    ∧ ((((cfg0.win 3).blk t).view.emb y : S4096x1536.Idx) 1).val = (y 1).val := by
  obtain ⟨-, -, -, -, -, e5, e6⟩ := index_facts t
  constructor
  · show win0_3.index t 0 * 512 + 1 * (y 0).val = _; rw [e5]; omega
  · show win0_3.index t 1 * 1536 + 1 * (y 1).val = _; rw [e6]; omega

/-- What point t writes back is block t of G of the entry arrays. -/
theorem flushed_eq (c : Dev nD) (t : Fin cfg0.N) :
    (dat0 (F := Ideal) V c).flushed 3 t
      = ((cfg0.win 3).blk t).view.read (Elt Ideal) (G (V c main_v3) (V c main_v1) (V c main_v2)) := by
  show (cfg0.win 3).cut (grid0.coords t) ((dat0 V c).after 3 t) = _
  rw [after0_3]
  unfold out0_3
  rw [View.canon_unit_zero origin2]
  simp only [View.ld_unit_zero (S := S512x512) origin2, View.ld_unit_zero (S := S512x1536) origin2,
    View.ld_unit_zero (S := S1536) origin1]
  funext y
  show k0_pay1 (F := Ideal) (iblk0 V c 0 t) (iblk0 V c 1 t) (iblk0 V c 2 t) y
    = G (V c main_v3) (V c main_v1) (V c main_v2) (((cfg0.win 3).blk t).view.emb y)
  refine (pay_at (iblk0 V c 0 t) (iblk0 V c 1 t) (iblk0 V c 2 t) y).trans ?_
  refine Eq.trans ?_ (G_apply (V c main_v3) (V c main_v1) (V c main_v2) (((cfg0.win 3).blk t).view.emb y)).symm
  obtain ⟨hr, hc⟩ := oblk_emb t y
  congr 1
  · refine Finset.sum_congr rfl fun k _ => ?_
    congr 1
    · exact xblk_apply V c t (y 0) k _ hr
    · exact wblk_apply V c t k (y 1) _ hc
  · exact bblk_apply V c t (y 1) _ hc

/-- An index of the output array is in point t's block iff each coordinate is in the block's range on its axis. -/
theorem mem_blk (t : Fin cfg0.N) (i : S4096x1536.Idx) :
    i ∈ ((cfg0.win 3).blk t).view.set ↔
      ∀ a : Fin 2, win0_3.index t a * S512x1536.size a ≤ (i a).val
        ∧ (i a).val < win0_3.index t a * S512x1536.size a + S512x1536.size a := by
  show i ∈ ((View.whole main_v4).slice (win0_3.rect t)).set ↔ _
  rw [View.set_slice_whole, Rect.mem_set_unit]
  exact Iff.rfl

/-- The 8 row blocks tile the 4096 rows: row r lies in the block of point r / 512, and every point writes back. -/
theorem covered (i : S4096x1536.Idx) :
    ∃ t : Fin cfg0.N, (cfg0.win 3).flush t = true ∧ i ∈ ((cfg0.win 3).blk t).view.set := by
  have hi0 : (i 0).val < 4096 := (i 0).isLt
  have hi1 : (i 1).val < 1536 := (i 1).isLt
  have hN : grid0.N = 8 := N_0
  let t : Fin cfg0.N := ⟨(i 0).val / 512, by show _ < grid0.N; rw [hN]; omega⟩
  have ht : t.val = (i 0).val / 512 := rfl
  obtain ⟨-, -, -, -, -, e5, e6⟩ := index_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e5, ht]; omega
  | ⟨1, _⟩ =>
    show win0_3.index t (1 : Fin 2) * 1536 ≤ (i 1).val ∧ (i 1).val < win0_3.index t (1 : Fin 2) * 1536 + 1536
    rw [e6]; omega

/-- The output array after the region: G of the entry arrays. -/
theorem final0_3_fun (c : Dev nD) :
    (dat0 (F := Ideal) V c).arrAt 3 cfg0.N = G (V c main_v3) (V c main_v1) (V c main_v2) :=
  (dat0 (F := Ideal) V c).arrAt_eq_of_cover 3 _ (fun t _ => flushed_eq V c t) covered

/-- Entry (s, j) of the output array after the region: Σ_k x[s,k] · W[k,j] + b[j], for x, W, b the entry contents of the
    three input arrays (named by equations so that the sum is over the extended reals). -/
theorem final0_3 (c : Dev nD) (x : S4096x512.Idx → EReal) (W : S512x1536.Idx → EReal) (b : S1536.Idx → EReal)
    (hx : x = V c main_v3) (hW : W = V c main_v1) (hb : b = V c main_v2) (s : Fin 4096) (j : Fin 1536) :
    (dat0 (F := Ideal) V c).arrAt 3 cfg0.N (ix2 s j) = (∑ k : Fin 512, x (ix2 s k) * W (ix2 k j)) + b (ix1 j) := by
  subst hx hW hb
  rw [final0_3_fun]

end Cert.KernelIdeal.Arr0

end
-- ==== Proof.KArr1.lean ====
/-
  The second pallas_call's result array as one function of the arrays the region is entered with.

  At grid point t the body reads rows 256·t … 256·t + 255 of the query heads and of x, all keys, all values, the
  whole output weight and the three 512-vectors, and stores one 256×512 block; the pipeline writes that block back
  to rows 256·t … 256·t + 255 of the result at every point. Given that the body's payload at local row r and column n
  is `AttnSpec.rowK` of the loaded pieces (the hypothesis `PayLaw`), the block written at point t is block t of
      G (q, n) = rowK (Q[·, q, ·]) K V Wo bo (x[q, ·]) γ β n,
  head h's slab of an 8×rows×64 array supplying columns 64·h … 64·h + 63 of a row, and the 16 blocks tile the 4096
  rows, so the array ends holding G everywhere.
-/
import proofs.«106357_j15109694948028_2_alg».proof.Proof.KIBody1
import proofs.«106357_j15109694948028_2_alg».proof.Proof.Spec
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Run Cert.KernelIdeal.KVal
open Idealize.ShloMosaic Idealize.ShloMosaic.TcCoe Idealize.ShloMosaic.ValueIdx AttnSpec
open Idealize.ShloMosaic.Pipeline (Dat)

/-- The body's payload, entry (r, n) of its 256×512 block, is the first arrangement's row function of the loaded
    pieces: the query row r of each head's slab, the heads' key and value slabs, each head's 64 rows of the output
    weight, the bias, row r of the residual block, the scale and the shift. -/
abbrev PayLaw : Prop :=
  ∀ (qs : Fin 8 → Vec Ideal S1x256x64 .bf16) (ks vs : Fin 8 → Vec Ideal S1x4096x64 .bf16)
    (ws : Fin 8 → Vec Ideal S64x512 .bf16) (bo : Vec Ideal S512 .f32) (xb : Vec Ideal S256x512 .f32)
    (g be : Vec Ideal S512 .f32) (r : Fin 256) (n : Fin 512),
    pay1 (F := Ideal) (qs 0) (ks 0) (vs 0) (ws 0) (qs 1) (ks 1) (vs 1) (ws 1) (qs 2) (ks 2) (vs 2) (ws 2)
        (qs 3) (ks 3) (vs 3) (ws 3) (qs 4) (ks 4) (vs 4) (ws 4) (qs 5) (ks 5) (vs 5) (ws 5)
        (qs 6) (ks 6) (vs 6) (ws 6) (qs 7) (ks 7) (vs 7) (ws 7) bo xb g be (ix2 r n)
      = AttnSpec.rowK (fun j => qs (AttnSpec.hd j) (ix3 0 r (AttnSpec.off j)))
          (fun k j => ks (AttnSpec.hd j) (ix3 0 k (AttnSpec.off j)))
          (fun k j => vs (AttnSpec.hd j) (ix3 0 k (AttnSpec.off j)))
          (fun j n' => ws (AttnSpec.hd j) (ix2 (AttnSpec.off j) n'))
          (fun n' => bo (ix1 n')) (fun n' => xb (ix2 r n')) (fun n' => g (ix1 n')) (fun n' => be (ix1 n')) n

theorem hz1 : (![0] : Fin 1 → Nat) = fun _ => 0 := funext fun a => by fin_cases a <;> rfl
theorem hz2 : (![0, 0] : Fin 2 → Nat) = fun _ => 0 := funext fun a => by fin_cases a <;> rfl

/-! ## The pieces the body loads, read at an index of the staging buffer -/

/-- The eight rectangles of one kind as a family over the head. -/
abbrev rq : Fin 8 → Rect S8x256x64 := fun h => match h with
  | ⟨0, _⟩ => r1_q0 | ⟨1, _⟩ => r1_q1 | ⟨2, _⟩ => r1_q2 | ⟨3, _⟩ => r1_q3
  | ⟨4, _⟩ => r1_q4 | ⟨5, _⟩ => r1_q5 | ⟨6, _⟩ => r1_q6 | ⟨7, _⟩ => r1_q7
  | ⟨_ + 8, h⟩ => absurd h (Nat.not_lt.2 (Nat.le_add_left _ _))

/-- Head `h`'s query slab of the staged block of query heads. -/
abbrev qsOf (x0 : Vec Ideal S8x256x64 .bf16) : Fin 8 → Vec Ideal S1x256x64 .bf16 := fun h => match h with
  | ⟨0, _⟩ => View.ld x0 r1_q0 | ⟨1, _⟩ => View.ld x0 r1_q1 | ⟨2, _⟩ => View.ld x0 r1_q2 | ⟨3, _⟩ => View.ld x0 r1_q3
  | ⟨4, _⟩ => View.ld x0 r1_q4 | ⟨5, _⟩ => View.ld x0 r1_q5 | ⟨6, _⟩ => View.ld x0 r1_q6 | ⟨7, _⟩ => View.ld x0 r1_q7
  | ⟨_ + 8, h⟩ => absurd h (Nat.not_lt.2 (Nat.le_add_left _ _))

/-- Head `h`'s slab of the staged keys (or values). -/
abbrev ksOf (x1 : Vec Ideal S8x4096x64 .bf16) : Fin 8 → Vec Ideal S1x4096x64 .bf16 := fun h => match h with
  | ⟨0, _⟩ => View.ld x1 r1_k0 | ⟨1, _⟩ => View.ld x1 r1_k1 | ⟨2, _⟩ => View.ld x1 r1_k2 | ⟨3, _⟩ => View.ld x1 r1_k3
  | ⟨4, _⟩ => View.ld x1 r1_k4 | ⟨5, _⟩ => View.ld x1 r1_k5 | ⟨6, _⟩ => View.ld x1 r1_k6 | ⟨7, _⟩ => View.ld x1 r1_k7
  | ⟨_ + 8, h⟩ => absurd h (Nat.not_lt.2 (Nat.le_add_left _ _))

/-- Head `h`'s 64 rows of the staged output weight. -/
abbrev wsOf (x4 : Vec Ideal S512x512 .bf16) : Fin 8 → Vec Ideal S64x512 .bf16 := fun h => match h with
  | ⟨0, _⟩ => View.ld x4 r1_w0 | ⟨1, _⟩ => View.ld x4 r1_w1 | ⟨2, _⟩ => View.ld x4 r1_w2 | ⟨3, _⟩ => View.ld x4 r1_w3
  | ⟨4, _⟩ => View.ld x4 r1_w4 | ⟨5, _⟩ => View.ld x4 r1_w5 | ⟨6, _⟩ => View.ld x4 r1_w6 | ⟨7, _⟩ => View.ld x4 r1_w7
  | ⟨_ + 8, h⟩ => absurd h (Nat.not_lt.2 (Nat.le_add_left _ _))

/-- The slab of one head inside an 8×R×64 buffer: its entry (0, r, d) is the buffer's entry (h, r, d). -/
theorem slab_idx {R : Nat} (k : Nat) (inb : ∀ a, (![k, 0, 0] : Fin 3 → Nat) a + (⟨3, ![1, R, 64]⟩ : Shape).size a ≤ (⟨3, ![8, R, 64]⟩ : Shape).size a)
    (h : Fin 8) (hk : h.val = k) (r : Fin R) (d : Fin 64) :
    (Rect.unit (s := (⟨3, ![8, R, 64]⟩ : Shape)) ![k, 0, 0] (⟨3, ![1, R, 64]⟩ : Shape).size inb).idx (ix3 0 r d) = ix3 h r d := by
  funext a; apply Fin.ext
  match a with
  | ⟨0, _⟩ => show k + 1 * 0 = h.val; omega
  | ⟨1, _⟩ => show 0 + 1 * r.val = r.val; omega
  | ⟨2, _⟩ => show 0 + 1 * d.val = d.val; omega

/-- Sixty-four rows from row k of the 512×512 buffer: their entry (d, n) is the buffer's entry (k + d, n). -/
theorem rows_idx (k : Nat) (inb : ∀ a, (![k, 0] : Fin 2 → Nat) a + S64x512.size a ≤ S512x512.size a)
    (d : Fin 64) (n : Fin 512) (j : Fin 512) (hj : j.val = k + d.val) :
    (Rect.unit (s := S512x512) ![k, 0] S64x512.size inb).idx (ix2 d n) = ix2 j n := by
  funext a; apply Fin.ext
  match a with
  | ⟨0, _⟩ => show k + 1 * d.val = j.val; omega
  | ⟨1, _⟩ => show 0 + 1 * n.val = n.val; omega

theorem qsOf_apply (x0 : Vec Ideal S8x256x64 .bf16) (h : Fin 8) (r : Fin 256) (d : Fin 64) :
    qsOf x0 h (ix3 0 r d) = x0 (ix3 h r d) := by
  match h with
  | ⟨0, _⟩ => exact congrArg x0 (slab_idx 0 _ ⟨0, _⟩ rfl r d)
  | ⟨1, _⟩ => exact congrArg x0 (slab_idx 1 _ ⟨1, _⟩ rfl r d)
  | ⟨2, _⟩ => exact congrArg x0 (slab_idx 2 _ ⟨2, _⟩ rfl r d)
  | ⟨3, _⟩ => exact congrArg x0 (slab_idx 3 _ ⟨3, _⟩ rfl r d)
  | ⟨4, _⟩ => exact congrArg x0 (slab_idx 4 _ ⟨4, _⟩ rfl r d)
  | ⟨5, _⟩ => exact congrArg x0 (slab_idx 5 _ ⟨5, _⟩ rfl r d)
  | ⟨6, _⟩ => exact congrArg x0 (slab_idx 6 _ ⟨6, _⟩ rfl r d)
  | ⟨7, _⟩ => exact congrArg x0 (slab_idx 7 _ ⟨7, _⟩ rfl r d)
  | ⟨_ + 8, h⟩ => exact absurd h (Nat.not_lt.2 (Nat.le_add_left _ _))

theorem ksOf_apply (x1 : Vec Ideal S8x4096x64 .bf16) (h : Fin 8) (k : Fin 4096) (d : Fin 64) :
    ksOf x1 h (ix3 0 k d) = x1 (ix3 h k d) := by
  match h with
  | ⟨0, _⟩ => exact congrArg x1 (slab_idx 0 _ ⟨0, _⟩ rfl k d)
  | ⟨1, _⟩ => exact congrArg x1 (slab_idx 1 _ ⟨1, _⟩ rfl k d)
  | ⟨2, _⟩ => exact congrArg x1 (slab_idx 2 _ ⟨2, _⟩ rfl k d)
  | ⟨3, _⟩ => exact congrArg x1 (slab_idx 3 _ ⟨3, _⟩ rfl k d)
  | ⟨4, _⟩ => exact congrArg x1 (slab_idx 4 _ ⟨4, _⟩ rfl k d)
  | ⟨5, _⟩ => exact congrArg x1 (slab_idx 5 _ ⟨5, _⟩ rfl k d)
  | ⟨6, _⟩ => exact congrArg x1 (slab_idx 6 _ ⟨6, _⟩ rfl k d)
  | ⟨7, _⟩ => exact congrArg x1 (slab_idx 7 _ ⟨7, _⟩ rfl k d)
  | ⟨_ + 8, h⟩ => exact absurd h (Nat.not_lt.2 (Nat.le_add_left _ _))

theorem wsOf_apply (x4 : Vec Ideal S512x512 .bf16) (h : Fin 8) (d : Fin 64) (n : Fin 512) (j : Fin 512)
    (hj : j.val = 64 * h.val + d.val) : wsOf x4 h (ix2 d n) = x4 (ix2 j n) := by
  match h, hj with
  | ⟨0, _⟩, hj => exact congrArg x4 (rows_idx 0 _ d n j (by have : j.val = 64 * 0 + d.val := hj; omega))
  | ⟨1, _⟩, hj => exact congrArg x4 (rows_idx 64 _ d n j (by have : j.val = 64 * 1 + d.val := hj; omega))
  | ⟨2, _⟩, hj => exact congrArg x4 (rows_idx 128 _ d n j (by have : j.val = 64 * 2 + d.val := hj; omega))
  | ⟨3, _⟩, hj => exact congrArg x4 (rows_idx 192 _ d n j (by have : j.val = 64 * 3 + d.val := hj; omega))
  | ⟨4, _⟩, hj => exact congrArg x4 (rows_idx 256 _ d n j (by have : j.val = 64 * 4 + d.val := hj; omega))
  | ⟨5, _⟩, hj => exact congrArg x4 (rows_idx 320 _ d n j (by have : j.val = 64 * 5 + d.val := hj; omega))
  | ⟨6, _⟩, hj => exact congrArg x4 (rows_idx 384 _ d n j (by have : j.val = 64 * 6 + d.val := hj; omega))
  | ⟨7, _⟩, hj => exact congrArg x4 (rows_idx 448 _ d n j (by have : j.val = 64 * 7 + d.val := hj; omega))
  | ⟨_ + 8, h⟩, _ => exact absurd h (Nat.not_lt.2 (Nat.le_add_left _ _))

/-- `rowK` of equal arguments. -/
theorem rowK_congr {qr qr' : Row} {K K' V V' : Mat 4096 512} {Wo Wo' : Mat 512 512} {bo bo' xr xr' g g' b b' : Row}
    (h0 : qr = qr') (h1 : K = K') (h2 : V = V') (h3 : Wo = Wo') (h4 : bo = bo') (h5 : xr = xr') (h6 : g = g')
    (h7 : b = b') : rowK qr K V Wo bo xr g b = rowK qr' K' V' Wo' bo' xr' g' b' := by
  subst h0 h1 h2 h3 h4 h5 h6 h7; rfl

/-- The payload at entry (r, n) of the block, over the staging buffers' contents: row r of each head's query slab
    is row r of the staged query block, the slabs of the keys and values are the staged arrays', the heads' rows of the
    output weight are the staged weight's rows in order. -/
theorem pay_point (hpay : PayLaw) (x0 : Vec Ideal S8x256x64 .bf16) (x1 x2 : Vec Ideal S8x4096x64 .bf16)
    (x3 : Vec Ideal S256x512 .f32) (x4 : Vec Ideal S512x512 .bf16) (x5 x6 x7 : Vec Ideal S512 .f32)
    (r : Fin 256) (n : Fin 512) :
    pay1 (F := Ideal) (View.ld x0 r1_q0) (View.ld x1 r1_k0) (View.ld x2 r1_k0) (View.ld x4 r1_w0)
      (View.ld x0 r1_q1) (View.ld x1 r1_k1) (View.ld x2 r1_k1) (View.ld x4 r1_w1)
      (View.ld x0 r1_q2) (View.ld x1 r1_k2) (View.ld x2 r1_k2) (View.ld x4 r1_w2)
      (View.ld x0 r1_q3) (View.ld x1 r1_k3) (View.ld x2 r1_k3) (View.ld x4 r1_w3)
      (View.ld x0 r1_q4) (View.ld x1 r1_k4) (View.ld x2 r1_k4) (View.ld x4 r1_w4)
      (View.ld x0 r1_q5) (View.ld x1 r1_k5) (View.ld x2 r1_k5) (View.ld x4 r1_w5)
      (View.ld x0 r1_q6) (View.ld x1 r1_k6) (View.ld x2 r1_k6) (View.ld x4 r1_w6)
      (View.ld x0 r1_q7) (View.ld x1 r1_k7) (View.ld x2 r1_k7) (View.ld x4 r1_w7)
      (View.ld x5 r1_v) (View.ld x3 r1_o) (View.ld x6 r1_v) (View.ld x7 r1_v) (ix2 r n)
      = rowK (fun j => x0 (ix3 (hd j) r (off j))) (fun k j => x1 (ix3 (hd j) k (off j)))
          (fun k j => x2 (ix3 (hd j) k (off j))) (fun j n' => x4 (ix2 j n')) (fun n' => x5 (ix1 n'))
          (fun n' => x3 (ix2 r n')) (fun n' => x6 (ix1 n')) (fun n' => x7 (ix1 n')) n := by
  refine (hpay (qsOf x0) (ksOf x1) (ksOf x2) (wsOf x4) (View.ld x5 r1_v) (View.ld x3 r1_o) (View.ld x6 r1_v)
    (View.ld x7 r1_v) r n).trans ?_
  have e3 : View.ld x3 r1_o = x3 := View.ld_unit_zero (S := S256x512) hz2 _ x3
  have e5 : View.ld x5 r1_v = x5 := View.ld_unit_zero (S := S512) hz1 _ x5
  have e6 : View.ld x6 r1_v = x6 := View.ld_unit_zero (S := S512) hz1 _ x6
  have e7 : View.ld x7 r1_v = x7 := View.ld_unit_zero (S := S512) hz1 _ x7
  refine congrFun (rowK_congr (funext fun j => qsOf_apply x0 (hd j) r (off j))
    (funext fun k => funext fun j => ksOf_apply x1 (hd j) k (off j))
    (funext fun k => funext fun j => ksOf_apply x2 (hd j) k (off j))
    (funext fun j => funext fun n' => wsOf_apply x4 (hd j) (off j) n' j ?_)
    (funext fun n' => congrFun e5 (ix1 n')) (funext fun n' => congrFun e3 (ix2 r n'))
    (funext fun n' => congrFun e6 (ix1 n')) (funext fun n' => congrFun e7 (ix1 n'))) n
  show j.val = 64 * (j.val / 64) + j.val % 64
  omega

/-! ## The blocks at a grid point -/

/-- The printed index maps over the 16 points: the query heads, x and the result move with the point along their
    row axis; every other window stays at block 0. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0 ∧ win1_7.index t (0 : Fin 1) = 0
    ∧ win1_8.index t (0 : Fin 2) = t.val ∧ win1_8.index t (1 : Fin 2) = 0 :=
  (by decide +kernel : ∀ t : Fin grid1.N, _)

section Blocks
variable (V : (c : Dev nD) → (b : Ref sig .tc) → Buf (Elt Ideal) ((c : Thread nD τ).loc b))

/-- Row r of the block of query heads at point t is row 256·t + r of the query heads. -/
theorem blk0_apply (c : Dev nD) (t : Fin cfg1.N) (h : Fin 8) (r : Fin 256) (d : Fin 64) (q : Fin 4096)
    (hq : q.val = 256 * t.val + r.val) :
    (iblk1 V c 0 t : Vec Ideal S8x256x64 .bf16) (ix3 h r d) = (V c main_v9 : S8x4096x64.Idx → EReal) (ix3 h q d) := by
  obtain ⟨e0, e1, e2, -⟩ := idx_facts t
  show V c main_v9 (((cfg1.win 0).blk t).view.emb (ix3 h r d)) = V c main_v9 (ix3 h q d)
  refine congrArg (V c main_v9) (funext fun a => Fin.ext ?_)
  match a with
  | ⟨0, _⟩ => show win1_0.index t (0 : Fin 3) * 8 + 1 * h.val = h.val; rw [e0]; omega
  | ⟨1, _⟩ => show win1_0.index t (1 : Fin 3) * 256 + 1 * r.val = q.val; rw [e1, hq]; omega
  | ⟨2, _⟩ => show win1_0.index t (2 : Fin 3) * 64 + 1 * d.val = d.val; rw [e2]; omega

/-- Row r of the block of x at point t is row 256·t + r of x. -/
theorem blk3_apply (c : Dev nD) (t : Fin cfg1.N) (r : Fin 256) (n : Fin 512) (q : Fin 4096)
    (hq : q.val = 256 * t.val + r.val) :
    (iblk1 V c 3 t : Vec Ideal S256x512 .f32) (ix2 r n) = (V c main_arg0 : S4096x512.Idx → EReal) (ix2 q n) := by
  obtain ⟨-, -, -, -, -, -, -, -, -, e0, e1, -⟩ := idx_facts t
  show V c main_arg0 (((cfg1.win 3).blk t).view.emb (ix2 r n)) = V c main_arg0 (ix2 q n)
  refine congrArg (V c main_arg0) (funext fun a => Fin.ext ?_)
  match a with
  | ⟨0, _⟩ => show win1_3.index t (0 : Fin 2) * 256 + 1 * r.val = q.val; rw [e0, hq]; omega
  | ⟨1, _⟩ => show win1_3.index t (1 : Fin 2) * 512 + 1 * n.val = n.val; rw [e1]; omega

/-- The keys' block at every point is the whole array of keys. -/
theorem blk1_eq (c : Dev nD) (t : Fin cfg1.N) :
    (iblk1 V c 1 t : Vec Ideal S8x4096x64 .bf16) = (V c main_v11 : S8x4096x64.Idx → EReal) := by
  obtain ⟨-, -, -, e0, e1, e2, -⟩ := idx_facts t
  funext x
  show V c main_v11 (((cfg1.win 1).blk t).view.emb x) = V c main_v11 x
  refine congrArg (V c main_v11) (funext fun a => Fin.ext ?_)
  match a with
  | ⟨0, _⟩ => show win1_1.index t (0 : Fin 3) * 8 + 1 * (x 0).val = (x 0).val; rw [e0]; omega
  | ⟨1, _⟩ => show win1_1.index t (1 : Fin 3) * 4096 + 1 * (x 1).val = (x 1).val; rw [e1]; omega
  | ⟨2, _⟩ => show win1_1.index t (2 : Fin 3) * 64 + 1 * (x 2).val = (x 2).val; rw [e2]; omega

/-- The values' block at every point is the whole array of values. -/
theorem blk2_eq (c : Dev nD) (t : Fin cfg1.N) :
    (iblk1 V c 2 t : Vec Ideal S8x4096x64 .bf16) = (V c main_v13 : S8x4096x64.Idx → EReal) := by
  obtain ⟨-, -, -, -, -, -, e0, e1, e2, -⟩ := idx_facts t
  funext x
  show V c main_v13 (((cfg1.win 2).blk t).view.emb x) = V c main_v13 x
  refine congrArg (V c main_v13) (funext fun a => Fin.ext ?_)
  match a with
  | ⟨0, _⟩ => show win1_2.index t (0 : Fin 3) * 8 + 1 * (x 0).val = (x 0).val; rw [e0]; omega
  | ⟨1, _⟩ => show win1_2.index t (1 : Fin 3) * 4096 + 1 * (x 1).val = (x 1).val; rw [e1]; omega
  | ⟨2, _⟩ => show win1_2.index t (2 : Fin 3) * 64 + 1 * (x 2).val = (x 2).val; rw [e2]; omega

/-- The output weight's block at every point is the whole weight. -/
theorem blk4_eq (c : Dev nD) (t : Fin cfg1.N) :
    (iblk1 V c 4 t : Vec Ideal S512x512 .bf16) = (V c main_v14 : S512x512.Idx → EReal) := by
  obtain ⟨-, -, -, -, -, -, -, -, -, -, -, e0, e1, -⟩ := idx_facts t
  funext x
  show V c main_v14 (((cfg1.win 4).blk t).view.emb x) = V c main_v14 x
  refine congrArg (V c main_v14) (funext fun a => Fin.ext ?_)
  match a with
  | ⟨0, _⟩ => show win1_4.index t (0 : Fin 2) * 512 + 1 * (x 0).val = (x 0).val; rw [e0]; omega
  | ⟨1, _⟩ => show win1_4.index t (1 : Fin 2) * 512 + 1 * (x 1).val = (x 1).val; rw [e1]; omega

/-- The output bias's block at every point is the whole vector. -/
theorem blk5_eq (c : Dev nD) (t : Fin cfg1.N) :
    (iblk1 V c 5 t : Vec Ideal S512 .f32) = (V c main_arg8 : S512.Idx → EReal) := by
  obtain ⟨-, -, -, -, -, -, -, -, -, -, -, -, -, e0, -⟩ := idx_facts t
  funext x
  show V c main_arg8 (((cfg1.win 5).blk t).view.emb x) = V c main_arg8 x
  refine congrArg (V c main_arg8) (funext fun a => Fin.ext ?_)
  match a with
  | ⟨0, _⟩ => show win1_5.index t (0 : Fin 1) * 512 + 1 * (x 0).val = (x 0).val; rw [e0]; omega

/-- The scale's block at every point is the whole vector. -/
theorem blk6_eq (c : Dev nD) (t : Fin cfg1.N) :
    (iblk1 V c 6 t : Vec Ideal S512 .f32) = (V c main_arg9 : S512.Idx → EReal) := by
  obtain ⟨-, -, -, -, -, -, -, -, -, -, -, -, -, -, e0, -⟩ := idx_facts t
  funext x
  show V c main_arg9 (((cfg1.win 6).blk t).view.emb x) = V c main_arg9 x
  refine congrArg (V c main_arg9) (funext fun a => Fin.ext ?_)
  match a with
  | ⟨0, _⟩ => show win1_6.index t (0 : Fin 1) * 512 + 1 * (x 0).val = (x 0).val; rw [e0]; omega

/-- The shift's block at every point is the whole vector. -/
theorem blk7_eq (c : Dev nD) (t : Fin cfg1.N) :
    (iblk1 V c 7 t : Vec Ideal S512 .f32) = (V c main_arg10 : S512.Idx → EReal) := by
  obtain ⟨-, -, -, -, -, -, -, -, -, -, -, -, -, -, -, e0, -⟩ := idx_facts t
  funext x
  show V c main_arg10 (((cfg1.win 7).blk t).view.emb x) = V c main_arg10 x
  refine congrArg (V c main_arg10) (funext fun a => Fin.ext ?_)
  match a with
  | ⟨0, _⟩ => show win1_7.index t (0 : Fin 1) * 512 + 1 * (x 0).val = (x 0).val; rw [e0]; omega

/-! ## The result array -/

/-- Entry (q, n) of the result: the first arrangement's row function of query row q of the eight heads, all keys
    and values, the output weight and bias, row q of x, the scale and the shift. -/
abbrev outRow (c : Dev nD) (q : Fin 4096) (n : Fin 512) : EReal :=
  rowK (fun j => (V c main_v9 : S8x4096x64.Idx → EReal) (ix3 (hd j) q (off j)))
    (fun k j => (V c main_v11 : S8x4096x64.Idx → EReal) (ix3 (hd j) k (off j)))
    (fun k j => (V c main_v13 : S8x4096x64.Idx → EReal) (ix3 (hd j) k (off j)))
    (fun j n' => (V c main_v14 : S512x512.Idx → EReal) (ix2 j n'))
    (fun n' => (V c main_arg8 : S512.Idx → EReal) (ix1 n'))
    (fun n' => (V c main_arg0 : S4096x512.Idx → EReal) (ix2 q n'))
    (fun n' => (V c main_arg9 : S512.Idx → EReal) (ix1 n'))
    (fun n' => (V c main_arg10 : S512.Idx → EReal) (ix1 n')) n

/-- The result array as one function of the arrays the region is entered with. -/
abbrev G (c : Dev nD) : S4096x512.Idx → EReal := fun i => outRow V c (i 0) (i 1)

/-- What point t writes back is block t of `G`. -/
theorem flushed_eq (hpay : PayLaw) (c : Dev nD) (t : Fin cfg1.N) :
    (dat1 (F := Ideal) V c).flushed 8 t = ((cfg1.win 8).blk t).view.read (Elt Ideal) (G V c) := by
  show (cfg1.win 8).cut (grid1.coords t) ((dat1 V c).after 8 t) = _
  rw [after1_8]
  unfold out1_8
  rw [View.canon_unit_zero hz2]
  funext y
  obtain ⟨r, n, rfl⟩ : ∃ (r : Fin 256) (n : Fin 512), y = ix2 r n := ⟨y 0, y 1, eq_ix2 y⟩
  have ht : t.val < 16 := t.isLt
  obtain ⟨q, hq⟩ : ∃ q : Fin 4096, q.val = 256 * t.val + r.val := ⟨⟨256 * t.val + r.val, by omega⟩, rfl⟩
  have hemb : ((cfg1.win 8).blk t).view.emb (ix2 r n) = (ix2 q n : S4096x512.Idx) := by
    obtain ⟨-, -, -, -, -, -, -, -, -, -, -, -, -, -, -, -, e0, e1⟩ := idx_facts t
    funext a; apply Fin.ext
    match a with
    | ⟨0, _⟩ => show win1_8.index t (0 : Fin 2) * 256 + 1 * r.val = q.val; rw [e0, hq]; omega
    | ⟨1, _⟩ => show win1_8.index t (1 : Fin 2) * 512 + 1 * n.val = n.val; rw [e1]; omega
  refine (pay_point hpay (iblk1 V c 0 t) (iblk1 V c 1 t) (iblk1 V c 2 t) (iblk1 V c 3 t) (iblk1 V c 4 t)
    (iblk1 V c 5 t) (iblk1 V c 6 t) (iblk1 V c 7 t) r n).trans ?_
  show _ = G V c (((cfg1.win 8).blk t).view.emb (ix2 r n))
  rw [hemb]
  show _ = outRow V c q n
  exact congrFun (rowK_congr (funext fun j => blk0_apply V c t (hd j) r (off j) q hq)
    (funext fun k => funext fun j => congrFun (blk1_eq V c t) (ix3 (hd j) k (off j)))
    (funext fun k => funext fun j => congrFun (blk2_eq V c t) (ix3 (hd j) k (off j)))
    (funext fun j => funext fun n' => congrFun (blk4_eq V c t) (ix2 j n'))
    (funext fun n' => congrFun (blk5_eq V c t) (ix1 n'))
    (funext fun n' => blk3_apply V c t r n' q hq)
    (funext fun n' => congrFun (blk6_eq V c t) (ix1 n'))
    (funext fun n' => congrFun (blk7_eq V c t) (ix1 n'))) n

/-- An index of the result is in point t's block iff each coordinate is in the block's range on its axis. -/
theorem mem_blk (t : Fin cfg1.N) (i : S4096x512.Idx) :
    i ∈ ((cfg1.win 8).blk t).view.set ↔ ∀ a : Fin 2, win1_8.index t a * S256x512.size a ≤ (i a).val
      ∧ (i a).val < win1_8.index t a * S256x512.size a + S256x512.size a := by
  show i ∈ ((View.whole main_v15).slice (win1_8.rect t)).set ↔ _
  rw [View.set_slice_whole, Rect.mem_set_unit]
  exact Iff.rfl

/-- The 16 blocks of 256 rows tile the 4096 rows: row q is in the block of point q / 256, which writes back. -/
theorem cover (i : S4096x512.Idx) :
    ∃ t : Fin cfg1.N, (cfg1.win 8).flush t = true ∧ i ∈ ((cfg1.win 8).blk t).view.set := by
  have hi0 : (i 0).val < 4096 := (i 0).isLt
  have hi1 : (i 1).val < 512 := (i 1).isLt
  obtain ⟨t, ht⟩ : ∃ t : Fin cfg1.N, t.val = (i 0).val / 256 :=
    ⟨⟨(i 0).val / 256, by show (i 0).val / 256 < 16; omega⟩, rfl⟩
  obtain ⟨-, -, -, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 256 ≤ (i 0).val ∧ (i 0).val < win1_8.index t (0 : Fin 2) * 256 + 256
    rw [e0, ht]; omega
  | ⟨1, _⟩ =>
    show win1_8.index t (1 : Fin 2) * 512 ≤ (i 1).val ∧ (i 1).val < win1_8.index t (1 : Fin 2) * 512 + 512
    rw [e1]; omega

end Blocks

/-- THE RESULT ARRAY after the second pallas_call: entry (q, n) is the first arrangement's row function of query
    row q, the keys, the values, the output weight and bias, row q of x, the scale and the shift, as the region
    finds those arrays. -/
theorem final1_8_of (hpay : PayLaw)
    (V : (c : Dev nD) → (b : Ref sig .tc) → Buf (Elt Ideal) ((c : Thread nD τ).loc b)) (c : Dev nD)
    (q : Fin 4096) (n : Fin 512) :
    (dat1 (F := Ideal) V c).arrAt 8 cfg1.N (ix2 q n)
      = rowK (fun j => (V c main_v9 : S8x4096x64.Idx → EReal) (ix3 (hd j) q (off j)))
          (fun k j => (V c main_v11 : S8x4096x64.Idx → EReal) (ix3 (hd j) k (off j)))
          (fun k j => (V c main_v13 : S8x4096x64.Idx → EReal) (ix3 (hd j) k (off j)))
          (fun j n' => (V c main_v14 : S512x512.Idx → EReal) (ix2 j n'))
          (fun n' => (V c main_arg8 : S512.Idx → EReal) (ix1 n'))
          (fun n' => (V c main_arg0 : S4096x512.Idx → EReal) (ix2 q n'))
          (fun n' => (V c main_arg9 : S512.Idx → EReal) (ix1 n'))
          (fun n' => (V c main_arg10 : S512.Idx → EReal) (ix1 n')) n := by
  have h := (dat1 (F := Ideal) V c).arrAt_eq_of_cover 8 (G V c) (fun t _ => flushed_eq V hpay c t) (cover)
  exact congrFun h (ix2 q n)

end Cert.KernelIdeal.Arr

end
-- ==== Proof.KPay1.lean ====
/-
  The second kernel body at an index, over the extended reals: entry (r, n) of what it stores is the row function
  AttnSpec.rowK of query row r of the block.

  Layers, each a small lemma at explicit coordinates (r : Fin 256, c : Fin 4096, d : Fin 64, n : Fin 512):
  the scaled scores of one head, their row maximum, the soft-max numerators, their row sum, the context (weighted sum
  of the values, divided once), the head's contribution through its rows of the output weight; the accumulator is the
  sum of the eight contributions; then bias, residual and the normalisation of the row. The stored value is, by
  unfolding alone, the composition of these pieces; read exactly, format changes and casts of a shape to itself are
  the identity.
-/
import proofs.«106357_j15109694948028_2_alg».proof.Proof.KPayDef
import proofs.«106357_j15109694948028_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## Column forms of the layout operations (a row statistic kept as a column) -/

section Layout
variable {α : Type}

/-- A vector of a entries cast to a column [a, 1] reads entry i at (i, u). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## Reductions along a row -/

/-- Over a result index r of a reduction along axis 1 of an [a, b] array, the source index with coordinate k on the
    reduced axis is (r, k). -/
theorem lift_axis1 {a b : ℕ} (h : (⟨2, ![a, b]⟩ : Shape).Reduces [1] ⟨1, ![a]⟩) (r : Fin a) (k : Fin b) :
    h.lift (ix1 r) k = ix2 r k := by
  funext c
  refine Fin.ext ?_
  show h.liftVal (ix1 r) k.val c = (ix2 r k c).val
  unfold Shape.Reduces.liftVal
  match c with
  | ⟨0, _⟩ => rfl
  | ⟨1, _⟩ => rfl

/-- The sum along each row, read at row r. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ x 0x00000000#32 h hφ hacc (ix1 r) = ∑ k : Fin b, x (ix2 r k) := by
  refine (Ideal.multiReduction_add_single x 0x00000000#32 h hφ hacc (ix1 r)).trans ?_
  exact Finset.sum_congr rfl fun k _ => congrArg x (lift_axis1 h r k)

/-- The maximum along each row, folded from the accumulator's value, read at row r. -/
theorem rowMax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ x 0xFF800000#32 h hφ hacc (ix1 r)
      = (Finset.univ : Finset (Fin b)).fold max (Ideal.ofBits .f32 0xFF800000#32) (fun k => x (ix2 r k)) := by
  refine (Ideal.multiReduction_maximumf_single x 0xFF800000#32 h hφ hacc (ix1 r)).trans ?_
  exact congrArg (Finset.fold max (Ideal.ofBits .f32 0xFF800000#32) · Finset.univ) (funext fun k => congrArg x (lift_axis1 h r k))

/-! ## The three matrix products -/

/-- Queries against keys: both operands are contracted on their second axis, so entry (r, c) of the product into the
    zero accumulator is Σ_d a[r,d] · b[c,d]. The first two lemmas read the two uncontracted coordinates. -/
theorem matmul_scores_lhs (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl
theorem matmul_scores_rhs (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl
theorem matmul_scores_apply (a : FVec Ideal S256x64 .bf16) (b : FVec Ideal S4096x64 .bf16) (p : Fin 256) (j : Fin 4096) :
    matmul (F := Ideal) dot_S256x64_S4096x64_S256x4096_1_1_0_0_n_n none a b (constant (F := Ideal) S256x4096 .f32 0x00000000#32) (ix2 p j)
      = ∑ k : Fin 64, a (ix2 p k) * b (ix2 j k) := by
  refine (Ideal.matmul_constant_zero_apply dot_S256x64_S4096x64_S256x4096_1_1_0_0_n_n none a b (ix2 p j)).trans ?_
  rw [← Equiv.sum_comp (contrEquiv1 dot_S256x64_S4096x64_S256x4096_1_1_0_0_n_n 64 rfl rfl).symm]
  refine Finset.sum_congr rfl fun k _ => ?_
  have hk := contrEquiv1_symm_val dot_S256x64_S4096x64_S256x4096_1_1_0_0_n_n 64 rfl rfl k
  have el : dot_S256x64_S4096x64_S256x4096_1_1_0_0_n_n.lhsIdx (ix2 p j) ((contrEquiv1 dot_S256x64_S4096x64_S256x4096_1_1_0_0_n_n 64 rfl rfl).symm k) = ix2 p k :=
    funext fun ax => Fin.ext (by
      match ax with
      | ⟨0, _⟩ => exact matmul_scores_lhs _ _
      | ⟨1, _⟩ => exact (dot_S256x64_S4096x64_S256x4096_1_1_0_0_n_n.lhsIdx_val_of_single rfl _ _).trans hk)
  have er : dot_S256x64_S4096x64_S256x4096_1_1_0_0_n_n.rhsIdx (ix2 p j) ((contrEquiv1 dot_S256x64_S4096x64_S256x4096_1_1_0_0_n_n 64 rfl rfl).symm k) = ix2 j k :=
    funext fun ax => Fin.ext (by
      match ax with
      | ⟨1, _⟩ => exact (dot_S256x64_S4096x64_S256x4096_1_1_0_0_n_n.rhsIdx_val_of_single rfl _ _).trans hk
      | ⟨0, _⟩ => exact matmul_scores_rhs _ _)
  rw [el, er]

/-- Weights times values: entry (r, d) of the product into the zero accumulator is Σ_c a[r,c] · b[c,d]. -/
theorem matmul_weights_values_lhs (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
theorem matmul_weights_values_rhs (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl
theorem matmul_weights_values_apply (a : FVec Ideal S256x4096 .bf16) (b : FVec Ideal S4096x64 .bf16) (p : Fin 256) (j : Fin 64) :
    matmul (F := Ideal) dot_S256x4096_S4096x64_S256x64_1_0_0_1_n_n none a b (constant (F := Ideal) S256x64 .f32 0x00000000#32) (ix2 p j)
      = ∑ k : Fin 4096, a (ix2 p k) * b (ix2 k j) := by
  refine (Ideal.matmul_constant_zero_apply dot_S256x4096_S4096x64_S256x64_1_0_0_1_n_n none a b (ix2 p j)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 p j) ((contrEquiv1 dot_S256x4096_S4096x64_S256x64_1_0_0_1_n_n 4096 rfl rfl).symm k) = ix2 p k :=
    funext fun ax => Fin.ext (by
      match ax with
      | ⟨0, _⟩ => exact matmul_weights_values_lhs _ _
      | ⟨1, _⟩ => exact (dot_S256x4096_S4096x64_S256x64_1_0_0_1_n_n.lhsIdx_val_of_single rfl _ _).trans hk)
  have er : dot_S256x4096_S4096x64_S256x64_1_0_0_1_n_n.rhsIdx (ix2 p j) ((contrEquiv1 dot_S256x4096_S4096x64_S256x64_1_0_0_1_n_n 4096 rfl rfl).symm k) = ix2 k j :=
    funext fun ax => Fin.ext (by
      match ax with
      | ⟨0, _⟩ => exact (dot_S256x4096_S4096x64_S256x64_1_0_0_1_n_n.rhsIdx_val_of_single rfl _ _).trans hk
      | ⟨1, _⟩ => exact matmul_weights_values_rhs _ _)
  rw [el, er]

/-- A head's context times its 64 rows of the output weight: entry (r, n) is Σ_d a[r,d] · b[d,n]. -/
theorem matmul_out_lhs (i : S256x512.Idx) (q : dot_S256x64_S64x512_S256x512_1_0_0_1_n_n.contr.Idx) :
    (dot_S256x64_S64x512_S256x512_1_0_0_1_n_n.lhsIdx i q 0).val = (i 0).val := by
  unfold DotDims.lhsIdx
  rw [dif_neg (show ¬(0 : Fin S256x64.rank) ∈ dot_S256x64_S64x512_S256x512_1_0_0_1_n_n.lhsBatch by decide),
    dif_pos (show (0 : Fin S256x64.rank) ∈ dot_S256x64_S64x512_S256x512_1_0_0_1_n_n.lhsNonContracting by decide)]
  rfl
theorem matmul_out_rhs (i : S256x512.Idx) (q : dot_S256x64_S64x512_S256x512_1_0_0_1_n_n.contr.Idx) :
    (dot_S256x64_S64x512_S256x512_1_0_0_1_n_n.rhsIdx i q 1).val = (i 1).val := by
  unfold DotDims.rhsIdx
  rw [dif_neg (show ¬(1 : Fin S64x512.rank) ∈ dot_S256x64_S64x512_S256x512_1_0_0_1_n_n.rhsBatch by decide),
    dif_pos (show (1 : Fin S64x512.rank) ∈ dot_S256x64_S64x512_S256x512_1_0_0_1_n_n.rhsNonContracting by decide)]
  rfl
theorem matmul_out_apply (a : FVec Ideal S256x64 .bf16) (b : FVec Ideal S64x512 .bf16) (p : Fin 256) (j : Fin 512) :
    matmul (F := Ideal) dot_S256x64_S64x512_S256x512_1_0_0_1_n_n none a b (constant (F := Ideal) S256x512 .f32 0x00000000#32) (ix2 p j)
      = ∑ k : Fin 64, a (ix2 p k) * b (ix2 k j) := by
  refine (Ideal.matmul_constant_zero_apply dot_S256x64_S64x512_S256x512_1_0_0_1_n_n none a b (ix2 p j)).trans ?_
  rw [← Equiv.sum_comp (contrEquiv1 dot_S256x64_S64x512_S256x512_1_0_0_1_n_n 64 rfl rfl).symm]
  refine Finset.sum_congr rfl fun k _ => ?_
  have hk := contrEquiv1_symm_val dot_S256x64_S64x512_S256x512_1_0_0_1_n_n 64 rfl rfl k
  have el : dot_S256x64_S64x512_S256x512_1_0_0_1_n_n.lhsIdx (ix2 p j) ((contrEquiv1 dot_S256x64_S64x512_S256x512_1_0_0_1_n_n 64 rfl rfl).symm k) = ix2 p k :=
    funext fun ax => Fin.ext (by
      match ax with
      | ⟨0, _⟩ => exact matmul_out_lhs _ _
      | ⟨1, _⟩ => exact (dot_S256x64_S64x512_S256x512_1_0_0_1_n_n.lhsIdx_val_of_single rfl _ _).trans hk)
  have er : dot_S256x64_S64x512_S256x512_1_0_0_1_n_n.rhsIdx (ix2 p j) ((contrEquiv1 dot_S256x64_S64x512_S256x512_1_0_0_1_n_n 64 rfl rfl).symm k) = ix2 k j :=
    funext fun ax => Fin.ext (by
      match ax with
      | ⟨0, _⟩ => exact (dot_S256x64_S64x512_S256x512_1_0_0_1_n_n.rhsIdx_val_of_single rfl _ _).trans hk
      | ⟨1, _⟩ => exact matmul_out_rhs _ _)
  rw [el, er]

/-! ## One head, as values -/

/-- The scaled scores of a block of 256 query rows against all 4096 keys of one head. -/
def scoreV (q : Vec Ideal S1x256x64 .bf16) (k : Vec Ideal S1x4096x64 .bf16) : FVec Ideal S256x4096 .f32 :=
  mulf
    (matmul (F := Ideal) dot_S256x64_S4096x64_S256x4096_1_1_0_0_n_n none
      (shapeCast S256x64 q shapeCasts_S1x256x64_S256x64 : FVec Ideal S256x64 .bf16)
      (shapeCast S4096x64 k shapeCasts_S1x4096x64_S4096x64 : FVec Ideal S4096x64 .bf16)
      (constant (F := Ideal) S256x4096 .f32 0x00000000#32))
    (broadcast S256x4096 (Scalar.ofBits (F := Ideal) .f32 0x3E000000#32))

/-- The soft-max numerators: exp of each score less its row's maximum. -/
def expW (q : Vec Ideal S1x256x64 .bf16) (k : Vec Ideal S1x4096x64 .bf16) : FVec Ideal S256x4096 .f32 :=
  exp (subf (scoreV q k)
    (broadcastTo S256x4096
      (shapeCast S256x1
        (multiReduction (F := Ideal) .maximumf [1] S256 (scoreV q k) 0xFF800000#32 reduces_S256x4096_S256 (.inl rfl) rfl)
        shapeCasts_S256_S256x1 : FVec Ideal S256x1 .f32)
      broadcasts_S256x1_S256x4096))

/-- Their row sums, kept as a column. -/
def sumW (q : Vec Ideal S1x256x64 .bf16) (k : Vec Ideal S1x4096x64 .bf16) : FVec Ideal S256x1 .f32 :=
  shapeCast S256x1
    (multiReduction (F := Ideal) .add [1] S256 (expW q k) 0x00000000#32 reduces_S256x4096_S256 (.inl rfl) rfl)
    shapeCasts_S256_S256x1

/-- The context: the numerators times the values, divided once by the row sum. -/
def ctxV (q : Vec Ideal S1x256x64 .bf16) (k : Vec Ideal S1x4096x64 .bf16) (v : Vec Ideal S1x4096x64 .bf16) : FVec Ideal S256x64 .f32 :=
  divf
    (matmul (F := Ideal) dot_S256x4096_S4096x64_S256x64_1_0_0_1_n_n none
      (truncf .bf16 (expW q k) bitsLt_bf16_f32)
      (shapeCast S4096x64 v shapeCasts_S1x4096x64_S4096x64 : FVec Ideal S4096x64 .bf16)
      (constant (F := Ideal) S256x64 .f32 0x00000000#32))
    (broadcastTo S256x64 (sumW q k) broadcasts_S256x1_S256x64)

/-- The head's contribution to the output: its context times its 64 rows of the output weight. -/
def headOut (q : Vec Ideal S1x256x64 .bf16) (k : Vec Ideal S1x4096x64 .bf16) (v : Vec Ideal S1x4096x64 .bf16) (w : Vec Ideal S64x512 .bf16) : FVec Ideal S256x512 .f32 :=
  matmul (F := Ideal) dot_S256x64_S64x512_S256x512_1_0_0_1_n_n none
    (truncf .bf16 (ctxV q k v) bitsLt_bf16_f32)
    (shapeCast S64x512 w shapeCasts_S64x512_S64x512 : FVec Ideal S64x512 .bf16)
    (constant (F := Ideal) S256x512 .f32 0x00000000#32)

/-! ## The tail, as values -/

/-- The accumulated heads plus the output bias (broadcast over the rows) plus the residual block. -/
def preLN (acc : FVec Ideal S256x512 .f32) (bo : Vec Ideal S512 .f32) (xb : Vec Ideal S256x512 .f32) : FVec Ideal S256x512 .f32 :=
  addf (addf acc (broadcastTo S256x512 (shapeCast S1x512 bo shapeCasts_S512_S1x512 : FVec Ideal S1x512 .f32) broadcasts_S1x512_S256x512)) xb

/-- Each row less its mean (the row sum divided by 512). -/
def centred (y : FVec Ideal S256x512 .f32) : FVec Ideal S256x512 .f32 :=
  subf y
    (broadcastTo S256x512
      (divf
        (shapeCast S256x1
          (multiReduction (F := Ideal) .add [1] S256 y 0x00000000#32 reduces_S256x512_S256 (.inl rfl) rfl)
          shapeCasts_S256_S256x1 : FVec Ideal S256x1 .f32)
        (broadcast S256x1 (Scalar.ofBits (F := Ideal) .f32 0x44000000#32)))
      broadcasts_S256x1_S256x512)

/-- The row sums of the squares, kept as a column. -/
def sqSum (z : FVec Ideal S256x512 .f32) : FVec Ideal S256x1 .f32 :=
  shapeCast S256x1
    (multiReduction (F := Ideal) .add [1] S256 (mulf z z) 0x00000000#32 reduces_S256x512_S256 (.inl rfl) rfl)
    shapeCasts_S256_S256x1

/-- The accumulator after the eight heads: from zero, one contribution added at a time. -/
def accV (qs : Fin 8 → Vec Ideal S1x256x64 .bf16) (ks vs : Fin 8 → Vec Ideal S1x4096x64 .bf16)
    (ws : Fin 8 → Vec Ideal S64x512 .bf16) : FVec Ideal S256x512 .f32 :=
  (addf (addf (addf (addf (addf (addf (addf (addf (broadcast S256x512 (Scalar.ofBits (F := Ideal) .f32 0x00000000#32))
      (headOut (qs 0) (ks 0) (vs 0) (ws 0)))
      (headOut (qs 1) (ks 1) (vs 1) (ws 1)))
      (headOut (qs 2) (ks 2) (vs 2) (ws 2)))
      (headOut (qs 3) (ks 3) (vs 3) (ws 3)))
      (headOut (qs 4) (ks 4) (vs 4) (ws 4)))
      (headOut (qs 5) (ks 5) (vs 5) (ws 5)))
      (headOut (qs 6) (ks 6) (vs 6) (ws 6)))
      (headOut (qs 7) (ks 7) (vs 7) (ws 7)))

/-! ## The stored value is the composition of these pieces (by unfolding alone) -/

theorem pay2_eq (q : Vec Ideal S1x256x64 .bf16) (k : Vec Ideal S1x4096x64 .bf16) (v : Vec Ideal S1x4096x64 .bf16) (w : Vec Ideal S64x512 .bf16) :
    k1_pay2 (F := Ideal) q k v w
      = addf (broadcast S256x512 (Scalar.ofBits (F := Ideal) .f32 0x00000000#32)) (headOut q k v w) := rfl

theorem pay6_eq (a : FVec Ideal S256x512 .f32) (q : Vec Ideal S1x256x64 .bf16) (k : Vec Ideal S1x4096x64 .bf16) (v : Vec Ideal S1x4096x64 .bf16) (w : Vec Ideal S64x512 .bf16) :
    k1_pay6 (F := Ideal) a (k1_pay3 q) (k1_pay4 k) (k1_pay5 v) w = addf a (headOut q k v w) := rfl

theorem pay10_eq (a : FVec Ideal S256x512 .f32) (q : Vec Ideal S1x256x64 .bf16) (k : Vec Ideal S1x4096x64 .bf16) (v : Vec Ideal S1x4096x64 .bf16) (w : Vec Ideal S64x512 .bf16)
    (q' : Vec Ideal S1x256x64 .bf16) (k' v' : Vec Ideal S1x4096x64 .bf16) (w' : Vec Ideal S64x512 .bf16) :
    k1_pay10 (F := Ideal) a (k1_pay8 q k v) (k1_pay9 q k) w q' k' v' w'
      = addf (addf a (headOut q k v w)) (headOut q' k' v' w') := rfl

theorem pay12_eq (a : FVec Ideal S256x512 .f32) (q : Vec Ideal S1x256x64 .bf16) (k : Vec Ideal S1x4096x64 .bf16) (v : Vec Ideal S1x4096x64 .bf16) (w : Vec Ideal S64x512 .bf16) :
    k1_pay12 (F := Ideal) a (k1_pay11 q) k v w = addf a (headOut q k v w) := rfl

theorem pay15_eq (a : FVec Ideal S256x512 .f32) (q : Vec Ideal S1x256x64 .bf16) (k : Vec Ideal S1x4096x64 .bf16) (v : Vec Ideal S1x4096x64 .bf16) (w : Vec Ideal S64x512 .bf16)
    (q' : Vec Ideal S1x256x64 .bf16) (k' v' : Vec Ideal S1x4096x64 .bf16) (w' : Vec Ideal S64x512 .bf16) :
    k1_pay15 (F := Ideal) a (k1_pay13 v) (k1_pay14 q k) w q' k' v' w'
      = addf (addf a (headOut q k v w)) (headOut q' k' v' w') := rfl

theorem pay16_eq (a : FVec Ideal S256x512 .f32) (q : Vec Ideal S1x256x64 .bf16) (k : Vec Ideal S1x4096x64 .bf16) (v : Vec Ideal S1x4096x64 .bf16) (w : Vec Ideal S64x512 .bf16)
    (bo : Vec Ideal S512 .f32) (xb : Vec Ideal S256x512 .f32) :
    k1_pay16 (F := Ideal) a q k v w bo xb = centred (preLN (addf a (headOut q k v w)) bo xb) := rfl

theorem pay17_eq (a : FVec Ideal S256x512 .f32) (q : Vec Ideal S1x256x64 .bf16) (k : Vec Ideal S1x4096x64 .bf16) (v : Vec Ideal S1x4096x64 .bf16) (w : Vec Ideal S64x512 .bf16)
    (bo : Vec Ideal S512 .f32) (xb : Vec Ideal S256x512 .f32) :
    k1_pay17 (F := Ideal) a q k v w bo xb = sqSum (k1_pay16 (F := Ideal) a q k v w bo xb) := rfl

/-- The stored value: the normalisation's last steps applied to the centred rows and their sums of squares. -/
theorem pay1_eq (qs : Fin 8 → Vec Ideal S1x256x64 .bf16) (ks vs : Fin 8 → Vec Ideal S1x4096x64 .bf16)
    (ws : Fin 8 → Vec Ideal S64x512 .bf16) (bo : Vec Ideal S512 .f32) (xb : Vec Ideal S256x512 .f32) (g be : Vec Ideal S512 .f32) :
    pay1 (F := Ideal) (qs 0) (ks 0) (vs 0) (ws 0) (qs 1) (ks 1) (vs 1) (ws 1) (qs 2) (ks 2) (vs 2) (ws 2) (qs 3) (ks 3) (vs 3) (ws 3) (qs 4) (ks 4) (vs 4) (ws 4) (qs 5) (ks 5) (vs 5) (ws 5) (qs 6) (ks 6) (vs 6) (ws 6) (qs 7) (ks 7) (vs 7) (ws 7) bo xb g be
      = k1_pay1 (F := Ideal) (centred (preLN (accV qs ks vs ws) bo xb)) (sqSum (centred (preLN (accV qs ks vs ws) bo xb))) g be := by
  unfold pay1
  rw [pay17_eq, pay16_eq, pay15_eq, pay12_eq, pay10_eq, pay6_eq, pay2_eq]
  rfl

/-! ## One head at an index -/

theorem scoreV_apply (q : Vec Ideal S1x256x64 .bf16) (k : Vec Ideal S1x4096x64 .bf16) (r : Fin 256) (c : Fin 4096) :
    scoreV q k (ix2 r c) = (∑ d : Fin 64, q (ix3 0 r d) * k (ix3 0 c d)) * Ideal.ofBits .f32 0x3E000000#32 := by
  unfold scoreV
  rw [mulf_apply, matmul_scores_apply, broadcast_apply]
  simp only [shapeCast_1ab_ab_apply]
  rfl

/-- The row maximum of the scores is the fold the row function takes. -/
theorem scoreMax_apply (q : Vec Ideal S1x256x64 .bf16) (k : Vec Ideal S1x4096x64 .bf16) (r : Fin 256) :
    multiReduction (F := Ideal) .maximumf [1] S256 (scoreV q k) 0xFF800000#32 reduces_S256x4096_S256 (.inl rfl) rfl (ix1 r)
      = AttnSpec.rowmax (fun c => scoreV q k (ix2 r c)) :=
  rowMax_apply (scoreV q k) reduces_S256x4096_S256 (.inl rfl) rfl r

theorem expW_apply (q : Vec Ideal S1x256x64 .bf16) (k : Vec Ideal S1x4096x64 .bf16) (r : Fin 256) (c : Fin 4096) :
    expW q k (ix2 r c) = Ideal.exp (scoreV q k (ix2 r c) - AttnSpec.rowmax (fun c' => scoreV q k (ix2 r c'))) := by
  unfold expW
  show Ideal.exp (scoreV q k (ix2 r c) - broadcastTo S256x4096 _ broadcasts_S256x1_S256x4096 (ix2 r c)) = _
  rw [broadcastTo_a1_ab_apply, shapeCast_a_a1_apply, scoreMax_apply]

theorem sumW_apply (q : Vec Ideal S1x256x64 .bf16) (k : Vec Ideal S1x4096x64 .bf16) (r : Fin 256) (u : Fin 1) :
    sumW q k (ix2 r u) = ∑ c : Fin 4096, expW q k (ix2 r c) := by
  unfold sumW
  rw [shapeCast_a_a1_apply]
  exact rowSum_apply (expW q k) reduces_S256x4096_S256 (.inl rfl) rfl r

theorem ctxV_apply (q : Vec Ideal S1x256x64 .bf16) (k : Vec Ideal S1x4096x64 .bf16) (v : Vec Ideal S1x4096x64 .bf16) (r : Fin 256) (d : Fin 64) :
    ctxV q k v (ix2 r d)
      = Ideal.div (∑ c : Fin 4096, expW q k (ix2 r c) * v (ix3 0 c d)) (∑ c : Fin 4096, expW q k (ix2 r c)) := by
  unfold ctxV
  rw [divf_apply, matmul_weights_values_apply, broadcastTo_a1_ab_apply, sumW_apply]
  simp only [truncf_apply, shapeCast_1ab_ab_apply]

theorem headOut_apply (q : Vec Ideal S1x256x64 .bf16) (k : Vec Ideal S1x4096x64 .bf16) (v : Vec Ideal S1x4096x64 .bf16) (w : Vec Ideal S64x512 .bf16) (r : Fin 256) (n : Fin 512) :
    headOut q k v w (ix2 r n) = ∑ d : Fin 64, ctxV q k v (ix2 r d) * w (ix2 d n) := by
  unfold headOut
  rw [matmul_out_apply, shapeCast_self]
  rfl

/-! ## The tail at an index -/

theorem accV_apply (qs : Fin 8 → Vec Ideal S1x256x64 .bf16) (ks vs : Fin 8 → Vec Ideal S1x4096x64 .bf16)
    (ws : Fin 8 → Vec Ideal S64x512 .bf16) (r : Fin 256) (n : Fin 512) :
    accV qs ks vs ws (ix2 r n) = ∑ h : Fin 8, headOut (qs h) (ks h) (vs h) (ws h) (ix2 r n) := by
  unfold accV
  rw [Fin.sum_univ_eight]
  simp only [addf_apply, broadcast_apply]
  show Ideal.ofBits .f32 0x00000000#32 + _ + _ + _ + _ + _ + _ + _ + _ = _
  rw [Ideal.ofBits_zero_f32, zero_add]

theorem preLN_apply (acc : FVec Ideal S256x512 .f32) (bo : Vec Ideal S512 .f32) (xb : Vec Ideal S256x512 .f32)
    (r : Fin 256) (n : Fin 512) :
    preLN acc bo xb (ix2 r n) = acc (ix2 r n) + bo (ix1 n) + xb (ix2 r n) := by
  unfold preLN
  rw [addf_apply, addf_apply, broadcastTo_1b_ab_apply, shapeCast_a_1a_apply]

theorem centred_apply (y : FVec Ideal S256x512 .f32) (r : Fin 256) (n : Fin 512) :
    centred y (ix2 r n) = y (ix2 r n) - Ideal.div (∑ n' : Fin 512, y (ix2 r n')) (Ideal.ofBits .f32 0x44000000#32) := by
  unfold centred
  rw [subf_apply, broadcastTo_a1_ab_apply, divf_apply, shapeCast_a_a1_apply, broadcast_apply]
  refine congrArg (fun t => y (ix2 r n) - Ideal.div t _) ?_
  exact rowSum_apply y reduces_S256x512_S256 (.inl rfl) rfl r

theorem sqSum_apply (z : FVec Ideal S256x512 .f32) (r : Fin 256) (u : Fin 1) :
    sqSum z (ix2 r u) = ∑ n : Fin 512, z (ix2 r n) * z (ix2 r n) := by
  unfold sqSum
  rw [shapeCast_a_a1_apply]
  exact rowSum_apply (mulf z z) reduces_S256x512_S256 (.inl rfl) rfl r

/-- The last steps of the normalisation at an index: divide the sum of squares by 512, add ε, take the reciprocal
    square root, scale the centred entry, then apply the scale and shift vectors. -/
theorem k1_pay1_apply (z : FVec Ideal S256x512 .f32) (s : FVec Ideal S256x1 .f32) (g be : Vec Ideal S512 .f32)
    (r : Fin 256) (n : Fin 512) :
    k1_pay1 (F := Ideal) z s g be (ix2 r n)
      = z (ix2 r n) * Ideal.rsqrt (Ideal.div (s (ix2 r (0 : Fin 1))) (Ideal.ofBits .f32 0x44000000#32) + Ideal.ofBits .f32 0x3727C5AC#32)
          * g (ix1 n) + be (ix1 n) := by
  unfold k1_pay1
  rw [addf_apply, mulf_apply, mulf_apply, broadcastTo_a1_ab_apply, broadcastTo_1b_ab_apply, broadcastTo_1b_ab_apply,
    shapeCast_a_1a_apply, shapeCast_a_1a_apply]
  rfl

/-! ## The row function of the block's rows -/

/-- Column 64·h + d belongs to head h … -/
theorem hd_col (h : Fin 8) (d : Fin 64) : AttnSpec.hd (AttnSpec.col h d) = h :=
  Fin.ext (by
    show (64 * h.val + d.val) / 64 = h.val
    have := d.isLt
    omega)

/-- … at offset d. -/
theorem off_col (h : Fin 8) (d : Fin 64) : AttnSpec.off (AttnSpec.col h d) = d :=
  Fin.ext (by
    show (64 * h.val + d.val) % 64 = d.val
    have := d.isLt
    omega)

/-- The scaled score of row r against key c in head h, from the heads' slabs. -/
theorem scoreK_eq (qs : Fin 8 → Vec Ideal S1x256x64 .bf16) (ks vs : Fin 8 → Vec Ideal S1x4096x64 .bf16) (r : Fin 256) (h : Fin 8) (c : Fin 4096) :
    AttnSpec.scoreK (fun j => qs (AttnSpec.hd j) (ix3 0 r (AttnSpec.off j))) (fun k j => ks (AttnSpec.hd j) (ix3 0 k (AttnSpec.off j))) h c = scoreV (qs h) (ks h) (ix2 r c) := by
  rw [scoreV_apply]
  unfold AttnSpec.scoreK AttnSpec.dotQK AttnSpec.cEighth
  simp only [hd_col, off_col]

/-- The soft-max numerator. -/
theorem pK_eq (qs : Fin 8 → Vec Ideal S1x256x64 .bf16) (ks vs : Fin 8 → Vec Ideal S1x4096x64 .bf16) (r : Fin 256) (h : Fin 8) (c : Fin 4096) :
    AttnSpec.pK (fun j => qs (AttnSpec.hd j) (ix3 0 r (AttnSpec.off j))) (fun k j => ks (AttnSpec.hd j) (ix3 0 k (AttnSpec.off j))) h c = expW (qs h) (ks h) (ix2 r c) := by
  rw [expW_apply]
  unfold AttnSpec.pK
  rw [scoreK_eq qs ks vs r h c]
  refine congrArg (fun t => Ideal.exp (scoreV (qs h) (ks h) (ix2 r c) - AttnSpec.rowmax t)) ?_
  exact funext fun c' => scoreK_eq qs ks vs r h c'

/-- The context of row r in head h at offset d. -/
theorem ctxK_eq (qs : Fin 8 → Vec Ideal S1x256x64 .bf16) (ks vs : Fin 8 → Vec Ideal S1x4096x64 .bf16) (r : Fin 256) (h : Fin 8) (d : Fin 64) :
    AttnSpec.ctxK (fun j => qs (AttnSpec.hd j) (ix3 0 r (AttnSpec.off j))) (fun k j => ks (AttnSpec.hd j) (ix3 0 k (AttnSpec.off j))) (fun k j => vs (AttnSpec.hd j) (ix3 0 k (AttnSpec.off j))) h d = ctxV (qs h) (ks h) (vs h) (ix2 r d) := by
  rw [ctxV_apply]
  unfold AttnSpec.ctxK AttnSpec.lK
  simp only [pK_eq qs ks vs r h, hd_col, off_col]

/-- The attention output of row r at column n is the accumulator's entry. -/
theorem attnK_eq (qs : Fin 8 → Vec Ideal S1x256x64 .bf16) (ks vs : Fin 8 → Vec Ideal S1x4096x64 .bf16) (ws : Fin 8 → Vec Ideal S64x512 .bf16) (r : Fin 256) (n : Fin 512) :
    AttnSpec.attnK (fun j => qs (AttnSpec.hd j) (ix3 0 r (AttnSpec.off j))) (fun k j => ks (AttnSpec.hd j) (ix3 0 k (AttnSpec.off j))) (fun k j => vs (AttnSpec.hd j) (ix3 0 k (AttnSpec.off j))) (fun j n' => ws (AttnSpec.hd j) (ix2 (AttnSpec.off j) n')) n = accV qs ks vs ws (ix2 r n) := by
  rw [accV_apply]
  unfold AttnSpec.attnK
  refine Finset.sum_congr rfl fun h _ => ?_
  rw [headOut_apply]
  refine Finset.sum_congr rfl fun d _ => ?_
  rw [ctxK_eq qs ks vs r h d]
  simp only [hd_col, off_col]

/-- Entry (r, n) of what the second body stores is the row function of query row r, column n. -/
theorem pay1_apply (qs : Fin 8 → Vec Ideal S1x256x64 .bf16) (ks vs : Fin 8 → Vec Ideal S1x4096x64 .bf16) (ws : Fin 8 → Vec Ideal S64x512 .bf16)
    (bo : Vec Ideal S512 .f32) (xb : Vec Ideal S256x512 .f32) (g be : Vec Ideal S512 .f32) (r : Fin 256) (n : Fin 512) :
    pay1 (F := Ideal) (qs 0) (ks 0) (vs 0) (ws 0) (qs 1) (ks 1) (vs 1) (ws 1) (qs 2) (ks 2) (vs 2) (ws 2) (qs 3) (ks 3) (vs 3) (ws 3) (qs 4) (ks 4) (vs 4) (ws 4) (qs 5) (ks 5) (vs 5) (ws 5) (qs 6) (ks 6) (vs 6) (ws 6) (qs 7) (ks 7) (vs 7) (ws 7) bo xb g be (ix2 r n)
      = AttnSpec.rowK (fun j => qs (AttnSpec.hd j) (ix3 0 r (AttnSpec.off j)))
          (fun k j => ks (AttnSpec.hd j) (ix3 0 k (AttnSpec.off j)))
          (fun k j => vs (AttnSpec.hd j) (ix3 0 k (AttnSpec.off j)))
          (fun j n' => ws (AttnSpec.hd j) (ix2 (AttnSpec.off j) n'))
          (fun n' => bo (ix1 n')) (fun n' => xb (ix2 r n')) (fun n' => g (ix1 n')) (fun n' => be (ix1 n')) n := by
  rw [pay1_eq, k1_pay1_apply, sqSum_apply]
  simp only [centred_apply]
  have hy : ∀ n' : Fin 512, preLN (accV qs ks vs ws) bo xb (ix2 r n')
      = AttnSpec.attnK (fun j => qs (AttnSpec.hd j) (ix3 0 r (AttnSpec.off j))) (fun k j => ks (AttnSpec.hd j) (ix3 0 k (AttnSpec.off j))) (fun k j => vs (AttnSpec.hd j) (ix3 0 k (AttnSpec.off j))) (fun j n' => ws (AttnSpec.hd j) (ix2 (AttnSpec.off j) n')) n' + bo (ix1 n') + xb (ix2 r n') :=
    fun n' => by rw [preLN_apply, attnK_eq qs ks vs ws r n']
  simp only [hy]
  rfl

end Cert.KernelIdeal.KVal

end
-- ==== Proof.KArr1Close.lean ====
/-
  The second pallas_call's result array, entry by entry, with the payload law supplied: the body's stored value at
  entry (r, n) of its block is `AttnSpec.rowK` of the loaded pieces, so entry (q, n) of the array is `rowK` of query
  row q of the eight heads, the keys, the values, the output weight and bias, row q of x, the scale and the shift.
-/
import proofs.«106357_j15109694948028_2_alg».proof.Proof.KArr1
import proofs.«106357_j15109694948028_2_alg».proof.Proof.KPay1

noncomputable section

namespace Cert.KernelIdeal.Arr

open Cert.KernelIdeal Cert.KernelIdeal.Gen Cert.KernelIdeal.Run Cert.KernelIdeal.KVal
open Idealize.ShloMosaic Idealize.ShloMosaic.TcCoe Idealize.ShloMosaic.ValueIdx AttnSpec

/-- Entry (q, n) of the result array after the second pallas_call. -/
theorem final1_8 (V : (c : Dev nD) → (b : Ref sig .tc) → Buf (Elt Ideal) ((c : Thread nD τ).loc b)) (c : Dev nD)
    (q : Fin 4096) (n : Fin 512) :
    (dat1 (F := Ideal) V c).arrAt 8 cfg1.N (ix2 q n)
      = rowK (fun j => (V c main_v9 : S8x4096x64.Idx → EReal) (ix3 (hd j) q (off j)))
          (fun k j => (V c main_v11 : S8x4096x64.Idx → EReal) (ix3 (hd j) k (off j)))
          (fun k j => (V c main_v13 : S8x4096x64.Idx → EReal) (ix3 (hd j) k (off j)))
          (fun j n' => (V c main_v14 : S512x512.Idx → EReal) (ix2 j n'))
          (fun n' => (V c main_arg8 : S512.Idx → EReal) (ix1 n'))
          (fun n' => (V c main_arg0 : S4096x512.Idx → EReal) (ix2 q n'))
          (fun n' => (V c main_arg9 : S512.Idx → EReal) (ix1 n'))
          (fun n' => (V c main_arg10 : S512.Idx → EReal) (ix1 n')) n :=
  final1_8_of pay1_apply V c q n

end Cert.KernelIdeal.Arr

end
-- ==== Proof.KHost.lean ====
/-
  The host operations of the idealized program's @main, read at an index, for an arbitrary valuation `W` of
  the buffers a stretch is entered with (every float read as an extended real; a change of float format is the
  identity there).

  First stretch: the 512 × 1536 weight array is the three 512 × 512 weight matrices side by side, so its
  column `j` is column `j − 512·p` of matrix `p` for `512·p ≤ j < 512·(p+1)`; the bias vector of 1536
  entries is the three bias vectors end to end in the same way; the converted data is the data.

  Second stretch: each of the three 512-column slices (from column 0, 512, 1024) of the 4096 × 1536 array is
  reshaped 4096 × 512 → 4096 × 8 × 64 and its first two axes swapped, so entry `(h, s, d)` of the result is
  entry `(s, o + 64·h + d)` of the source, by the row-major identity `512·s + (64·h + d) = 64·(8·s + h) + d`;
  the converted output weights are the output weights.
-/
import proofs.«106357_j15109694948028_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.TcCoe Idealize.ShloMosaic.ValueIdx
  Idealize.ShloMosaic.StableHlo

/-! ### Layout operations read at an index, over arbitrary contents -/

section readers

variable {α : Type}

/-- Three 512-column blocks laid side by side along the columns: column `j` of the result is column
    `j − 512·p` of block `p`, for `512·p ≤ j < 512·(p+1)`. -/
theorem cat_cols_0 (x₀ x₁ x₂ : S512x512.Idx → α) (k : Fin 512) (j : Fin 1536) (c : Fin 512) (hj : j.val = c.val) :
    concatenate S512x1536 1 [⟨S512x512, x₀⟩, ⟨S512x512, x₁⟩, ⟨S512x512, x₂⟩]
      concatenates_S512x512_S512x512_S512x512_S512x1536_d1 (ix2 k j) = x₀ (ix2 k c) :=
  concatenate_apply_piece 1 _ _ (ix2 k j) 0 (by simp) S512x512 x₀ rfl rfl 0 rfl (ix2 k c)
    (fun b hb => match b, hb with
      | ⟨0, _⟩, _ => rfl
      | ⟨1, _⟩, hb => absurd (Fin.ext rfl) hb)
    (by show 0 + c.val = j.val; omega)

theorem cat_cols_1 (x₀ x₁ x₂ : S512x512.Idx → α) (k : Fin 512) (j : Fin 1536) (c : Fin 512)
    (hj : j.val = 512 + c.val) :
    concatenate S512x1536 1 [⟨S512x512, x₀⟩, ⟨S512x512, x₁⟩, ⟨S512x512, x₂⟩]
      concatenates_S512x512_S512x512_S512x512_S512x1536_d1 (ix2 k j) = x₁ (ix2 k c) :=
  concatenate_apply_piece 1 _ _ (ix2 k j) 1 (by simp) S512x512 x₁ rfl rfl 512 rfl (ix2 k c)
    (fun b hb => match b, hb with
      | ⟨0, _⟩, _ => rfl
      | ⟨1, _⟩, hb => absurd (Fin.ext rfl) hb)
    (by show 512 + c.val = j.val; omega)

theorem cat_cols_2 (x₀ x₁ x₂ : S512x512.Idx → α) (k : Fin 512) (j : Fin 1536) (c : Fin 512)
    (hj : j.val = 1024 + c.val) :
    concatenate S512x1536 1 [⟨S512x512, x₀⟩, ⟨S512x512, x₁⟩, ⟨S512x512, x₂⟩]
      concatenates_S512x512_S512x512_S512x512_S512x1536_d1 (ix2 k j) = x₂ (ix2 k c) :=
  concatenate_apply_piece 1 _ _ (ix2 k j) 2 (by simp) S512x512 x₂ rfl rfl 1024 rfl (ix2 k c)
    (fun b hb => match b, hb with
      | ⟨0, _⟩, _ => rfl
      | ⟨1, _⟩, hb => absurd (Fin.ext rfl) hb)
    (by show 1024 + c.val = j.val; omega)

/-- Three vectors of 512 entries laid end to end: entry `j` of the result is entry `j − 512·p` of vector `p`. -/
theorem cat_vec_0 (x₀ x₁ x₂ : S512.Idx → α) (j : Fin 1536) (c : Fin 512) (hj : j.val = c.val) :
    concatenate S1536 0 [⟨S512, x₀⟩, ⟨S512, x₁⟩, ⟨S512, x₂⟩] concatenates_S512_S512_S512_S1536_d0 (ix1 j)
      = x₀ (ix1 c) :=
  concatenate_apply_piece 0 _ _ (ix1 j) 0 (by simp) S512 x₀ rfl rfl 0 rfl (ix1 c)
    (fun b hb => match b, hb with | ⟨0, _⟩, hb => absurd (Fin.ext rfl) hb)
    (by show 0 + c.val = j.val; omega)

theorem cat_vec_1 (x₀ x₁ x₂ : S512.Idx → α) (j : Fin 1536) (c : Fin 512) (hj : j.val = 512 + c.val) :
    concatenate S1536 0 [⟨S512, x₀⟩, ⟨S512, x₁⟩, ⟨S512, x₂⟩] concatenates_S512_S512_S512_S1536_d0 (ix1 j)
      = x₁ (ix1 c) :=
  concatenate_apply_piece 0 _ _ (ix1 j) 1 (by simp) S512 x₁ rfl rfl 512 rfl (ix1 c)
    (fun b hb => match b, hb with | ⟨0, _⟩, hb => absurd (Fin.ext rfl) hb)
    (by show 512 + c.val = j.val; omega)

theorem cat_vec_2 (x₀ x₁ x₂ : S512.Idx → α) (j : Fin 1536) (c : Fin 512) (hj : j.val = 1024 + c.val) :
    concatenate S1536 0 [⟨S512, x₀⟩, ⟨S512, x₁⟩, ⟨S512, x₂⟩] concatenates_S512_S512_S512_S1536_d0 (ix1 j)
      = x₂ (ix1 c) :=
  concatenate_apply_piece 0 _ _ (ix1 j) 2 (by simp) S512 x₂ rfl rfl 1024 rfl (ix1 c)
    (fun b hb => match b, hb with | ⟨0, _⟩, hb => absurd (Fin.ext rfl) hb)
    (by show 1024 + c.val = j.val; omega)

/-- A slice of 512 columns from column `o`, its columns split into 8 heads of 64, and the head axis moved to the
    front: entry `(h, s, d)` is the source's entry `(s, o + 64·h + d)` (row-major: `512·s + (64·h + d) = 64·(8·s + h) + d`). -/
theorem heads_apply (o : Nat) (X : S4096x1536.Idx → α) (hs : S4096x1536.Slices ![0, o] S4096x512)
    (h : Fin 8) (s : Fin 4096) (d : Fin 64) (c : Fin 1536) (hc : c.val = o + (64 * h.val + d.val)) :
    transpose S8x4096x64 [1, 0, 2]
        (shapeCast S4096x8x64 (extractStridedSlice S4096x512 ![0, o] X hs) shapeCasts_S4096x512_S4096x8x64)
        transposes_S4096x8x64_S8x4096x64_1_0_2 (ix3 h s d) = X (ix2 s c) := by
  have hh := h.isLt
  have hd := d.isLt
  refine (transpose_apply [1, 0, 2] _ transposes_S4096x8x64_S8x4096x64_1_0_2 (ix3 h s d) (ix3 s h d)
    (fun b => match b with | ⟨0, _⟩ => rfl | ⟨1, _⟩ => rfl | ⟨2, _⟩ => rfl)).trans ?_
  refine (shapeCast_apply _ shapeCasts_S4096x512_S4096x8x64 (ix3 s h d)
    (ix2 s (⟨64 * h.val + d.val, by omega⟩ : Fin 512)) ?_).trans ?_
  · rw [Shape.rowMajor_val_two, Shape.rowMajor_val_three]
    show s.val * 512 + (64 * h.val + d.val) = (s.val * 8 + h.val) * 64 + d.val
    omega
  · exact slice2_axis1_apply o X hs s ⟨64 * h.val + d.val, by omega⟩ c hc

end readers

/-! ### The first stretch: the three weight matrices side by side, the three biases end to end, the data -/

section stretch0

variable (W : Valuation τ sig (Elt Ideal))

/-- The converted data is the data: a change of float format is the identity on the extended reals. -/
theorem host0_v3 (s : Fin 4096) (k : Fin 512) :
    (StableHlo.after (hostOps0 (F := Ideal)) W (Proc.devRef .tc main_v3) : S4096x512.Idx → EReal) (ix2 s k)
      = (W (Proc.devRef .tc main_arg0) : S4096x512.Idx → EReal) (ix2 s k) := by
  have e : (StableHlo.after (hostOps0 (F := Ideal)) W (Proc.devRef .tc main_v3) : S4096x512.Idx → EReal)
      = (W (Proc.devRef .tc main_arg0) : S4096x512.Idx → EReal) := by
    after_results
    rfl
  rw [e]

/-- The 512 × 1536 weight array is the three 512 × 512 weight matrices side by side. -/
theorem host0_v1_eq :
    (StableHlo.after (hostOps0 (F := Ideal)) W (Proc.devRef .tc main_v1) : S512x1536.Idx → EReal)
      = concatenate S512x1536 1
          [⟨S512x512, (W (Proc.devRef .tc main_arg1) : S512x512.Idx → EReal)⟩,
            ⟨S512x512, (W (Proc.devRef .tc main_arg3) : S512x512.Idx → EReal)⟩,
            ⟨S512x512, (W (Proc.devRef .tc main_arg5) : S512x512.Idx → EReal)⟩]
          concatenates_S512x512_S512x512_S512x512_S512x1536_d1 := by
  after_results
  rfl

/-- Columns 0 … 511 are the first matrix. -/
theorem host0_v1_lo (k : Fin 512) (j : Fin 1536) (c : Fin 512) (hj : j.val = c.val) :
    (StableHlo.after (hostOps0 (F := Ideal)) W (Proc.devRef .tc main_v1) : S512x1536.Idx → EReal) (ix2 k j)
      = (W (Proc.devRef .tc main_arg1) : S512x512.Idx → EReal) (ix2 k c) :=
  (congrFun (host0_v1_eq W) (ix2 k j)).trans (cat_cols_0 _ _ _ k j c hj)

/-- Columns 512 … 1023 are the second matrix. -/
theorem host0_v1_mid (k : Fin 512) (j : Fin 1536) (c : Fin 512) (hj : j.val = 512 + c.val) :
    (StableHlo.after (hostOps0 (F := Ideal)) W (Proc.devRef .tc main_v1) : S512x1536.Idx → EReal) (ix2 k j)
      = (W (Proc.devRef .tc main_arg3) : S512x512.Idx → EReal) (ix2 k c) :=
  (congrFun (host0_v1_eq W) (ix2 k j)).trans (cat_cols_1 _ _ _ k j c hj)

/-- Columns 1024 … 1535 are the third matrix. -/
theorem host0_v1_hi (k : Fin 512) (j : Fin 1536) (c : Fin 512) (hj : j.val = 1024 + c.val) :
    (StableHlo.after (hostOps0 (F := Ideal)) W (Proc.devRef .tc main_v1) : S512x1536.Idx → EReal) (ix2 k j)
      = (W (Proc.devRef .tc main_arg5) : S512x512.Idx → EReal) (ix2 k c) :=
  (congrFun (host0_v1_eq W) (ix2 k j)).trans (cat_cols_2 _ _ _ k j c hj)

/-- The three ranges in one statement. -/
theorem host0_v1 (k : Fin 512) (j : Fin 1536) :
    (StableHlo.after (hostOps0 (F := Ideal)) W (Proc.devRef .tc main_v1) : S512x1536.Idx → EReal) (ix2 k j)
      = if h : j.val < 512 then (W (Proc.devRef .tc main_arg1) : S512x512.Idx → EReal) (ix2 k ⟨j.val, h⟩)
        else if h' : j.val < 1024 then
          (W (Proc.devRef .tc main_arg3) : S512x512.Idx → EReal) (ix2 k ⟨j.val - 512, by omega⟩)
        else (W (Proc.devRef .tc main_arg5) : S512x512.Idx → EReal) (ix2 k ⟨j.val - 1024, by omega⟩) := by
  have hj := j.isLt
  by_cases h : j.val < 512
  · rw [dif_pos h]; exact host0_v1_lo W k j ⟨j.val, h⟩ rfl
  · rw [dif_neg h]
    by_cases h' : j.val < 1024
    · rw [dif_pos h']; exact host0_v1_mid W k j ⟨j.val - 512, by omega⟩ (by show j.val = 512 + (j.val - 512); omega)
    · rw [dif_neg h']; exact host0_v1_hi W k j ⟨j.val - 1024, by omega⟩ (by show j.val = 1024 + (j.val - 1024); omega)

/-- The bias vector of 1536 entries is the three bias vectors of 512 end to end. -/
theorem host0_v2_eq :
    (StableHlo.after (hostOps0 (F := Ideal)) W (Proc.devRef .tc main_v2) : S1536.Idx → EReal)
      = concatenate S1536 0
          [⟨S512, (W (Proc.devRef .tc main_arg2) : S512.Idx → EReal)⟩,
            ⟨S512, (W (Proc.devRef .tc main_arg4) : S512.Idx → EReal)⟩,
            ⟨S512, (W (Proc.devRef .tc main_arg6) : S512.Idx → EReal)⟩]
          concatenates_S512_S512_S512_S1536_d0 := by
  after_results
  dsimp only [Matrix.cons_val_zero, Matrix.cons_val_one, Matrix.head_cons, Matrix.cons_val_two, Matrix.tail_cons]
  repeat (first
    | (rw [unary_result_ne]; rotate_left; decide)
    | (rw [nary_result_ne]; rotate_left; decide))
  rfl

theorem host0_v2_lo (j : Fin 1536) (c : Fin 512) (hj : j.val = c.val) :
    (StableHlo.after (hostOps0 (F := Ideal)) W (Proc.devRef .tc main_v2) : S1536.Idx → EReal) (ix1 j)
      = (W (Proc.devRef .tc main_arg2) : S512.Idx → EReal) (ix1 c) :=
  (congrFun (host0_v2_eq W) (ix1 j)).trans (cat_vec_0 _ _ _ j c hj)

theorem host0_v2_mid (j : Fin 1536) (c : Fin 512) (hj : j.val = 512 + c.val) :
    (StableHlo.after (hostOps0 (F := Ideal)) W (Proc.devRef .tc main_v2) : S1536.Idx → EReal) (ix1 j)
      = (W (Proc.devRef .tc main_arg4) : S512.Idx → EReal) (ix1 c) :=
  (congrFun (host0_v2_eq W) (ix1 j)).trans (cat_vec_1 _ _ _ j c hj)

theorem host0_v2_hi (j : Fin 1536) (c : Fin 512) (hj : j.val = 1024 + c.val) :
    (StableHlo.after (hostOps0 (F := Ideal)) W (Proc.devRef .tc main_v2) : S1536.Idx → EReal) (ix1 j)
      = (W (Proc.devRef .tc main_arg6) : S512.Idx → EReal) (ix1 c) :=
  (congrFun (host0_v2_eq W) (ix1 j)).trans (cat_vec_2 _ _ _ j c hj)

theorem host0_v2 (j : Fin 1536) :
    (StableHlo.after (hostOps0 (F := Ideal)) W (Proc.devRef .tc main_v2) : S1536.Idx → EReal) (ix1 j)
      = if h : j.val < 512 then (W (Proc.devRef .tc main_arg2) : S512.Idx → EReal) (ix1 ⟨j.val, h⟩)
        else if h' : j.val < 1024 then (W (Proc.devRef .tc main_arg4) : S512.Idx → EReal) (ix1 ⟨j.val - 512, by omega⟩)
        else (W (Proc.devRef .tc main_arg6) : S512.Idx → EReal) (ix1 ⟨j.val - 1024, by omega⟩) := by
  have hj := j.isLt
  by_cases h : j.val < 512
  · rw [dif_pos h]; exact host0_v2_lo W j ⟨j.val, h⟩ rfl
  · rw [dif_neg h]
    by_cases h' : j.val < 1024
    · rw [dif_pos h']; exact host0_v2_mid W j ⟨j.val - 512, by omega⟩ (by show j.val = 512 + (j.val - 512); omega)
    · rw [dif_neg h']; exact host0_v2_hi W j ⟨j.val - 1024, by omega⟩ (by show j.val = 1024 + (j.val - 1024); omega)

end stretch0

/-! ### The second stretch: the projections' 1536 columns cut into three, each split by head; the output weights -/

section stretch1

variable (W : Valuation τ sig (Elt Ideal))

/-- Head `h`, row `s`, offset `d` of the first 512 columns: column `c = 64·h + d` of the 1536. -/
theorem host1_v9_at (h : Fin 8) (s : Fin 4096) (d : Fin 64) (c : Fin 1536) (hc : c.val = 64 * h.val + d.val) :
    (StableHlo.after (hostOps1 (F := Ideal)) W (Proc.devRef .tc main_v9) : S8x4096x64.Idx → EReal) (ix3 h s d)
      = (W (Proc.devRef .tc main_v4) : S4096x1536.Idx → EReal) (ix2 s c) := by
  have e : (StableHlo.after (hostOps1 (F := Ideal)) W (Proc.devRef .tc main_v9) : S8x4096x64.Idx → EReal)
      = transpose S8x4096x64 [1, 0, 2]
          (shapeCast S4096x8x64
            (extractStridedSlice S4096x512 ![0, 0] (W (Proc.devRef .tc main_v4) : S4096x1536.Idx → EReal)
              slices_S4096x1536_S4096x512_0_0) shapeCasts_S4096x512_S4096x8x64)
          transposes_S4096x8x64_S8x4096x64_1_0_2 := by
    after_results
    rfl
  exact (congrFun e (ix3 h s d)).trans
    (heads_apply 0 _ slices_S4096x1536_S4096x512_0_0 h s d c (by rw [hc]; omega))

/-- The same for the second 512 columns: column `c = 512 + 64·h + d`. -/
theorem host1_v11_at (h : Fin 8) (s : Fin 4096) (d : Fin 64) (c : Fin 1536)
    (hc : c.val = 512 + 64 * h.val + d.val) :
    (StableHlo.after (hostOps1 (F := Ideal)) W (Proc.devRef .tc main_v11) : S8x4096x64.Idx → EReal) (ix3 h s d)
      = (W (Proc.devRef .tc main_v4) : S4096x1536.Idx → EReal) (ix2 s c) := by
  have e : (StableHlo.after (hostOps1 (F := Ideal)) W (Proc.devRef .tc main_v11) : S8x4096x64.Idx → EReal)
      = transpose S8x4096x64 [1, 0, 2]
          (shapeCast S4096x8x64
            (extractStridedSlice S4096x512 ![0, 512] (W (Proc.devRef .tc main_v4) : S4096x1536.Idx → EReal)
              slices_S4096x1536_S4096x512_0_512) shapeCasts_S4096x512_S4096x8x64)
          transposes_S4096x8x64_S8x4096x64_1_0_2 := by
    after_results
    rfl
  exact (congrFun e (ix3 h s d)).trans
    (heads_apply 512 _ slices_S4096x1536_S4096x512_0_512 h s d c (by rw [hc]; omega))

/-- The same for the third 512 columns: column `c = 1024 + 64·h + d`. -/
theorem host1_v13_at (h : Fin 8) (s : Fin 4096) (d : Fin 64) (c : Fin 1536)
    (hc : c.val = 1024 + 64 * h.val + d.val) :
    (StableHlo.after (hostOps1 (F := Ideal)) W (Proc.devRef .tc main_v13) : S8x4096x64.Idx → EReal) (ix3 h s d)
      = (W (Proc.devRef .tc main_v4) : S4096x1536.Idx → EReal) (ix2 s c) := by
  have e : (StableHlo.after (hostOps1 (F := Ideal)) W (Proc.devRef .tc main_v13) : S8x4096x64.Idx → EReal)
      = transpose S8x4096x64 [1, 0, 2]
          (shapeCast S4096x8x64
            (extractStridedSlice S4096x512 ![0, 1024] (W (Proc.devRef .tc main_v4) : S4096x1536.Idx → EReal)
              slices_S4096x1536_S4096x512_0_1024) shapeCasts_S4096x512_S4096x8x64)
          transposes_S4096x8x64_S8x4096x64_1_0_2 := by
    after_results
    rfl
  exact (congrFun e (ix3 h s d)).trans
    (heads_apply 1024 _ slices_S4096x1536_S4096x512_0_1024 h s d c (by rw [hc]; omega))

/-- The three with the column written out. -/
theorem host1_v9 (h : Fin 8) (s : Fin 4096) (d : Fin 64) :
    (StableHlo.after (hostOps1 (F := Ideal)) W (Proc.devRef .tc main_v9) : S8x4096x64.Idx → EReal) (ix3 h s d)
      = (W (Proc.devRef .tc main_v4) : S4096x1536.Idx → EReal) (ix2 s ⟨64 * h.val + d.val, by omega⟩) :=
  host1_v9_at W h s d _ rfl

theorem host1_v11 (h : Fin 8) (s : Fin 4096) (d : Fin 64) :
    (StableHlo.after (hostOps1 (F := Ideal)) W (Proc.devRef .tc main_v11) : S8x4096x64.Idx → EReal) (ix3 h s d)
      = (W (Proc.devRef .tc main_v4) : S4096x1536.Idx → EReal) (ix2 s ⟨512 + 64 * h.val + d.val, by omega⟩) :=
  host1_v11_at W h s d _ rfl

theorem host1_v13 (h : Fin 8) (s : Fin 4096) (d : Fin 64) :
    (StableHlo.after (hostOps1 (F := Ideal)) W (Proc.devRef .tc main_v13) : S8x4096x64.Idx → EReal) (ix3 h s d)
      = (W (Proc.devRef .tc main_v4) : S4096x1536.Idx → EReal) (ix2 s ⟨1024 + 64 * h.val + d.val, by omega⟩) :=
  host1_v13_at W h s d _ rfl

/-- The converted output weights are the output weights. -/
theorem host1_v14 (j n : Fin 512) :
    (StableHlo.after (hostOps1 (F := Ideal)) W (Proc.devRef .tc main_v14) : S512x512.Idx → EReal) (ix2 j n)
      = (W (Proc.devRef .tc main_arg7) : S512x512.Idx → EReal) (ix2 j n) := by
  have e : (StableHlo.after (hostOps1 (F := Ideal)) W (Proc.devRef .tc main_v14) : S512x512.Idx → EReal)
      = (W (Proc.devRef .tc main_arg7) : S512x512.Idx → EReal) := by
    after_results
    rfl
  rw [e]

end stretch1

end Cert.KernelIdeal.HostVal

end
-- ==== Proof.KValue.lean ====
/-
  The kernel's result, entry by entry, is the first arrangement of the specification applied to the argument arrays.
  The second pallas_call leaves rowK of its operands at entry (q, n). Its operands are: the heads of the three thirds
  of the first pallas_call's output x·[Wq|Wk|Wv] + [bq|bk|bv], whose column 64·h + d of a third is that projection's
  column 64·h + d; the output weights, which a change of format leaves as they are; and the arguments bo, x, γ, β,
  which no operation writes. So entry (q, n) is rowK (Q q) K V Wo bo (x q) γ β n = GK … q n.
-/
import proofs.«106357_j15109694948028_2_alg».proof.Proof.KIRun
import proofs.«106357_j15109694948028_2_alg».proof.Proof.Gen.KernelIdeal.Regions
import proofs.«106357_j15109694948028_2_alg».proof.Proof.Spec
import proofs.«106357_j15109694948028_2_alg».proof.Proof.KArr0
import proofs.«106357_j15109694948028_2_alg».proof.Proof.KArr1Close
import proofs.«106357_j15109694948028_2_alg».proof.Proof.KHost
import Idealize.ShloMosaic.Lib.ValueIdx

noncomputable section

open scoped BigOperators

namespace Cert.KernelIdeal.KernelValue

open Cert.KernelIdeal Cert.KernelIdeal.Gen
open Idealize.ShloMosaic Idealize.ShloMosaic.TcCoe Idealize.ShloMosaic.ValueIdx
open Idealize.SL Idealize.SL.Sem
open Cert.KernelIdeal.Run (W0 W1 W2 W3 W4 W2_arr W2_of_ne W4_arr W4_of_ne dat0 dat1)
open AttnSpec

variable (m : (ℓ : Loc nD τ sig) → Buf (Elt Ideal) ℓ) (ρ : Dev nD → PrngReg) (c : Dev nD)

/-- One entry of x·W + b: the contraction over the 512 input columns plus the bias. -/
def affine (a w : Fin 512 → EReal) (b : EReal) : EReal := (∑ k : Fin 512, a k * w k) + b

theorem affine_congr {a a' w w' : Fin 512 → EReal} {b b' : EReal} (ha : ∀ k, a k = a' k) (hw : ∀ k, w k = w' k)
    (hb : b = b') : affine a w b = affine a' w' b' := by
  rw [funext ha, funext hw, hb]

theorem rowK_congr {qr qr' : Row} {K K' V V' : Mat 4096 512} {Wo Wo' : Mat 512 512} {bo bo' xr xr' g g' b b' : Row}
    (e1 : qr = qr') (e2 : K = K') (e3 : V = V') (e4 : Wo = Wo') (e5 : bo = bo') (e6 : xr = xr') (e7 : g = g')
    (e8 : b = b') (n : Fin 512) : rowK qr K V Wo bo xr g b n = rowK qr' K' V' Wo' bo' xr' g' b' n := by
  rw [e1, e2, e3, e4, e5, e6, e7, e8]

/-- The argument arrays at launch, by row and column. -/
abbrev aX : Mat 4096 512 := fun s k => m ((c : Thread nD τ).loc main_arg0) (ix2 s k)
abbrev aWq : Mat 512 512 := fun k j => m ((c : Thread nD τ).loc main_arg1) (ix2 k j)
abbrev abq : Row := fun j => m ((c : Thread nD τ).loc main_arg2) (ix1 j)
abbrev aWk : Mat 512 512 := fun k j => m ((c : Thread nD τ).loc main_arg3) (ix2 k j)
abbrev abk : Row := fun j => m ((c : Thread nD τ).loc main_arg4) (ix1 j)
abbrev aWv : Mat 512 512 := fun k j => m ((c : Thread nD τ).loc main_arg5) (ix2 k j)
abbrev abv : Row := fun j => m ((c : Thread nD τ).loc main_arg6) (ix1 j)
abbrev aWo : Mat 512 512 := fun k j => m ((c : Thread nD τ).loc main_arg7) (ix2 k j)
abbrev abo : Row := fun j => m ((c : Thread nD τ).loc main_arg8) (ix1 j)
abbrev ag : Row := fun j => m ((c : Thread nD τ).loc main_arg9) (ix1 j)
abbrev ab : Row := fun j => m ((c : Thread nD τ).loc main_arg10) (ix1 j)

/-- The first pallas_call's output array at row s, column j of the 1536. -/
theorem final0_3 (V : (c : Dev nD) → (b : Ref sig .tc) → Buf (Elt Ideal) ((c : Thread nD τ).loc b)) (c : Dev nD) (s : Fin 4096) (j : Fin 1536) :
    (dat0 (F := Ideal) V c).arrAt 3 cfg0.N (ix2 s j)
      = affine (fun k => V c main_v3 (ix2 s k)) (fun k => V c main_v1 (ix2 k j)) (V c main_v2 (ix1 j)) :=
  Arr0.final0_3 V c _ _ _ rfl rfl rfl s j

/-! ### Buffers no operation writes before the second pallas_call -/

/-- A buffer the first host stretch does not write and that is no array of the first pallas_call holds, after that
    call, what it held at launch. -/
theorem W2_launch (b : Ref sig .tc) (h2 : ∀ w, Pipeline.arrRef spec0 w ≠ b) (h0 : b ∉ hostOps0_W) :
    W2 (F := Ideal) m ρ c (Proc.devRef .tc b) = m ((c : Thread nD τ).loc b) :=
  (W2_of_ne m ρ c b h2).trans (StableHlo.after_of_writes_sub hostOps0 _ hostOps0_writes h0)

/-- If moreover the second host stretch does not write it, the same holds after that stretch. -/
theorem W3_launch (b : Ref sig .tc) (h1 : b ∉ hostOps1_W) (h2 : ∀ w, Pipeline.arrRef spec0 w ≠ b) (h0 : b ∉ hostOps0_W) :
    W3 (F := Ideal) m ρ c (Proc.devRef .tc b) = m ((c : Thread nD τ).loc b) :=
  (StableHlo.after_of_writes_sub hostOps1 _ hostOps1_writes h1).trans (W2_launch m ρ c b h2 h0)

/-! ### The first pallas_call's output: the three projections side by side

Its array is x·[Wq|Wk|Wv] + [bq|bk|bv]: the joined weights and biases are the three matrices and vectors side by
side, and the converted input is the input, so column j of each third is that projection's column j. -/

theorem v4_q (s : Fin 4096) (j : Fin 512) (jj : Fin 1536) (hj : jj.val = j.val) :
    W2 (F := Ideal) m ρ c (Proc.devRef .tc main_v4) (ix2 s jj) = proj (aX m c) (aWq m c) (abq m c) s j := by
  refine ((congrFun (W2_arr m ρ c 3) (ix2 s jj)).trans (final0_3 (Run.V1 m ρ) c s jj)).trans ?_
  show affine _ _ _ = affine (fun k => aX m c s k) (fun k => aWq m c k j) (abq m c j)
  exact affine_congr (fun k => HostVal.host0_v3 (W0 m ρ c) s k) (fun k => HostVal.host0_v1_lo (W0 m ρ c) k jj j hj)
    (HostVal.host0_v2_lo (W0 m ρ c) jj j hj)

theorem v4_k (s : Fin 4096) (j : Fin 512) (jj : Fin 1536) (hj : jj.val = 512 + j.val) :
    W2 (F := Ideal) m ρ c (Proc.devRef .tc main_v4) (ix2 s jj) = proj (aX m c) (aWk m c) (abk m c) s j := by
  refine ((congrFun (W2_arr m ρ c 3) (ix2 s jj)).trans (final0_3 (Run.V1 m ρ) c s jj)).trans ?_
  show affine _ _ _ = affine (fun k => aX m c s k) (fun k => aWk m c k j) (abk m c j)
  exact affine_congr (fun k => HostVal.host0_v3 (W0 m ρ c) s k) (fun k => HostVal.host0_v1_mid (W0 m ρ c) k jj j hj)
    (HostVal.host0_v2_mid (W0 m ρ c) jj j hj)

theorem v4_v (s : Fin 4096) (j : Fin 512) (jj : Fin 1536) (hj : jj.val = 1024 + j.val) :
    W2 (F := Ideal) m ρ c (Proc.devRef .tc main_v4) (ix2 s jj) = proj (aX m c) (aWv m c) (abv m c) s j := by
  refine ((congrFun (W2_arr m ρ c 3) (ix2 s jj)).trans (final0_3 (Run.V1 m ρ) c s jj)).trans ?_
  show affine _ _ _ = affine (fun k => aX m c s k) (fun k => aWv m c k j) (abv m c j)
  exact affine_congr (fun k => HostVal.host0_v3 (W0 m ρ c) s k) (fun k => HostVal.host0_v1_hi (W0 m ρ c) k jj j hj)
    (HostVal.host0_v2_hi (W0 m ρ c) jj j hj)

/-! ### The second pallas_call's operands

Head h, row s, offset d of the queries, keys and values is row s, column 64·h + d of the matching third; at
h = j / 64, d = j % 64 that column is j. The output weights and the remaining operands are as launched. -/

theorem qrow (q : Fin 4096) (j : Fin 512) :
    W3 (F := Ideal) m ρ c (Proc.devRef .tc main_v9) (ix3 (hd j) q (off j)) = proj (aX m c) (aWq m c) (abq m c) q j :=
  (HostVal.host1_v9 (W2 m ρ c) (hd j) q (off j)).trans
    (v4_q m ρ c q j _ (by show 64 * (j.val / 64) + j.val % 64 = j.val; omega))

theorem krow (k : Fin 4096) (j : Fin 512) :
    W3 (F := Ideal) m ρ c (Proc.devRef .tc main_v11) (ix3 (hd j) k (off j)) = proj (aX m c) (aWk m c) (abk m c) k j :=
  (HostVal.host1_v11 (W2 m ρ c) (hd j) k (off j)).trans
    (v4_k m ρ c k j _ (by show 512 + 64 * (j.val / 64) + j.val % 64 = 512 + j.val; omega))

theorem vrow (k : Fin 4096) (j : Fin 512) :
    W3 (F := Ideal) m ρ c (Proc.devRef .tc main_v13) (ix3 (hd j) k (off j)) = proj (aX m c) (aWv m c) (abv m c) k j :=
  (HostVal.host1_v13 (W2 m ρ c) (hd j) k (off j)).trans
    (v4_v m ρ c k j _ (by show 1024 + 64 * (j.val / 64) + j.val % 64 = 1024 + j.val; omega))

theorem worow (j n : Fin 512) :
    W3 (F := Ideal) m ρ c (Proc.devRef .tc main_v14) (ix2 j n) = aWo m c j n :=
  (HostVal.host1_v14 (W2 m ρ c) j n).trans (congrFun (W2_launch m ρ c main_arg7 (by decide) (by decide)) (ix2 j n))

/-! ### The kernel's result is GK -/

theorem kernel_value (q : Fin 4096) (n : Fin 512) :
    (W4 (F := Ideal) m ρ c (Proc.devRef .tc main_v15) : S4096x512.Idx → EReal) (ix2 q n)
      = AttnSpec.GK (fun s k => m ((c : Thread nD τ).loc main_arg0) (ix2 s k)) (fun k j => m ((c : Thread nD τ).loc main_arg1) (ix2 k j))
          (fun j => m ((c : Thread nD τ).loc main_arg2) (ix1 j)) (fun k j => m ((c : Thread nD τ).loc main_arg3) (ix2 k j))
          (fun j => m ((c : Thread nD τ).loc main_arg4) (ix1 j)) (fun k j => m ((c : Thread nD τ).loc main_arg5) (ix2 k j))
          (fun j => m ((c : Thread nD τ).loc main_arg6) (ix1 j)) (fun k j => m ((c : Thread nD τ).loc main_arg7) (ix2 k j))
          (fun j => m ((c : Thread nD τ).loc main_arg8) (ix1 j)) (fun j => m ((c : Thread nD τ).loc main_arg9) (ix1 j))
          (fun j => m ((c : Thread nD τ).loc main_arg10) (ix1 j)) q n := by
  refine ((congrFun (W4_arr m ρ c 8) (ix2 q n)).trans (Arr.final1_8 (Run.V3 m ρ) c q n)).trans ?_
  show _ = rowK (proj (aX m c) (aWq m c) (abq m c) q) (proj (aX m c) (aWk m c) (abk m c)) (proj (aX m c) (aWv m c) (abv m c)) (aWo m c) (abo m c) (aX m c q) (ag m c) (ab m c) n
  exact rowK_congr
    (funext fun j => qrow m ρ c q j)
    (funext fun k => funext fun j => krow m ρ c k j)
    (funext fun k => funext fun j => vrow m ρ c k j)
    (funext fun j => funext fun n' => worow m ρ c j n')
    (funext fun n' => congrFun (W3_launch m ρ c main_arg8 (by decide) (by decide) (by decide)) (ix1 n'))
    (funext fun n' => congrFun (W3_launch m ρ c main_arg0 (by decide) (by decide) (by decide)) (ix2 q n'))
    (funext fun n' => congrFun (W3_launch m ρ c main_arg9 (by decide) (by decide) (by decide)) (ix1 n'))
    (funext fun n' => congrFun (W3_launch m ρ c main_arg10 (by decide) (by decide) (by decide)) (ix1 n'))
    n

end Cert.KernelIdeal.KernelValue

end
-- ==== Proof.RefScore.lean ====
/-
  The reference's attention scores, read at coordinates: the three projections x·W + b, their layout by head
  (entry (h, s, d) is row s, column 64·h + d), the score of query row q against key row k in head h (the contraction
  over the 64 offsets, divided by 8), and the maximum over the 4096 keys folded from −∞.
-/
import proofs.«106357_j15109694948028_2_alg».proof.Proof.Gen.ReferenceIdeal.Read
import proofs.«106357_j15109694948028_2_alg».proof.Proof.Spec
import Idealize.ShloMosaic.Lib.ValueIdx
import Idealize.ShloMosaic.PureOps.Ideal.Laws

noncomputable section

open scoped BigOperators

namespace Cert.ReferenceIdeal.RefScore

open Idealize.ShloMosaic Idealize.ShloMosaic.ValueIdx Cert.ReferenceIdeal Cert.ReferenceIdeal.Read AttnSpec

/-- The argument arrays: the 4096 × 512 input, a 512 × 512 weight, a bias of 512 entries. -/
abbrev TX := (⟨S4096x512, .f32⟩ : BufTy).Contents (Elt Ideal)
abbrev TW := (⟨S512x512, .f32⟩ : BufTy).Contents (Elt Ideal)
abbrev TB := (⟨S512, .f32⟩ : BufTy).Contents (Elt Ideal)

/-- The same arrays by row and column. -/
abbrev mX (x : TX) : Mat 4096 512 := fun s k => x (ix2 s k)
abbrev mW (w : TW) : Mat 512 512 := fun k j => w (ix2 k j)
abbrev rB (b : TB) : Row := fun j => b (ix1 j)

/-! ### The projections x·W + b at row s, column j

Each is a contraction over the 512 input columns plus the bias broadcast down the rows. -/

theorem lidx_v0 (s : Fin 4096) (j k : Fin 512) : lidx_main_v0 (ix2 s j) k = ix2 s k :=
  funext fun a => by match a with | ⟨0, _⟩ => rfl | ⟨1, _⟩ => rfl
theorem ridx_v0 (s : Fin 4096) (j k : Fin 512) : ridx_main_v0 (ix2 s j) k = ix2 k j :=
  funext fun a => by match a with | ⟨0, _⟩ => rfl | ⟨1, _⟩ => rfl
theorem idx_v2_v1 (s : Fin 4096) (j : Fin 512) : idx_main_v1 (idx_main_v2 (ix2 s j)) = ix1 j :=
  funext fun a => by match a with | ⟨0, _⟩ => rfl

/-- The query projection. -/
theorem v3_eq (x0 : TX) (w : TW) (b : TB) (s : Fin 4096) (j : Fin 512) :
    val_main_v3 (F := Ideal) x0 w b (ix2 s j) = proj (mX x0) (mW w) (rB b) s j := by
  rw [val_main_v3_apply, val_main_v0_apply, val_main_v2_apply, val_main_v1_apply]
  simp only [lidx_v0, ridx_v0, idx_v2_v1, Ideal.addf_def]
  rfl

theorem lidx_v4 (s : Fin 4096) (j k : Fin 512) : lidx_main_v4 (ix2 s j) k = ix2 s k :=
  funext fun a => by match a with | ⟨0, _⟩ => rfl | ⟨1, _⟩ => rfl
theorem ridx_v4 (s : Fin 4096) (j k : Fin 512) : ridx_main_v4 (ix2 s j) k = ix2 k j :=
  funext fun a => by match a with | ⟨0, _⟩ => rfl | ⟨1, _⟩ => rfl
theorem idx_v6_v5 (s : Fin 4096) (j : Fin 512) : idx_main_v5 (idx_main_v6 (ix2 s j)) = ix1 j :=
  funext fun a => by match a with | ⟨0, _⟩ => rfl

/-- The key projection. -/
theorem v7_eq (x0 : TX) (w : TW) (b : TB) (s : Fin 4096) (j : Fin 512) :
    val_main_v7 (F := Ideal) x0 w b (ix2 s j) = proj (mX x0) (mW w) (rB b) s j := by
  rw [val_main_v7_apply, val_main_v4_apply, val_main_v6_apply, val_main_v5_apply]
  simp only [lidx_v4, ridx_v4, idx_v6_v5, Ideal.addf_def]
  rfl

theorem lidx_v8 (s : Fin 4096) (j k : Fin 512) : lidx_main_v8 (ix2 s j) k = ix2 s k :=
  funext fun a => by match a with | ⟨0, _⟩ => rfl | ⟨1, _⟩ => rfl
theorem ridx_v8 (s : Fin 4096) (j k : Fin 512) : ridx_main_v8 (ix2 s j) k = ix2 k j :=
  funext fun a => by match a with | ⟨0, _⟩ => rfl | ⟨1, _⟩ => rfl
theorem idx_v10_v9 (s : Fin 4096) (j : Fin 512) : idx_main_v9 (idx_main_v10 (ix2 s j)) = ix1 j :=
  funext fun a => by match a with | ⟨0, _⟩ => rfl

/-- The value projection. -/
theorem v11_eq (x0 : TX) (w : TW) (b : TB) (s : Fin 4096) (j : Fin 512) :
    val_main_v11 (F := Ideal) x0 w b (ix2 s j) = proj (mX x0) (mW w) (rB b) s j := by
  rw [val_main_v11_apply, val_main_v8_apply, val_main_v10_apply, val_main_v9_apply]
  simp only [lidx_v8, ridx_v8, idx_v10_v9, Ideal.addf_def]
  rfl

/-! ### The head layout

Splitting the 512 columns as 8 × 64 and moving the head axis to the front reads entry (h, s, d) at row s,
column 64·h + d: the flat position (s·8 + h)·64 + d of the split array is s·512 + (64·h + d). -/

theorem idx_v13_v12 (h : Fin 8) (s : Fin 4096) (d : Fin 64) :
    idx_main_v12 (idx_main_v13 (ix3 h s d)) = ix2 s (col h d) := by
  have hh : h.val < 8 := h.isLt
  have hd : d.val < 64 := d.isLt
  exact funext fun a => Fin.ext (by
    match a with
    | ⟨0, _⟩ => show ((s.val * 8 + h.val) * 64 + d.val) / 512 = s.val; omega
    | ⟨1, _⟩ => show ((s.val * 8 + h.val) * 64 + d.val) % 512 = 64 * h.val + d.val; omega)

/-- Head h, row s, offset d of the queries. -/
theorem v13_eq (x0 : TX) (w : TW) (b : TB) (h : Fin 8) (s : Fin 4096) (d : Fin 64) :
    val_main_v13 (F := Ideal) x0 w b (ix3 h s d) = proj (mX x0) (mW w) (rB b) s (col h d) := by
  rw [val_main_v13_apply, val_main_v12_apply, idx_v13_v12, v3_eq]

theorem idx_v15_v14 (h : Fin 8) (s : Fin 4096) (d : Fin 64) :
    idx_main_v14 (idx_main_v15 (ix3 h s d)) = ix2 s (col h d) := by
  have hh : h.val < 8 := h.isLt
  have hd : d.val < 64 := d.isLt
  exact funext fun a => Fin.ext (by
    match a with
    | ⟨0, _⟩ => show ((s.val * 8 + h.val) * 64 + d.val) / 512 = s.val; omega
    | ⟨1, _⟩ => show ((s.val * 8 + h.val) * 64 + d.val) % 512 = 64 * h.val + d.val; omega)

/-- Head h, row s, offset d of the keys. -/
theorem v15_eq (x0 : TX) (w : TW) (b : TB) (h : Fin 8) (s : Fin 4096) (d : Fin 64) :
    val_main_v15 (F := Ideal) x0 w b (ix3 h s d) = proj (mX x0) (mW w) (rB b) s (col h d) := by
  rw [val_main_v15_apply, val_main_v14_apply, idx_v15_v14, v7_eq]

theorem idx_v17_v16 (h : Fin 8) (s : Fin 4096) (d : Fin 64) :
    idx_main_v16 (idx_main_v17 (ix3 h s d)) = ix2 s (col h d) := by
  have hh : h.val < 8 := h.isLt
  have hd : d.val < 64 := d.isLt
  exact funext fun a => Fin.ext (by
    match a with
    | ⟨0, _⟩ => show ((s.val * 8 + h.val) * 64 + d.val) / 512 = s.val; omega
    | ⟨1, _⟩ => show ((s.val * 8 + h.val) * 64 + d.val) % 512 = 64 * h.val + d.val; omega)

/-- Head h, row s, offset d of the values. -/
theorem v17_eq (x0 : TX) (w : TW) (b : TB) (h : Fin 8) (s : Fin 4096) (d : Fin 64) :
    val_main_v17 (F := Ideal) x0 w b (ix3 h s d) = proj (mX x0) (mW w) (rB b) s (col h d) := by
  rw [val_main_v17_apply, val_main_v16_apply, idx_v17_v16, v11_eq]

/-! ### The score: the contraction over the 64 offsets of a head, divided by the word 8.0 -/

theorem lidx_v18 (h : Fin 8) (q k : Fin 4096) (d : Fin 64) : lidx_main_v18 (ix3 h q k) d = ix3 h q d :=
  funext fun a => by match a with | ⟨0, _⟩ => rfl | ⟨1, _⟩ => rfl | ⟨2, _⟩ => rfl
theorem ridx_v18 (h : Fin 8) (q k : Fin 4096) (d : Fin 64) : ridx_main_v18 (ix3 h q k) d = ix3 h k d :=
  funext fun a => by match a with | ⟨0, _⟩ => rfl | ⟨1, _⟩ => rfl | ⟨2, _⟩ => rfl

theorem v20_eq (x0 : TX) (x1 : TW) (x2 : TB) (x3 : TW) (x4 : TB) (h : Fin 8) (q k : Fin 4096) :
    val_main_v20 (F := Ideal) x0 x1 x2 x3 x4 (ix3 h q k)
      = scoreR (proj (mX x0) (mW x1) (rB x2) q) (proj (mX x0) (mW x3) (rB x4)) h k := by
  rw [val_main_v20_apply, val_main_v18_apply, val_main_v19_apply, val_main_cst_apply]
  simp only [lidx_v18, ridx_v18, v13_eq, v15_eq, Ideal.hostDivf_def, Ideal.ofBits_def]
  rfl

/-! ### The row maximum

The reduction over the key axis is the fold of max from the initial value −∞ over the 4096 keys; the reference then
takes the maximum of −∞ and that fold. -/

theorem lift_keys (hr : S8x4096x4096.Reduces [2] S8x4096) (h : Fin 8) (q k : Fin 4096) :
    hr.lift (ix2 h q) k = ix3 h q k :=
  funext fun a => Fin.ext (by match a with | ⟨0, _⟩ => rfl | ⟨1, _⟩ => rfl | ⟨2, _⟩ => rfl)

theorem v21_eq (x0 : TX) (x1 : TW) (x2 : TB) (x3 : TW) (x4 : TB) (h : Fin 8) (q : Fin 4096) :
    val_main_v21 (F := Ideal) x0 x1 x2 x3 x4 (ix2 h q)
      = rowmax (scoreR (proj (mX x0) (mW x1) (rB x2) q) (proj (mX x0) (mW x3) (rB x4)) h) := by
  have hr : S8x4096x4096.Reduces [2] S8x4096 := by decide
  unfold val_main_v21
  rw [Host.reduce_eq_fold_single FloatOps.maximumf _ _ Gen.reducesTo_S8x4096x4096_S8x4096_d2 hr Gen.h_S_ (ix2 h q)]
  unfold rowmax
  refine Finset.fold_congr (fun (k : Fin 4096) _ => ?_)
  exact (congrArg (val_main_v20 (F := Ideal) x0 x1 x2 x3 x4) (lift_keys hr h q k)).trans (v20_eq x0 x1 x2 x3 x4 h q k)

theorem v23_eq (x0 : TX) (x1 : TW) (x2 : TB) (x3 : TW) (x4 : TB) (h : Fin 8) (q : Fin 4096) :
    val_main_v23 (F := Ideal) x0 x1 x2 x3 x4 (ix2 h q)
      = max cNegInf (rowmax (scoreR (proj (mX x0) (mW x1) (rB x2) q) (proj (mX x0) (mW x3) (rB x4)) h)) := by
  rw [val_main_v23_apply, val_main_v22_apply, val_main_cst_1_apply, v21_eq]
  rfl

end Cert.ReferenceIdeal.RefScore

end
-- ==== Proof.RefValue.lean ====
/-
  The reference's result, read at coordinates, is the second arrangement of the specification: the softmax weights
  exp (s − max) each divided by their sum, the weighted sum of the value rows per head, the heads laid back as the
  512 columns, the output projection with its bias and the residual, and the layer normalisation of the row.
-/
import proofs.«106357_j15109694948028_2_alg».proof.Proof.RefScore
import proofs.«106357_j15109694948028_2_alg».proof.Proof.Gen.ReferenceIdeal.Read
import proofs.«106357_j15109694948028_2_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read AttnSpec Cert.ReferenceIdeal.RefScore

/-! ### The softmax weights -/

theorem idx_v25_v24 (h : Fin 8) (q k : Fin 4096) : idx_main_v24 (idx_main_v25 (ix3 h q k)) = ix2 h q :=
  funext fun a => by match a with | ⟨0, _⟩ => rfl | ⟨1, _⟩ => rfl

/-- The exponential of the score less the row maximum. -/
theorem v27_eq (x0 : TX) (x1 : TW) (x2 : TB) (x3 : TW) (x4 : TB) (h : Fin 8) (q k : Fin 4096) :
    val_main_v27 (F := Ideal) x0 x1 x2 x3 x4 (ix3 h q k) = pR (proj (mX x0) (mW x1) (rB x2) q) (proj (mX x0) (mW x3) (rB x4)) h k := by
  rw [val_main_v27_apply, val_main_v26_apply, val_main_v25_apply, val_main_v24_apply, idx_v25_v24, v20_eq, v23_eq]
  rfl

theorem idx_v28 (h : Fin 8) (q k : Fin 4096) : idx_main_v28 (ix2 h q) k = ix3 h q k :=
  funext fun a => by match a with | ⟨0, _⟩ => rfl | ⟨1, _⟩ => rfl | ⟨2, _⟩ => rfl

/-- The softmax denominator: the sum over the 4096 keys, started from the zero word. -/
theorem v28_eq (x0 : TX) (x1 : TW) (x2 : TB) (x3 : TW) (x4 : TB) (h : Fin 8) (q : Fin 4096) :
    val_main_v28 (F := Ideal) x0 x1 x2 x3 x4 (ix2 h q) = lR (proj (mX x0) (mW x1) (rB x2) q) (proj (mX x0) (mW x3) (rB x4)) h := by
  rw [val_main_v28_apply, val_main_cst_2_apply]
  simp only [idx_v28, v27_eq, Ideal.ofBits_def, Ideal.ofBits_zero_f32, zero_add]
  rfl

theorem idx_v30_v29 (h : Fin 8) (q k : Fin 4096) : idx_main_v29 (idx_main_v30 (ix3 h q k)) = ix2 h q :=
  funext fun a => by match a with | ⟨0, _⟩ => rfl | ⟨1, _⟩ => rfl

/-- Each weight divided by the denominator. -/
theorem v31_eq (x0 : TX) (x1 : TW) (x2 : TB) (x3 : TW) (x4 : TB) (h : Fin 8) (q k : Fin 4096) :
    val_main_v31 (F := Ideal) x0 x1 x2 x3 x4 (ix3 h q k) = Ideal.div (pR (proj (mX x0) (mW x1) (rB x2) q) (proj (mX x0) (mW x3) (rB x4)) h k) (lR (proj (mX x0) (mW x1) (rB x2) q) (proj (mX x0) (mW x3) (rB x4)) h) := by
  rw [val_main_v31_apply, val_main_v30_apply, val_main_v29_apply, idx_v30_v29, v27_eq, v28_eq]
  rfl

/-! ### The context: the weighted sum of the value rows, per head -/

theorem lidx_v32 (h : Fin 8) (q k : Fin 4096) (d : Fin 64) : lidx_main_v32 (ix3 h q d) k = ix3 h q k :=
  funext fun a => by match a with | ⟨0, _⟩ => rfl | ⟨1, _⟩ => rfl | ⟨2, _⟩ => rfl
theorem ridx_v32 (h : Fin 8) (q k : Fin 4096) (d : Fin 64) : ridx_main_v32 (ix3 h q d) k = ix3 h k d :=
  funext fun a => by match a with | ⟨0, _⟩ => rfl | ⟨1, _⟩ => rfl | ⟨2, _⟩ => rfl

theorem v32_eq (x0 : TX) (x1 : TW) (x2 : TB) (x3 : TW) (x4 : TB) (x5 : TW) (x6 : TB) (h : Fin 8) (q : Fin 4096) (d : Fin 64) :
    val_main_v32 (F := Ideal) x0 x1 x2 x3 x4 x5 x6 (ix3 h q d) = ctxR (proj (mX x0) (mW x1) (rB x2) q) (proj (mX x0) (mW x3) (rB x4)) (proj (mX x0) (mW x5) (rB x6)) h d := by
  rw [val_main_v32_apply]
  simp only [lidx_v32, ridx_v32, v31_eq, v17_eq]
  rfl

/-! ### The heads laid back as columns

Column j of row q is head j / 64 at offset j % 64: the flat position q·512 + j of the joined array is
(q·8 + j / 64)·64 + j % 64 in the split one. -/

theorem idx_v34_v33 (q : Fin 4096) (j : Fin 512) :
    idx_main_v33 (idx_main_v34 (ix2 q j)) = ix3 (hd j) q (off j) := by
  have hj : j.val < 512 := j.isLt
  exact funext fun a => Fin.ext (by
    match a with
    | ⟨0, _⟩ => show (q.val * 512 + j.val) / 64 % 8 = j.val / 64; omega
    | ⟨1, _⟩ => show (q.val * 512 + j.val) / 512 = q.val; omega
    | ⟨2, _⟩ => show (q.val * 512 + j.val) % 64 = j.val % 64; omega)

theorem v34_eq (x0 : TX) (x1 : TW) (x2 : TB) (x3 : TW) (x4 : TB) (x5 : TW) (x6 : TB) (q : Fin 4096) (j : Fin 512) :
    val_main_v34 (F := Ideal) x0 x1 x2 x3 x4 x5 x6 (ix2 q j) = ctxR (proj (mX x0) (mW x1) (rB x2) q) (proj (mX x0) (mW x3) (rB x4)) (proj (mX x0) (mW x5) (rB x6)) (hd j) (off j) := by
  rw [val_main_v34_apply, val_main_v33_apply, idx_v34_v33, v32_eq]

/-! ### The output projection, its bias and the residual -/

theorem lidx_v35 (q : Fin 4096) (n j : Fin 512) : lidx_main_v35 (ix2 q n) j = ix2 q j :=
  funext fun a => by match a with | ⟨0, _⟩ => rfl | ⟨1, _⟩ => rfl
theorem ridx_v35 (q : Fin 4096) (n j : Fin 512) : ridx_main_v35 (ix2 q n) j = ix2 j n :=
  funext fun a => by match a with | ⟨0, _⟩ => rfl | ⟨1, _⟩ => rfl
theorem idx_v37_v36 (q : Fin 4096) (n : Fin 512) : idx_main_v36 (idx_main_v37 (ix2 q n)) = ix1 n :=
  funext fun a => by match a with | ⟨0, _⟩ => rfl

/-- Row q before normalisation: the attention output through Wo, plus its bias, plus the input row. -/
def preRow (x0 : TX) (x1 : TW) (x2 : TB) (x3 : TW) (x4 : TB) (x5 : TW) (x6 : TB) (x7 : TW) (x8 : TB) (q : Fin 4096) : Row :=
  fun n => attnR (proj (mX x0) (mW x1) (rB x2) q) (proj (mX x0) (mW x3) (rB x4)) (proj (mX x0) (mW x5) (rB x6)) (mW x7) n + rB x8 n + mX x0 q n

theorem v39_eq (x0 : TX) (x1 : TW) (x2 : TB) (x3 : TW) (x4 : TB) (x5 : TW) (x6 : TB) (x7 : TW) (x8 : TB) (q : Fin 4096) (n : Fin 512) :
    val_main_v39 (F := Ideal) x0 x1 x2 x3 x4 x5 x6 x7 x8 (ix2 q n) = preRow x0 x1 x2 x3 x4 x5 x6 x7 x8 q n := by
  rw [val_main_v39_apply, val_main_v38_apply, val_main_v35_apply, val_main_v37_apply, val_main_v36_apply]
  simp only [lidx_v35, ridx_v35, idx_v37_v36, v34_eq, Ideal.addf_def]
  rfl

/-! ### The layer normalisation of the row -/

theorem idx_v40 (q : Fin 4096) (n : Fin 512) : idx_main_v40 (ix1 q) n = ix2 q n :=
  funext fun a => by match a with | ⟨0, _⟩ => rfl | ⟨1, _⟩ => rfl
theorem idx_v41 (q : Fin 4096) : idx_main_v41 (ix2 q (0 : Fin 1)) = ix1 q :=
  funext fun a => by match a with | ⟨0, _⟩ => rfl
theorem idx_v44 (q : Fin 4096) (n : Fin 512) : idx_main_v44 (ix2 q n) = ix2 q (0 : Fin 1) :=
  funext fun a => by match a with | ⟨0, _⟩ => rfl | ⟨1, _⟩ => rfl
theorem idx_v47 (q : Fin 4096) (n : Fin 512) : idx_main_v47 (ix1 q) n = ix2 q n :=
  funext fun a => by match a with | ⟨0, _⟩ => rfl | ⟨1, _⟩ => rfl
theorem idx_v48 (q : Fin 4096) : idx_main_v48 (ix2 q (0 : Fin 1)) = ix1 q :=
  funext fun a => by match a with | ⟨0, _⟩ => rfl
theorem idx_v51 (q : Fin 4096) (n : Fin 512) : idx_main_v51 (ix2 q n) = ix2 q (0 : Fin 1) :=
  funext fun a => by match a with | ⟨0, _⟩ => rfl | ⟨1, _⟩ => rfl
theorem idx_v56 (q : Fin 4096) (n : Fin 512) : idx_main_v56 (ix2 q n) = ix2 q (0 : Fin 1) :=
  funext fun a => by match a with | ⟨0, _⟩ => rfl | ⟨1, _⟩ => rfl
theorem idx_v59_v58 (q : Fin 4096) (n : Fin 512) : idx_main_v58 (idx_main_v59 (ix2 q n)) = ix1 n :=
  funext fun a => by match a with | ⟨0, _⟩ => rfl
theorem idx_v62_v61 (q : Fin 4096) (n : Fin 512) : idx_main_v61 (idx_main_v62 (ix2 q n)) = ix1 n :=
  funext fun a => by match a with | ⟨0, _⟩ => rfl

/-- The mean of the row: its sum from the zero word, divided by the word 512.0. -/
theorem v43_eq (x0 : TX) (x1 : TW) (x2 : TB) (x3 : TW) (x4 : TB) (x5 : TW) (x6 : TB) (x7 : TW) (x8 : TB) (q : Fin 4096) :
    val_main_v43 (F := Ideal) x0 x1 x2 x3 x4 x5 x6 x7 x8 (ix2 q (0 : Fin 1)) = mean (preRow x0 x1 x2 x3 x4 x5 x6 x7 x8 q) := by
  rw [val_main_v43_apply, val_main_v41_apply, val_main_v42_apply, val_main_cst_4_apply, idx_v41, val_main_v40_apply,
    val_main_cst_3_apply]
  simp only [idx_v40, v39_eq, Ideal.hostDivf_def, Ideal.ofBits_def, Ideal.ofBits_zero_f32, zero_add]
  rfl

/-- The centred row. -/
theorem v45_eq (x0 : TX) (x1 : TW) (x2 : TB) (x3 : TW) (x4 : TB) (x5 : TW) (x6 : TB) (x7 : TW) (x8 : TB) (q : Fin 4096) (n : Fin 512) :
    val_main_v45 (F := Ideal) x0 x1 x2 x3 x4 x5 x6 x7 x8 (ix2 q n) = (preRow x0 x1 x2 x3 x4 x5 x6 x7 x8 q) n - mean (preRow x0 x1 x2 x3 x4 x5 x6 x7 x8 q) := by
  rw [val_main_v45_apply, val_main_v44_apply, idx_v44, v39_eq, v43_eq]
  rfl

theorem v52_eq (x0 : TX) (x1 : TW) (x2 : TB) (x3 : TW) (x4 : TB) (x5 : TW) (x6 : TB) (x7 : TW) (x8 : TB) (q : Fin 4096) (n : Fin 512) :
    val_main_v52 (F := Ideal) x0 x1 x2 x3 x4 x5 x6 x7 x8 (ix2 q n) = (preRow x0 x1 x2 x3 x4 x5 x6 x7 x8 q) n - mean (preRow x0 x1 x2 x3 x4 x5 x6 x7 x8 q) := by
  rw [val_main_v52_apply, val_main_v51_apply, idx_v51, v39_eq, v43_eq]
  rfl

/-- The variance: the mean of the centred row's squares. -/
theorem v50_eq (x0 : TX) (x1 : TW) (x2 : TB) (x3 : TW) (x4 : TB) (x5 : TW) (x6 : TB) (x7 : TW) (x8 : TB) (q : Fin 4096) :
    val_main_v50 (F := Ideal) x0 x1 x2 x3 x4 x5 x6 x7 x8 (ix2 q (0 : Fin 1))
      = mean (fun n' => ((preRow x0 x1 x2 x3 x4 x5 x6 x7 x8 q) n' - mean (preRow x0 x1 x2 x3 x4 x5 x6 x7 x8 q)) * ((preRow x0 x1 x2 x3 x4 x5 x6 x7 x8 q) n' - mean (preRow x0 x1 x2 x3 x4 x5 x6 x7 x8 q))) := by
  rw [val_main_v50_apply, val_main_v48_apply, val_main_v49_apply, val_main_cst_6_apply, idx_v48, val_main_v47_apply,
    val_main_cst_5_apply]
  simp only [idx_v47, val_main_v46_apply, v45_eq, Ideal.hostDivf_def, Ideal.mulf_def, Ideal.ofBits_def,
    Ideal.ofBits_zero_f32, zero_add]
  rfl

/-- The reciprocal square root of the variance plus ε. -/
theorem v55_eq (x0 : TX) (x1 : TW) (x2 : TB) (x3 : TW) (x4 : TB) (x5 : TW) (x6 : TB) (x7 : TW) (x8 : TB) (q : Fin 4096) :
    val_main_v55 (F := Ideal) x0 x1 x2 x3 x4 x5 x6 x7 x8 (ix2 q (0 : Fin 1))
      = Ideal.rsqrt (mean (fun n' => ((preRow x0 x1 x2 x3 x4 x5 x6 x7 x8 q) n' - mean (preRow x0 x1 x2 x3 x4 x5 x6 x7 x8 q)) * ((preRow x0 x1 x2 x3 x4 x5 x6 x7 x8 q) n' - mean (preRow x0 x1 x2 x3 x4 x5 x6 x7 x8 q))) + cEps) := by
  rw [val_main_v55_apply, val_main_v54_apply, val_main_v53_apply, val_main_cst_7_apply, v50_eq]
  rfl

theorem v63_eq (x0 : TX) (x1 : TW) (x2 : TB) (x3 : TW) (x4 : TB) (x5 : TW) (x6 : TB) (x7 : TW) (x8 : TB) (x9 x10 : TB) (q : Fin 4096) (n : Fin 512) :
    val_main_v63 (F := Ideal) x0 x1 x2 x3 x4 x5 x6 x7 x8 x9 x10 (ix2 q n) = lnorm (preRow x0 x1 x2 x3 x4 x5 x6 x7 x8 q) (rB x9) (rB x10) n := by
  rw [val_main_v63_apply, val_main_v60_apply, val_main_v57_apply, val_main_v56_apply, val_main_v59_apply,
    val_main_v58_apply, val_main_v62_apply, val_main_v61_apply, idx_v56, idx_v59_v58, idx_v62_v61, v52_eq, v55_eq]
  rfl

/-! ### The reference's result is GR -/

theorem ref_is_GR (x0 : TX) (x1 : TW) (x2 : TB) (x3 : TW) (x4 : TB) (x5 : TW) (x6 : TB) (x7 : TW) (x8 : TB) (x9 x10 : TB) (i : S4096x512.Idx) :
    val_main_v63 (F := Ideal) x0 x1 x2 x3 x4 x5 x6 x7 x8 x9 x10 i
      = GR (fun s k => x0 (ix2 s k)) (fun k j => x1 (ix2 k j)) (fun j => x2 (ix1 j)) (fun k j => x3 (ix2 k j))
          (fun j => x4 (ix1 j)) (fun k j => x5 (ix2 k j)) (fun j => x6 (ix1 j)) (fun k j => x7 (ix2 k j))
          (fun j => x8 (ix1 j)) (fun j => x9 (ix1 j)) (fun j => x10 (ix1 j)) (i 0) (i 1) := by
  obtain ⟨q, n, rfl⟩ : ∃ (q : Fin 4096) (n : Fin 512), i = ix2 q n := ⟨i 0, i 1, eq_ix2 i⟩
  exact v63_eq x0 x1 x2 x3 x4 x5 x6 x7 x8 x9 x10 q n

end Cert.ReferenceIdeal.RefValue

end
-- ==== Proof.SpecLaw.lean ====
/-
  The algebraic law joining the two arrangements of the attention row.

  On every extended real: dividing by 8 is multiplying by 1/8, and max ⊥ m = m, so the scores, the weights
  p[h,k] and the denominators l[h] of the two arrangements coincide. With a real query row and real keys each
  score is real, the row maximum of 4096 reals folded from ⊥ is real, each weight is the exponential of a real,
  and l[h] is a positive real l. Then both divisions are multiplication by c = 1/l ≥ 0, (p·c)·v = (p·v)·c, and a
  nonnegative real factor leaves a finite sum on all of EReal, so the weighted sums agree with no condition on
  the values. The output product over the 512 columns is regrouped by (head, offset) along the bijection
  (h, d) ↦ 64·h + d, which uses only commutativity and associativity of +. The layer normalisation is shared.
-/
import proofs.«106357_j15109694948028_2_alg».proof.Proof.Spec

noncomputable section

open scoped BigOperators

namespace AttnSpec

open Idealize.ShloMosaic

/-! ### The float words as extended reals -/

/-- The word `0.125` denotes the real `1/8`. -/
theorem cEighth_eq : cEighth = ((1 / 8 : ℝ) : EReal) := by
  unfold cEighth
  simp [Ideal.ofBits, Ideal.ieee, -EReal.coe_mul]; norm_num

/-- The word `8.0` denotes the real `8`. -/
theorem cEight_eq : cEight = ((8 : ℝ) : EReal) := by
  unfold cEight
  simp [Ideal.ofBits, Ideal.ieee, -EReal.coe_mul]; norm_num

/-- The word `−∞` denotes `⊥`. -/
theorem cNegInf_eq : cNegInf = ⊥ := by
  unfold cNegInf
  simp [Ideal.ofBits, Ideal.ieee]

/-! ### Scores, weights and denominators agree on every extended real -/

/-- Dividing by `8` is multiplying by `1/8`, on all of `EReal`. -/
theorem scoreR_eq_scoreK (qr : Row) (K : Mat 4096 512) : scoreR qr K = scoreK qr K := by
  funext h k
  unfold scoreR scoreK
  rw [cEight_eq, cEighth_eq, Ideal.div_coe (by norm_num : (8 : ℝ) ≠ 0)]

/-- The extra maximum with `−∞` changes nothing: `max ⊥ m = m`. -/
theorem pR_eq_pK (qr : Row) (K : Mat 4096 512) : pR qr K = pK qr K := by
  funext h k
  unfold pR pK
  rw [scoreR_eq_scoreK, cNegInf_eq, max_eq_right bot_le]

theorem lR_eq_lK (qr : Row) (K : Mat 4096 512) : lR qr K = lK qr K := by
  funext h
  unfold lR lK
  rw [pR_eq_pK]

/-! ### Finite sums and maxima of reals are reals -/

/-- The coercion `ℝ → EReal` commutes with finite sums. -/
theorem coe_sum_real {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, (Finset.sum_congr rfl fun i _ => hg i).trans (coe_sum_real s g)⟩

/-- The maximum of finitely many reals, folded from `⊥`, is `⊥` or a real. -/
theorem fold_max_bot_or_real {ι : Type*} (s : Finset ι) (g : ι → ℝ) :
    s.fold max (⊥ : EReal) (fun i => ((g i : ℝ) : EReal)) = ⊥ ∨
      ∃ r : ℝ, s.fold max (⊥ : EReal) (fun i => ((g i : ℝ) : EReal)) = (r : EReal) := by
  classical
  induction s using Finset.induction_on with
  | empty => exact Or.inl Finset.fold_empty
  | insert a s ha ih =>
    right
    rw [Finset.fold_insert ha]
    rcases ih with h | ⟨r, hr⟩
    · rw [h]; exact ⟨g a, max_eq_left bot_le⟩
    · rw [hr]
      rcases le_total ((g a : ℝ) : EReal) (r : EReal) with hle | hle
      · exact ⟨r, max_eq_right hle⟩
      · exact ⟨g a, max_eq_left hle⟩

/-- Over a nonempty index set it is a real: it dominates a member, so it is not `⊥`. -/
theorem fold_max_real {ι : Type*} (s : Finset ι) (hs : s.Nonempty) (g : ι → ℝ) :
    ∃ r : ℝ, s.fold max (⊥ : EReal) (fun i => ((g i : ℝ) : EReal)) = (r : EReal) := by
  rcases fold_max_bot_or_real s g with h | h
  · exfalso
    obtain ⟨a, ha⟩ := hs
    have hle : ((g a : ℝ) : EReal) ≤ s.fold max (⊥ : EReal) (fun i => ((g i : ℝ) : EReal)) :=
      (Finset.le_fold_max _).mpr (Or.inr ⟨a, ha, le_rfl⟩)
    rw [h] at hle
    exact EReal.coe_ne_bot _ (le_bot_iff.mp hle)
  · exact h

theorem rowmax_real (s : Fin 4096 → EReal) (hs : ∀ k, ∃ r : ℝ, s k = (r : EReal)) :
    ∃ r : ℝ, rowmax s = (r : EReal) := by
  choose g hg using hs
  have hs' : s = fun k => ((g k : ℝ) : EReal) := funext hg
  unfold rowmax
  rw [hs', cNegInf_eq]
  exact fold_max_real _ Finset.univ_nonempty g

/-! ### With a real query row and real keys every denominator is a positive real -/

section finite

variable (qr : Row) (K : Mat 4096 512)
  (hq : ∀ j, ∃ r : ℝ, qr j = (r : EReal)) (hK : ∀ k j, ∃ r : ℝ, K k j = (r : EReal))

include hq hK

theorem dotQK_real (h : Fin 8) (k : Fin 4096) : ∃ r : ℝ, dotQK qr K h k = (r : EReal) := by
  unfold dotQK
  refine sum_real _ _ fun d => ?_
  obtain ⟨a, ha⟩ := hq (col h d)
  obtain ⟨b, hb⟩ := hK k (col h d)
  exact ⟨a * b, by rw [ha, hb, EReal.coe_mul]⟩

theorem scoreK_real (h : Fin 8) (k : Fin 4096) : ∃ r : ℝ, scoreK qr K h k = (r : EReal) := by
  obtain ⟨a, ha⟩ := dotQK_real qr K hq hK h k
  exact ⟨a * (1 / 8), by unfold scoreK; rw [ha, cEighth_eq, EReal.coe_mul]⟩

/-- Each weight is the exponential of a real: a positive real. -/
theorem pK_pos_real (h : Fin 8) (k : Fin 4096) : ∃ r : ℝ, 0 < r ∧ pK qr K h k = (r : EReal) := by
  obtain ⟨a, ha⟩ := scoreK_real qr K hq hK h k
  obtain ⟨m, hm⟩ := rowmax_real (scoreK qr K h) (scoreK_real qr K hq hK h)
  refine ⟨Real.exp (a - m), Real.exp_pos _, ?_⟩
  unfold pK
  rw [ha, hm, ← EReal.coe_sub, Ideal.exp_coe]

/-- The softmax denominator, a sum of 4096 positive reals, is a positive real. -/
theorem lK_pos_real (h : Fin 8) : ∃ l : ℝ, 0 < l ∧ lK qr K h = (l : EReal) := by
  choose g hg0 hg using pK_pos_real qr K hq hK h
  refine ⟨∑ k, g k, Finset.sum_pos (fun k _ => hg0 k) Finset.univ_nonempty, ?_⟩
  unfold lK
  exact (Finset.sum_congr rfl fun k _ => hg k).trans (coe_sum_real _ g)

end finite

/-! ### One division after the sum, or each weight divided first -/

/-- A nonnegative real factor moves across a finite sum on all of `EReal`, infinite terms included
    (distributivity over a nonnegative finite factor; general distributivity fails on `EReal`). -/
theorem sum_mul_of_nonneg_real {ι : Type*} (s : Finset ι) (a : ι → EReal) {c : EReal}
    (hc : 0 ≤ c) (hc' : c ≠ ⊤) : ∑ i ∈ s, a i * c = (∑ i ∈ s, a i) * c := by
  classical
  induction s using Finset.induction_on with
  | empty => simp
  | insert x s hx ih =>
    rw [Finset.sum_insert hx, Finset.sum_insert hx, ih, EReal.right_distrib_of_nonneg_of_ne_top hc hc']

/-- With the denominator a positive real `l`, both divisions are multiplication by `1/l ≥ 0`;
    `(p·c)·v = (p·v)·c`, and the factor `c` leaves the sum. No finiteness of the values is used. -/
theorem ctxR_eq_ctxK (qr : Row) (K V : Mat 4096 512)
    (hq : ∀ j, ∃ r : ℝ, qr j = (r : EReal)) (hK : ∀ k j, ∃ r : ℝ, K k j = (r : EReal))
    (h : Fin 8) (d : Fin 64) : ctxR qr K V h d = ctxK qr K V h d := by
  obtain ⟨l, hl0, hl⟩ := lK_pos_real qr K hq hK h
  have hc0 : (0 : EReal) ≤ ((1 / l : ℝ) : EReal) := EReal.coe_nonneg.mpr (by positivity)
  unfold ctxR ctxK
  rw [pR_eq_pK, lR_eq_lK, hl]
  simp only [Ideal.div_coe hl0.ne']
  rw [← sum_mul_of_nonneg_real _ _ hc0 (EReal.coe_ne_top _)]
  exact Finset.sum_congr rfl fun k _ => mul_right_comm _ _ _

/-! ### One sum over the 512 columns, or grouped by head -/

theorem hd_col (h : Fin 8) (d : Fin 64) : hd (col h d) = h := by
  apply Fin.ext
  show (64 * h.val + d.val) / 64 = h.val
  have := d.isLt
  omega

theorem off_col (h : Fin 8) (d : Fin 64) : off (col h d) = d := by
  apply Fin.ext
  show (64 * h.val + d.val) % 64 = d.val
  have := d.isLt
  omega

theorem col_hd_off (j : Fin 512) : col (hd j) (off j) = j := by
  apply Fin.ext
  show 64 * (j.val / 64) + j.val % 64 = j.val
  omega

/-- Column `64·h + d` as a bijection between (head, offset) pairs and the 512 columns. -/
def colEquiv : Fin 8 × Fin 64 ≃ Fin 512 where
  toFun p := col p.1 p.2
  invFun j := (hd j, off j)
  left_inv p := Prod.ext (hd_col p.1 p.2) (off_col p.1 p.2)
  right_inv j := col_hd_off j

/-- Reindexing the sum over columns by (head, offset): only commutativity and associativity of `+`. -/
theorem sum_cols_eq_sum_heads (F : Fin 8 → Fin 64 → EReal) (w : Fin 512 → EReal) :
    ∑ j : Fin 512, F (hd j) (off j) * w j = ∑ h : Fin 8, ∑ d : Fin 64, F h d * w (col h d) := by
  rw [← Equiv.sum_comp colEquiv (fun j => F (hd j) (off j) * w j), Fintype.sum_prod_type]
  refine Finset.sum_congr rfl fun h _ => Finset.sum_congr rfl fun d _ => ?_
  show F (hd (col h d)) (off (col h d)) * w (col h d) = F h d * w (col h d)
  rw [hd_col, off_col]

theorem attnR_eq_attnK (qr : Row) (K V : Mat 4096 512) (Wo : Mat 512 512)
    (hq : ∀ j, ∃ r : ℝ, qr j = (r : EReal)) (hK : ∀ k j, ∃ r : ℝ, K k j = (r : EReal)) :
    attnR qr K V Wo = attnK qr K V Wo := by
  funext n
  show ∑ j : Fin 512, ctxR qr K V (hd j) (off j) * Wo j n
      = ∑ h : Fin 8, ∑ d : Fin 64, ctxK qr K V h d * Wo (col h d) n
  rw [sum_cols_eq_sum_heads (ctxR qr K V) (fun j => Wo j n)]
  exact Finset.sum_congr rfl fun h _ => Finset.sum_congr rfl fun d _ => by
    rw [ctxR_eq_ctxK qr K V hq hK h d]

/-! ### The two arrangements of a row, and of the whole array -/

/-- The second arrangement of a row equals the first when the query row and the keys are real. -/
theorem rowR_eq_rowK (qr : Row) (K V : Mat 4096 512) (Wo : Mat 512 512) (bo xr g b : Row)
    (hq : ∀ j, ∃ r : ℝ, qr j = (r : EReal)) (hK : ∀ k j, ∃ r : ℝ, K k j = (r : EReal)) :
    rowR qr K V Wo bo xr g b = rowK qr K V Wo bo xr g b := by
  unfold rowR rowK
  rw [attnR_eq_attnK qr K V Wo hq hK]

/-- An affine map of real data with real weights and bias is real, entry by entry. -/
theorem proj_real (x : Mat 4096 512) (W : Mat 512 512) (b : Row)
    (hx : ∀ s k, ∃ r : ℝ, x s k = (r : EReal)) (hW : ∀ k j, ∃ r : ℝ, W k j = (r : EReal))
    (hb : ∀ j, ∃ r : ℝ, b j = (r : EReal)) : ∀ s j, ∃ r : ℝ, proj x W b s j = (r : EReal) := by
  intro s j
  obtain ⟨a, ha⟩ := sum_real Finset.univ (fun k : Fin 512 => x s k * W k j) (fun k => by
    obtain ⟨u, hu⟩ := hx s k
    obtain ⟨v, hv⟩ := hW k j
    exact ⟨u * v, by show x s k * W k j = _; rw [hu, hv, EReal.coe_mul]⟩)
  obtain ⟨c, hc⟩ := hb j
  exact ⟨a + c, by unfold proj; rw [ha, hc, EReal.coe_add]⟩

theorem GR_eq_GK (x : Mat 4096 512) (Wq : Mat 512 512) (bq : Row) (Wk : Mat 512 512) (bk : Row)
    (Wv : Mat 512 512) (bv : Row) (Wo : Mat 512 512) (bo g b : Row)
    (hx : ∀ s k, ∃ r : ℝ, x s k = (r : EReal))
    (hWq : ∀ k j, ∃ r : ℝ, Wq k j = (r : EReal)) (hbq : ∀ j, ∃ r : ℝ, bq j = (r : EReal))
    (hWk : ∀ k j, ∃ r : ℝ, Wk k j = (r : EReal)) (hbk : ∀ j, ∃ r : ℝ, bk j = (r : EReal)) :
    GR x Wq bq Wk bk Wv bv Wo bo g b = GK x Wq bq Wk bk Wv bv Wo bo g b := by
  funext q
  unfold GR GK
  exact rowR_eq_rowK _ _ _ _ _ _ _ _ (proj_real x Wq bq hx hWq hbq q) (proj_real x Wk bk hx hWk hbk)

end AttnSpec

end
-- ==== Proof.Finite.lean ====
/-
  From the finiteness precondition to "every input entry is a real number".

  The predicate reads, for each of the eleven input arrays a, the conjunction over all entries of |a i| < +∞, and
  and-s the eleven results. On the extended reals |x| = max x (−x), and max x (−x) < ⊤ excludes both x = ⊤ and
  x = ⊥ (whose negation is ⊤), so x is the coercion of a real.
-/
import proofs.«106357_j15109694948028_2_alg».proof.Pre_finite_inputs
import proofs.«106357_j15109694948028_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx
open Cert.Pre_finite_inputs

/-- The f32 word 0x7F800000 denotes +∞. -/
theorem posInf_eq_top : Ideal.ofBits .f32 0x7F800000#32 = (⊤ : EReal) := by
  simp [Ideal.ofBits, Ideal.ieee]

/-- An extended real whose absolute value max x (−x) lies strictly below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The scalar result shape has a single index. -/
instance subsingleton_S_Idx : Subsingleton S_.Idx := ⟨fun a b => funext fun d => d.elim0⟩

/-- One conjunct of the predicate: if the conjunction over all entries of |a i| < +∞ is 1, every entry of a is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant S_ .f32 0x7F800000#32)))
          (constantI S_ 1 1#1) hr hu ix0 = 1#1)
    (i : s.Idx) : ∃ r : ℝ, a i = (r : EReal) := by
  have e := Host.reduce_andi_all _ _ hr hu ix0 h i
  refine real_of_abs_lt_top (a i) ?_
  have e' : Ideal.cmp .olt (max (a i) (-a i)) (Ideal.ofBits .f32 0x7F800000#32) = 1#1 := e
  rw [posInf_eq_top] at e'
  by_contra hlt
  simp [Ideal.cmp, hlt] at e'

/-- The precondition holds (the predicate of the eleven arrays is 1) only if every entry of every array is a real:
    the predicate is the left-nested conjunction of the eleven per-array conjuncts, each read by `real_of_all`. -/
theorem real_of_pre [Facts]
    (a0 : FVec Ideal S4096x512 .f32) (a1 : FVec Ideal S512x512 .f32) (a2 : FVec Ideal S512 .f32) (a3 : FVec Ideal S512x512 .f32) (a4 : FVec Ideal S512 .f32) (a5 : FVec Ideal S512x512 .f32) (a6 : FVec Ideal S512 .f32) (a7 : FVec Ideal S512x512 .f32) (a8 : FVec Ideal S512 .f32) (a9 : FVec Ideal S512 .f32) (a10 : FVec Ideal S512 .f32)
    (h : Cert.Pre_finite_inputs.fn (F := Ideal) a0 a1 a2 a3 a4 a5 a6 a7 a8 a9 a10 = fun _ => 1#1) :
    (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) := by
  have h0 := congrFun h ix0
  dsimp only [fn, fn_part1, fn_part2, fn_part3] at h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨real_of_all a0 _ _ _ c0,
    real_of_all a1 _ _ _ c1,
    real_of_all a2 _ _ _ c2,
    real_of_all a3 _ _ _ c3,
    real_of_all a4 _ _ _ c4,
    real_of_all a5 _ _ _ c5,
    real_of_all a6 _ _ _ c6,
    real_of_all a7 _ _ _ c7,
    real_of_all a8 _ _ _ c8,
    real_of_all a9 _ _ _ c9,
    real_of_all a10 _ _ _ c10⟩

end Cert.Finite

end
-- ==== Proof.lean ====
/-
  Multi-head attention over 4096 rows of width 512 (8 heads of 64) with an output projection, a residual and a
  layer normalisation of each row: a two-kernel Pallas implementation against its jnp reference, compared on the
  extended reals.

  Both programs compute, for every row q, the function of Spec.lean: the kernel in the arrangement `GK` (scores
  scaled by the exact dyadic 1/8, ONE division by the soft-max denominator after the weighted sum of the values,
  the output product grouped by head), the reference in the arrangement `GR` (scores divided by 8, a redundant
  maximum with −∞, every weight divided by the denominator before the sum, one product over all 512 columns).
  The two arrangements agree wherever each soft-max denominator is a positive real, which holds when the query
  row and the keys are finite; the precondition makes every input finite (Finite.lean), and SpecLaw.lean proves
  the agreement. The kernel's side is read off the run of its @main (KIRun.lean names every buffer at the end;
  KValue.lean reads the result array index by index back to the launch memory); the reference's side is its
  generated run, read stage by stage (RefValue.lean). The three frame claims are the runs with the results
  dropped; the kernel's idealisation rewrote nothing, so that claim is trivial.
-/
import proofs.«106357_j15109694948028_2_alg».proof.Defs
import proofs.«106357_j15109694948028_2_alg».proof.Proof.Gen.Kernel
import proofs.«106357_j15109694948028_2_alg».proof.Proof.Gen.KernelIdeal
import proofs.«106357_j15109694948028_2_alg».proof.Proof.Gen.ReferenceIdeal
import proofs.«106357_j15109694948028_2_alg».proof.Proof.Gen.ReferenceIdeal.Run
import proofs.«106357_j15109694948028_2_alg».proof.Proof.Gen.ReferenceIdeal.Read
import proofs.«106357_j15109694948028_2_alg».proof.Proof.Gen.Pre_finite_inputs
import proofs.«106357_j15109694948028_2_alg».proof.Proof.KBRun
import proofs.«106357_j15109694948028_2_alg».proof.Proof.KIRun
import proofs.«106357_j15109694948028_2_alg».proof.Proof.KValue
import proofs.«106357_j15109694948028_2_alg».proof.Proof.RefValue
import proofs.«106357_j15109694948028_2_alg».proof.Proof.SpecLaw
import proofs.«106357_j15109694948028_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The function of the launch memory both result arrays end at: `GK` of the eleven argument arrays. -/
def result (m : (ℓ : Loc Cert.KernelIdeal.nD Cert.KernelIdeal.τ Cert.KernelIdeal.sig) → Buf (Elt Ideal) ℓ) (c : Dev Cert.KernelIdeal.nD) :
    Cert.KernelIdeal.S4096x512.Idx → EReal :=
  fun i => AttnSpec.GK (fun s k => m ((c.tc : Thread Cert.KernelIdeal.nD Cert.KernelIdeal.τ).loc Cert.KernelIdeal.main_arg0) (ix2 s k))
    (fun s k => m ((c.tc : Thread Cert.KernelIdeal.nD Cert.KernelIdeal.τ).loc Cert.KernelIdeal.main_arg1) (ix2 s k))
    (fun j => m ((c.tc : Thread Cert.KernelIdeal.nD Cert.KernelIdeal.τ).loc Cert.KernelIdeal.main_arg2) (ix1 j))
    (fun s k => m ((c.tc : Thread Cert.KernelIdeal.nD Cert.KernelIdeal.τ).loc Cert.KernelIdeal.main_arg3) (ix2 s k))
    (fun j => m ((c.tc : Thread Cert.KernelIdeal.nD Cert.KernelIdeal.τ).loc Cert.KernelIdeal.main_arg4) (ix1 j))
    (fun s k => m ((c.tc : Thread Cert.KernelIdeal.nD Cert.KernelIdeal.τ).loc Cert.KernelIdeal.main_arg5) (ix2 s k))
    (fun j => m ((c.tc : Thread Cert.KernelIdeal.nD Cert.KernelIdeal.τ).loc Cert.KernelIdeal.main_arg6) (ix1 j))
    (fun s k => m ((c.tc : Thread Cert.KernelIdeal.nD Cert.KernelIdeal.τ).loc Cert.KernelIdeal.main_arg7) (ix2 s k))
    (fun j => m ((c.tc : Thread Cert.KernelIdeal.nD Cert.KernelIdeal.τ).loc Cert.KernelIdeal.main_arg8) (ix1 j))
    (fun j => m ((c.tc : Thread Cert.KernelIdeal.nD Cert.KernelIdeal.τ).loc Cert.KernelIdeal.main_arg9) (ix1 j))
    (fun j => m ((c.tc : Thread Cert.KernelIdeal.nD Cert.KernelIdeal.τ).loc Cert.KernelIdeal.main_arg10) (ix1 j)) (i 0) (i 1)

/-- The kernel's run ends with its result array at `result` and its arguments unchanged; the reference's run, from
    a memory agreeing on the arguments, ends with its result array at the second arrangement of the same function,
    which is the first under the precondition's finiteness. -/
theorem algebraic : Cert.algebraic_KernelIdeal_ReferenceIdeal := by
  intro m ρ m' ρ' hpre hagree
  refine ⟨fun c => result m c, ?_, ?_⟩
  · refine (θ_run Cert.KernelIdeal.defs _ _).mono (fun r h c => ⟨?_,
      (h c _ (Cert.KernelIdeal.Run.mem_uc Cert.KernelIdeal.main_arg0 (by decide))).trans (Cert.KernelIdeal.Run.W4_main_arg0 m ρ c),
      (h c _ (Cert.KernelIdeal.Run.mem_uc Cert.KernelIdeal.main_arg1 (by decide))).trans (Cert.KernelIdeal.Run.W4_main_arg1 m ρ c),
      (h c _ (Cert.KernelIdeal.Run.mem_uc Cert.KernelIdeal.main_arg2 (by decide))).trans (Cert.KernelIdeal.Run.W4_main_arg2 m ρ c),
      (h c _ (Cert.KernelIdeal.Run.mem_uc Cert.KernelIdeal.main_arg3 (by decide))).trans (Cert.KernelIdeal.Run.W4_main_arg3 m ρ c),
      (h c _ (Cert.KernelIdeal.Run.mem_uc Cert.KernelIdeal.main_arg4 (by decide))).trans (Cert.KernelIdeal.Run.W4_main_arg4 m ρ c),
      (h c _ (Cert.KernelIdeal.Run.mem_uc Cert.KernelIdeal.main_arg5 (by decide))).trans (Cert.KernelIdeal.Run.W4_main_arg5 m ρ c),
      (h c _ (Cert.KernelIdeal.Run.mem_uc Cert.KernelIdeal.main_arg6 (by decide))).trans (Cert.KernelIdeal.Run.W4_main_arg6 m ρ c),
      (h c _ (Cert.KernelIdeal.Run.mem_uc Cert.KernelIdeal.main_arg7 (by decide))).trans (Cert.KernelIdeal.Run.W4_main_arg7 m ρ c),
      (h c _ (Cert.KernelIdeal.Run.mem_uc Cert.KernelIdeal.main_arg8 (by decide))).trans (Cert.KernelIdeal.Run.W4_main_arg8 m ρ c),
      (h c _ (Cert.KernelIdeal.Run.mem_uc Cert.KernelIdeal.main_arg9 (by decide))).trans (Cert.KernelIdeal.Run.W4_main_arg9 m ρ c),
      (h c _ (Cert.KernelIdeal.Run.mem_uc Cert.KernelIdeal.main_arg10 (by decide))).trans (Cert.KernelIdeal.Run.W4_main_arg10 m ρ c)⟩)
      (Cert.KernelIdeal.Run.run_all (F := Ideal) m ρ)
    refine (h c _ (Cert.KernelIdeal.Run.mem_uc Cert.KernelIdeal.main_v15 (by decide))).trans ?_
    funext i
    rw [eq_ix2 i]
    exact Cert.KernelIdeal.KernelValue.kernel_value m ρ c (i 0) (i 1)
  · refine (θ_run Cert.ReferenceIdeal.defs _ _).mono (fun r h c => ⟨(h c).1.trans ?_, (h c).2⟩)
      (Cert.ReferenceIdeal.Value.run (F := Ideal) m' ρ')
    obtain ⟨f0, f1, f2, f3, f4, f5, f6, f7, f8, f9, f10⟩ := Cert.Finite.real_of_pre _ _ _ _ _ _ _ _ _ _ _ (hpre c)
    obtain ⟨e0, e1, e2, e3, e4, e5, e6, e7, e8, e9, e10⟩ := hagree c
    rw [Cert.ReferenceIdeal.Read.val_main_v63_eq, e0, e1, e2, e3, e4, e5, e6, e7, e8, e9, e10]
    funext i
    rw [Cert.ReferenceIdeal.RefValue.ref_is_GR]
    exact congrFun (congrFun (AttnSpec.GR_eq_GK _ _ _ _ _ _ _ _ _ _ _
      (fun s k => f0 (ix2 s k)) (fun k j => f1 (ix2 k j)) (fun j => f2 (ix1 j)) (fun k j => f3 (ix2 k j)) (fun j => f4 (ix1 j))) (i 0)) (i 1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
